-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x1024 : Shape := ⟨2, ![256, 1024]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S1024x1024 : Shape := ⟨2, ![1024, 1024]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S512x1024 .f32) (main_arg5 : FVec F S512 .f32) (main_arg6 : FVec F S1024x1024 .f32) (main_arg7 : FVec F S1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S256x512 .f32) (main_arg1 : FVec F S256x1024 .f32) (main_arg2 : FVec F S1024x512 .f32) (main_arg3 : FVec F S1024 .f32) (main_arg4 : FVec F S512x1024 .f32) (main_arg5 : FVec F S512 .f32) (main_arg6 : FVec F S1024x1024 .f32) (main_arg7 : FVec F S1024 .f32) (main_arg8 : FVec F S1024 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S256x512 : Shape := ⟨2, ![256, 512]⟩
abbrev S256x1024 : Shape := ⟨2, ![256, 1024]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S1024x1024 : Shape := ⟨2, ![1024, 1024]⟩
abbrev S128x512 : Shape := ⟨2, ![128, 512]⟩
abbrev S128x1024 : Shape := ⟨2, ![128, 1024]⟩
abbrev S1x1024 : Shape := ⟨2, ![1, 1024]⟩
abbrev S32x128 : Shape := ⟨2, ![32, 128]⟩
abbrev S32x1024 : Shape := ⟨2, ![32, 1024]⟩
abbrev S32x128x1 : Shape := ⟨3, ![32, 128, 1]⟩
abbrev S32x1x128 : Shape := ⟨3, ![32, 1, 128]⟩
abbrev S32x128x128 : Shape := ⟨3, ![32, 128, 128]⟩
abbrev S1x512 : Shape := ⟨2, ![1, 512]⟩
abbrev S128 : Shape := ⟨1, ![128]⟩
abbrev S128x1 : Shape := ⟨2, ![128, 1]⟩

abbrev nBuf : Space → Nat
  | .hbm => 19
  | .vmem => 34
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S1024x512, .bf16⟩
  | .hbm, ⟨13, _⟩ => ⟨S1024x1024, .bf16⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .local _ .vmem, ⟨0, _⟩ => ⟨S128x512, .f32⟩
  | .local _ .vmem, ⟨1, _⟩ => ⟨S128x512, .f32⟩
  | .local _ .vmem, ⟨2, _⟩ => ⟨S512x1024, .bf16⟩
  | .local _ .vmem, ⟨3, _⟩ => ⟨S1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | .local _ .vmem, ⟨21, _⟩ => ⟨S32x128, .f32⟩
  | .local _ .vmem, ⟨22, _⟩ => ⟨S32x128, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S1024x512, .bf16⟩
  | .local _ .vmem, ⟨28, _⟩ => ⟨S512, .f32⟩
  | .local _ .vmem, ⟨29, _⟩ => ⟨S1024x1024, .bf16⟩
  | .local _ .vmem, ⟨30, _⟩ => ⟨S1024, .f32⟩
  | .local _ .vmem, ⟨31, _⟩ => ⟨S1024, .f32⟩
  | .local _ .vmem, ⟨32, _⟩ => ⟨S128x1024, .f32⟩
  | .local _ .vmem, ⟨33, _⟩ => ⟨S128x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

@[reducible] def k1_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k1_mult1 (k1_t1 : Fin k1_t1_loop.trips) : BitVec 32 :=
  let c0_i32_16 : BitVec 32 := 0#32
  let c0_i32 : BitVec 32 := 0#32
  let c1_i32 : BitVec 32 := 1#32
  let arg9 : BitVec 32 := Scf.iv c0_i32 c1_i32 k1_t1
  let c1_i32_15 : BitVec 32 := 1#32
  let v19 : BitVec 32 := Scalar.muli arg9 c1_i32_15
  let v20 : BitVec 32 := Scalar.addi c0_i32_16 v19
  let c128_i32 : BitVec 32 := 128#32
  let v21 : BitVec 32 := Scalar.muli v20 c128_i32
  v21
def k1_off1 (k1_t1 : Fin k1_t1_loop.trips) : Fin 2 → Nat :=
  let c0_17 : Index := 0#32
  let c0_i32_16 : BitVec 32 := 0#32
  let c0_i32 : BitVec 32 := 0#32
  let c1_i32 : BitVec 32 := 1#32
  let arg9 : BitVec 32 := Scf.iv c0_i32 c1_i32 k1_t1
  let c1_i32_15 : BitVec 32 := 1#32
  let v19 : BitVec 32 := Scalar.muli arg9 c1_i32_15
  let v20 : BitVec 32 := Scalar.addi c0_i32_16 v19
  let c128_i32 : BitVec 32 := 128#32
  let v21 : BitVec 32 := Scalar.muli v20 c128_i32
  let v22 : BitVec 32 := v21
  let v23 : Index := Scalar.indexCast v22
  ![0, v23.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S32x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S32x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S32x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S1024x512_S512x1024_1_0 : S1024x512.Transposes [1, 0] S512x1024
  bitsLt_bf16_f32 : FTy.bits .bf16 < FTy.bits .f32
  transposes_S512x1024_S1024x512_1_0 : S512x1024.Transposes [1, 0] S1024x512
  inb_S128x512_S128x512_0_0 : ∀ a, (![0, 0] : Fin 2 → Nat) a + S128x512.size a ≤ S128x512.size a
  h_S128x512 : 0 < S128x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  reduces_S32x128x128_S32x128 : S32x128x128.Reduces [2] S32x128
  shapeCasts_S128x1024_S128x1024 : S128x1024.ShapeCasts S128x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  concatenates_S128x512_S128x512_S128x1024_d1 : Shape.Concatenates [S128x512, S128x512] S128x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S128x1024_S128 : S128x1024.Reduces [1] S128
  shapeCasts_S128_S128x1 : S128.ShapeCasts S128x1
  broadcasts_S128x1_S128x1024 : S128x1.Broadcasts S128x1024
  dot_S128x512_S512x1024_S128x1024_1_0_0_1_n_n_wf : DotDims.WF S128x512 S512x1024 S128x1024 [1] [0] [0] [1] [] []
  dot_S128x1024_S1024x512_S128x512_1_0_0_1_n_n_wf : DotDims.WF S128x1024 S1024x512 S128x512 [1] [0] [0] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S256x512.size a
  hwx0_0 : ∀ i : grid0.Coords, EltTy.bits .f32 = 32 ∨ (Rect.block (s := S256x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S256x1024.size a
  hwx0_3 : ∀ i : grid0.Coords, EltTy.bits .f32 = 32 ∨ (Rect.block (s := S256x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S256x1024.size a
  hwx0_4 : ∀ i : grid0.Coords, EltTy.bits .f32 = 32 ∨ (Rect.block (s := S256x1024) S128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S256x1024.size a
  hwx0_5 : ∀ i : grid0.Coords, EltTy.bits .f32 = 32 ∨ (Rect.block (s := S256x1024) S128x1024.size (cc0_transform_5 i) (hinb0_5 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S32x128.size a ≤ S32x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S256x1024.size a
  hwx1_0 : ∀ i : grid1.Coords, EltTy.bits .f32 = 32 ∨ (Rect.block (s := S256x1024) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S256x1024.size a
  hwx1_1 : ∀ i : grid1.Coords, EltTy.bits .f32 = 32 ∨ (Rect.block (s := S256x1024) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1024.size a ≤ S256x1024.size a
  hwx1_2 : ∀ i : grid1.Coords, EltTy.bits .f32 = 32 ∨ (Rect.block (s := S256x1024) S32x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1024.size a ≤ S256x1024.size a
  hwx1_3 : ∀ i : grid1.Coords, EltTy.bits .f32 = 32 ∨ (Rect.block (s := S256x1024) S32x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128.size a ≤ S256x1024.size a
  hwx1_4 : ∀ i : grid1.Coords, EltTy.bits .f32 = 32 ∨ (Rect.block (s := S256x1024) S32x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S256x1024.size a
  hwx1_5 : ∀ i : grid1.Coords, EltTy.bits .f32 = 32 ∨ (Rect.block (s := S256x1024) S32x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1024.size a ≤ S256x1024.size a
  hwx2_0 : ∀ i : grid2.Coords, EltTy.bits .f32 = 32 ∨ (Rect.block (s := S256x1024) S128x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S256x1024.size a
  hwx2_1 : ∀ i : grid2.Coords, EltTy.bits .f32 = 32 ∨ (Rect.block (s := S256x1024) S128x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S1024x512.size a
  hwx2_2 : ∀ i : grid2.Coords, EltTy.bits .bf16 = 32 ∨ (Rect.block (s := S1024x512) S1024x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S1024x1024.size a
  hwx2_4 : ∀ i : grid2.Coords, EltTy.bits .bf16 = 32 ∨ (Rect.block (s := S1024x1024) S1024x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024.size a ≤ S1024.size a
  hwx2_6 : ∀ i : grid2.Coords, EltTy.bits .f32 = 32 ∨ (Rect.block (s := S1024) S1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x1024.size a ≤ S256x1024.size a
  hwx2_7 : ∀ i : grid2.Coords, EltTy.bits .f32 = 32 ∨ (Rect.block (s := S256x1024) S128x1024.size (cc2_transform_7 i) (hinb2_7 i)).WholeWords (EltTy.packing .f32)

variable [Facts₀]

def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S128x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S128x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_1) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_2) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S32x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_2) S32x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S32x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S32x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6) S128x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1024x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S128x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S256x512 : Shape := ⟨2, ![256, 512]⟩
abbrev S256x1024 : Shape := ⟨2, ![256, 1024]⟩
abbrev S1024x512 : Shape := ⟨2, ![1024, 512]⟩
abbrev S1024 : Shape := ⟨1, ![1024]⟩
abbrev S512x1024 : Shape := ⟨2, ![512, 1024]⟩
abbrev S512 : Shape := ⟨1, ![512]⟩
abbrev S1024x1024 : Shape := ⟨2, ![1024, 1024]⟩
abbrev S1x1024 : Shape := ⟨2, ![1, 1024]⟩
abbrev S256x1024x1 : Shape := ⟨3, ![256, 1024, 1]⟩
abbrev S256x1x1024 : Shape := ⟨3, ![256, 1, 1024]⟩
abbrev S256x1024x1024 : Shape := ⟨3, ![256, 1024, 1024]⟩
abbrev S_ : Shape := ⟨0, ![]⟩
abbrev S1x512 : Shape := ⟨2, ![1, 512]⟩
abbrev S256 : Shape := ⟨1, ![256]⟩
abbrev S256x1 : Shape := ⟨2, ![256, 1]⟩

abbrev nBuf : Space → Nat
  | .hbm => 79
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x1024, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S512x1024, .f32⟩
  | .hbm, ⟨10, _⟩ => ⟨S256x1024, .f32⟩
  | .hbm, ⟨11, _⟩ => ⟨S1x1024, .f32⟩
  | .hbm, ⟨12, _⟩ => ⟨S256x1024, .f32⟩
  | .hbm, ⟨13, _⟩ => ⟨S256x1024, .f32⟩
  | .hbm, ⟨14, _⟩ => ⟨S256x1024x1, .f32⟩
  | .hbm, ⟨15, _⟩ => ⟨S256x1x1024, .f32⟩
  | .hbm, ⟨16, _⟩ => ⟨S256x1024x1024, .f32⟩
  | .hbm, ⟨17, _⟩ => ⟨S256x1024x1024, .f32⟩
  | .hbm, ⟨18, _⟩ => ⟨S256x1024x1024, .f32⟩
  | .hbm, ⟨19, _⟩ => ⟨S256x1024x1024, .f32⟩
  | .hbm, ⟨20, _⟩ => ⟨S256x1024x1024, .f32⟩
  | .hbm, ⟨21, _⟩ => ⟨S_, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S1024x512, .f32⟩
  | .hbm, ⟨34, _⟩ => ⟨S256x512, .f32⟩
  | .hbm, ⟨35, _⟩ => ⟨S1x512, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S256x512, .f32⟩
  | .hbm, ⟨40, _⟩ => ⟨S_, .f32⟩
  | .hbm, ⟨41, _⟩ => ⟨S256x512, .f32⟩
  | .hbm, ⟨42, _⟩ => ⟨S256x512, .f32⟩
  | .hbm, ⟨43, _⟩ => ⟨S_, .f32⟩
  | .hbm, ⟨44, _⟩ => ⟨S256x512, .f32⟩
  | .hbm, ⟨45, _⟩ => ⟨S256x512, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256x1024, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256, .f32⟩
  | .hbm, ⟨61, _⟩ => ⟨S256x1, .f32⟩
  | .hbm, ⟨62, _⟩ => ⟨S_, .f32⟩
  | .hbm, ⟨63, _⟩ => ⟨S256x1, .f32⟩
  | .hbm, ⟨64, _⟩ => ⟨S256x1, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S256x1, .f32⟩
  | .hbm, ⟨71, _⟩ => ⟨S256x1024, .f32⟩
  | .hbm, ⟨72, _⟩ => ⟨S256x1024, .f32⟩
  | .hbm, ⟨73, _⟩ => ⟨S1x1024, .f32⟩
  | .hbm, ⟨74, _⟩ => ⟨S256x1024, .f32⟩
  | .hbm, ⟨75, _⟩ => ⟨S256x1024, .f32⟩
  | .hbm, ⟨76, _⟩ => ⟨S1x1024, .f32⟩
  | .hbm, ⟨77, _⟩ => ⟨S256x1024, .f32⟩
  | .hbm, ⟨78, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S256x1024_S256x1024x1_0_1 : S256x1024.BroadcastsInDim S256x1024x1 (![0, 1] : Fin 2 → Fin S256x1024x1.rank)
  bcast_S256x1024_S256x1x1024_0_2 : S256x1024.BroadcastsInDim S256x1x1024 (![0, 2] : Fin 2 → Fin S256x1x1024.rank)
  bcast_S256x1024x1_S256x1024x1024_0_1_2 : S256x1024x1.BroadcastsInDim S256x1024x1024 (![0, 1, 2] : Fin 3 → Fin S256x1024x1024.rank)
  bcast_S256x1x1024_S256x1024x1024_0_1_2 : S256x1x1024.BroadcastsInDim S256x1024x1024 (![0, 1, 2] : Fin 3 → Fin S256x1024x1024.rank)
  reducesTo_S256x1024x1024_S256x1024_d2 : S256x1024x1024.ReducesTo [2] S256x1024
  h_S_ : 0 < S_.numel
  bcast_S_S256x1024 : S_.BroadcastsInDim S256x1024 (![] : Fin 0 → Fin S256x1024.rank)
  transposes_S512x1024_S1024x512_1_0 : S512x1024.Transposes [1, 0] S1024x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  concatenates_S256x512_S256x512_S256x1024_d1 : Shape.Concatenates [S256x512, S256x512] S256x1024 1
  reducesTo_S256x1024_S256_d1 : S256x1024.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []
  dot_S256x1024_S1024x1024_S256x1024_1_0_0_1_n_n_wf : DotDims.WF S256x1024 S1024x1024 S256x1024 [1] [0] [0] [1] [] []

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.IdealR0.lean ====
/-
  Region 0: phi = x · Wpᵀ + bp with cos phi and sin phi, 128 rows of the batch at each of its two grid points.

  Stated at a parameter V, the contents of the core's buffers when the region is entered.  At point t the body reads
  the point's block of x (rows 128 t … 128 t + 127), all of the transposed weights and all of the bias, and stores the
  three results whole into the three output windows' buffers; so after the body each output buffer holds one function of
  the three input blocks, and each input buffer still holds its block.
-/
import proofs.«168497_j76398878261811_2_alg».proof.Proof.Gen.KernelIdeal.Launch
import proofs.«168497_j76398878261811_2_alg».proof.Proof.Gen.KernelIdeal.Skeleton
import proofs.«168497_j76398878261811_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or the
    block index did not move: rows of x (fetched at both points). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The transposed weights (one block, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias (one block, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S128x512 := Rect.unit (s := S128x512) ![0, 0] S128x512.size inb_S128x512_S128x512_0_0
abbrev rW : Rect S512x1024 := Rect.unit (s := S512x1024) ![0, 0] S512x1024.size inb_S512x1024_S512x1024_0_0
abbrev rB : Rect S1024 := Rect.unit (s := S1024) ![0] S1024.size inb_S1024_S1024_0
abbrev rO : Rect S128x1024 := Rect.unit (s := S128x1024) ![0, 0] S128x1024.size inb_S128x1024_S128x1024_0_0

/-- What the body leaves in the three output buffers, from the three input blocks: phi, its cosine, its sine. -/
def phiBlk (x : Vec F S128x512 .f32) (w : Vec F S512x1024 .bf16) (b : Vec F S1024 .f32) : Vec F S128x1024 .f32 :=
  View.canon [⟨rO, k0_pay1 (View.ld x rX) (View.ld w rW) (View.ld b rB)⟩]
def cosBlk (x : Vec F S128x512 .f32) (w : Vec F S512x1024 .bf16) (b : Vec F S1024 .f32) : Vec F S128x1024 .f32 :=
  View.canon [⟨rO, k0_pay2 (View.ld x rX) (View.ld w rW) (View.ld b rB)⟩]
def sinBlk (x : Vec F S128x512 .f32) (w : Vec F S512x1024 .bf16) (b : Vec F S1024 .f32) : Vec F S128x1024 .f32 :=
  View.canon [⟨rO, k0_pay3 (View.ld x rX) (View.ld w rW) (View.ld b rB)⟩]

/-- One whole-buffer store covers the buffer. -/
theorem coverO (p0 : Vec F S128x1024 .f32) (y : S128x1024.Idx) :
    ∃ pc ∈ ([⟨rO, p0⟩] : List (View.Piece (Elt F) S128x1024 .f32)), y ∈ pc.1.set :=
  View.cover_of_tiled [⟨rO, p0⟩] S128x1024.size (by rfl) y

set_option maxHeartbeats 1000000 in
/-- The body on whole buffers: the inputs at x, w, b and the outputs at anything; it runs to the continuation with the
    inputs as they were and the outputs at phi, cos phi, sin phi of the inputs. -/
theorem sound_kernel0 (c : Dev nD) (E : Set ℕ) (i : grid0.Coords)
    (arg1 : Memref sig .tc .vmem S128x512 .f32) (harg1 : arg1.IsWhole) (arg2 : Memref sig .tc .vmem S512x1024 .bf16) (harg2 : arg2.IsWhole)
    (arg3 : Memref sig .tc .vmem S1024 .f32) (harg3 : arg3.IsWhole) (arg4 : Memref sig .tc .vmem S128x1024 .f32) (harg4 : arg4.IsWhole)
    (arg5 : Memref sig .tc .vmem S128x1024 .f32) (harg5 : arg5.IsWhole) (arg6 : Memref sig .tc .vmem S128x1024 .f32) (harg6 : arg6.IsWhole)
    (x : Vec F S128x512 .f32) (w : Vec F S512x1024 .bf16) (b : Vec F S1024 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (phiBlk x w b) ∗ owns (c : Thread nD τ) arg5 fullShare (cosBlk x w b)
            ∗ owns (c : Thread nD τ) arg6 fullShare (sinBlk x w b)) -∗ K ⟨⟩))
      ⊢ wp frame (wpE (defs₀ (F := F)) Variants.none c none) E (cc0__phi_kernel i arg1 harg1 arg2 harg2 arg3 harg3 arg4 harg4 arg5 harg5 arg6 harg6) K := by
  simp only [cc0__phi_kernel_eq_skeleton]; unfold cc0__phi_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  isplitl [H4]
  · iexists _; isplitr
    swap; · iexact H4
    ipureintro
    exact View.read_writes_eq_canon _ _ _ (coverO _)
  iexists _; isplitr
  swap; · iexact H5
  ipureintro
  exact View.read_writes_eq_canon _ _ _ (coverO _)

/-! ## The pipeline's proof data -/

/-- Pipeline 0's proof data on core c: the arrays as the region finds them; after the body at point t each input's
    buffer at its block and the three outputs' at phi, cos phi, sin phi of the point's input blocks; the invariant is the
    buffers the region does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => phiBlk (iblk0 V c 0 t) (iblk0 V c 1 t) (iblk0 V c 2 t)
    | ⟨4, _⟩ => cosBlk (iblk0 V c 0 t) (iblk0 V c 1 t) (iblk0 V c 2 t)
    | ⟨5, _⟩ => sinBlk (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = phiBlk (iblk0 V c 0 t) (iblk0 V c 1 t) (iblk0 V c 2 t) := by dsimp only [dat0]
theorem after0_4 (c : Dev nD) (t : Fin cfg0.N) : (dat0 V c).after 4 t = cosBlk (iblk0 V c 0 t) (iblk0 V c 1 t) (iblk0 V c 2 t) := by dsimp only [dat0]
theorem after0_5 (c : Dev nD) (t : Fin cfg0.N) : (dat0 V c).after 5 t = sinBlk (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealR1.lean ====
/-
  Region 1: ca = prev_ca · 0.95 + (mean over j of the coherence term) · 0.05, one 32 × 128 block at each of its 64 grid
  points (8 row blocks by 8 column blocks).

  Stated at a parameter V, the contents of the core's buffers when the region is entered.  At point (b, i) the body
  reads the (b, i) blocks of cos phi and sin phi, the whole 32-row strips b of cos phi and sin phi, and the (b, i) block
  of prev_ca.  It clears a 32 × 128 scratch accumulator, adds to it over 8 trips of a counted loop the lane sums of
  |cos_i cos_j + sin_i sin_j| for the trip's 128 columns j, and stores prev_ca · 0.95 + acc · 2⁻¹⁰ · 0.05 whole into the
  output buffer.  The accumulator is overwritten whole before it is read, so what the output buffer ends with does not
  depend on what the scratch held; the pieces the output ends with are read off the run.  The cos phi and sin phi arrays
  each stand behind two windows (a block and a strip): each is held at two half shares.
-/
import proofs.«168497_j76398878261811_2_alg».proof.Proof.Gen.KernelIdeal.Launch
import proofs.«168497_j76398878261811_2_alg».proof.Proof.Gen.KernelIdeal.Skeleton
import proofs.«168497_j76398878261811_2_alg».proof.Proof.Gen.KernelIdeal.Points
import proofs.«168497_j76398878261811_2_alg».proof.Proof.Gen.KernelIdeal.Loops
import Idealize.ShloMosaic.Lib.Ring
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body on any buffers: its output's pieces are what the run finds -/

/-- One buffer of the output window, through which its contents are stated (the choice does not matter). -/
abbrev VO1 : View sig .tc .vmem S32x128 .f32 := (Memref.whole cc1_stg5_0 : Memref sig .tc .vmem S32x128 .f32).view
abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, passed beside the windows. -/
abbrev scM1 : Memref sig .tc .vmem S32x128 .f32 := Memref.whole cc1_scratch0

/-- The region's invariant, conjunct by conjunct: the scoped buffers the region does not stage, each at some contents
    (the scratch accumulator among them), and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r)) := by
  unfold Pipeline.ΦA; rw [scopedRest1_eq]; simp only [scM1, owns_whole]; try rfl

set_option maxHeartbeats 2000000 in
/-- What the body's store leaves in the output buffer, as pieces, WITH the proof that on whole buffers — the inputs at
    their contents, the output and the scratch at anything — the body runs to the continuation holding the inputs as they
    were, the scratch at some contents and the output's buffer with the pieces written. -/
noncomputable def kernelRun1 (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) :
    { L : List (View.Piece (Elt F) S32x128 .f32) //
      ∀ (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)
                ∗ (∃ d, owns (c : Thread nD τ) arg8 fullShare d)) -∗ K ⟨⟩))
          ⊢ wp frame (wpE (defs₀ (F := F)) Variants.none c none) Set.univ
              (cc1__coherence_kernel i arg2 harg2 arg3 harg3 arg4 harg4 arg5 harg5 arg6 harg6 arg7 harg7 arg8 harg8) K } := by
  refine ⟨?_, fun K => ?run⟩
  case run =>
    simp only [cc1__coherence_kernel_eq_skeleton]; unfold cc1__coherence_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr; swap; · iexact H8
    ipureintro; rfl

/-- The run's pieces for the output tile its block (one whole store), so they cover it. -/
theorem cover1 (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) (y : S32x128.Idx) :
    ∃ pc ∈ (kernelRun1 c i arg2 harg2 arg3 harg3 arg4 harg4 arg5 harg5 arg6 harg6 arg7 harg7 arg8 harg8 x0 x1 x2 x3 x4).1, y ∈ pc.1.set :=
  View.cover_of_tiledL (kernelRun1 c i arg2 harg2 arg3 harg3 arg4 harg4 arg5 harg5 arg6 harg6 arg7 harg7 arg8 harg8 x0 x1 x2 x3 x4).1 S32x128.size (by sl_kernel_rfl) y

/-- What the run leaves in the output's buffer: its pieces read back over junk. -/
def out1 (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) : Vec F S32x128 .f32 :=
  VO1.read (Elt F) (VO1.writes (Elt F) VO1.junk (kernelRun1 c i arg2 harg2 arg3 harg3 arg4 harg4 arg5 harg5 arg6 harg6 arg7 harg7 arg8 harg8 x0 x1 x2 x3 x4).1)

/-- What the output's buffer holds after the body at point t: the run's contents at the point's buffers and input blocks. -/
def outsAt1 (c : Dev nD) (t : Fin cfg1.N) : Vec F S32x128 .f32 :=
  out1 c (grid1.coords t) (ms1_0 t) (hs1_0 t) (ms1_1 t) (hs1_1 t) (ms1_2 t) (hs1_2 t) (ms1_3 t) (hs1_3 t) (ms1_4 t) (hs1_4 t) (ms1_5 t) (hs1_5 t)
    scM1 (Memref.isWhole_whole _) (iblk1 V c 0 t) (iblk1 V c 1 t) (iblk1 V c 2 t) (iblk1 V c 3 t) (iblk1 V c 4 t)

/-! ## The pipeline's proof data -/

/-- Pipeline 1's proof data on core c: the arrays as the region finds them; after the body at point t each input's
    buffer at its block and the output's at `outsAt1`; the invariant is the buffers the region does not stage (the scratch
    among them) and the generator register; nothing owed.  The cos phi array is held at its left half for the block window
    and its right half for the strip window, and so is the sin phi array; prev_ca at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' buffers hold their blocks, so the run applies; the invariant hands the body its
    scratch accumulator and takes it back at whatever the body left; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  unfold out1
  iintro ⟨⟨⟨HR0, HR1, HR2, HR3, HR4, HR5, HR6, HR7, HR8, HR9, HS, HR11, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (iblk1 V c 0 t) (iblk1 V c 1 t) (iblk1 V c 2 t) (iblk1 V c 3 t) (iblk1 V c 4 t)).2 _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HR0 HR1 HR2 HR3 HR4 HR5 HR6 HR7 HR8 HR9 HS HR11 HR12 HR13 HR14 HR15 HR16 HR17 HR18 HR19 HR20 HR21 Hg]
  · isplitl [HR0 HR1 HR2 HR3 HR4 HR5 HR6 HR7 HR8 HR9 HS HR11 HR12 HR13 HR14 HR15 HR16 HR17 HR18 HR19 HR20 HR21]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HS]; · iexact HS
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      iexact HR21
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealR2.lean ====
/-
  Region 2: the gate, the second product and the layer normalisation, 128 rows of the batch at each of its two grid
  points.

  Stated at a parameter V, the contents of the core's buffers when the region is entered.  At point t the body reads
  the point's 128 rows of ca and of phi, and all of the gate weights, the gate bias, the coupling matrix, gamma and
  beta; it stores the normalised rows whole into the output window's buffer.  So after the body that buffer holds one
  function of the seven input blocks, and each input buffer still holds its block.
-/
import proofs.«168497_j76398878261811_2_alg».proof.Proof.Gen.KernelIdeal.Launch
import proofs.«168497_j76398878261811_2_alg».proof.Proof.Gen.KernelIdeal.Skeleton
import proofs.«168497_j76398878261811_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2A : Rect S128x1024 := Rect.unit (s := S128x1024) ![0, 0] S128x1024.size inb_S128x1024_S128x1024_0_0
abbrev r2G : Rect S1024x512 := Rect.unit (s := S1024x512) ![0, 0] S1024x512.size inb_S1024x512_S1024x512_0_0
abbrev r2Bg : Rect S512 := Rect.unit (s := S512) ![0] S512.size inb_S512_S512_0
abbrev r2W : Rect S1024x1024 := Rect.unit (s := S1024x1024) ![0, 0] S1024x1024.size inb_S1024x1024_S1024x1024_0_0
abbrev r2V : Rect S1024 := Rect.unit (s := S1024) ![0] S1024.size inb_S1024_S1024_0

/-- What the body leaves in the output buffer, from the seven input blocks: the normalised rows scaled by gamma, plus beta. -/
def outBlk (ca phi : Vec F S128x1024 .f32) (wg : Vec F S1024x512 .bf16) (bg : Vec F S512 .f32) (ww : Vec F S1024x1024 .bf16)
    (ga be : Vec F S1024 .f32) : Vec F S128x1024 .f32 :=
  View.canon [⟨r2A, k2_pay1 (k2_pay2 (View.ld ca r2A) (View.ld phi r2A) (View.ld wg r2G) (View.ld bg r2Bg) (View.ld ww r2W) (View.ld ga r2V)) (View.ld be r2V)⟩]

/-- One whole-buffer store covers the buffer. -/
theorem cover2 (p0 : Vec F S128x1024 .f32) (y : S128x1024.Idx) :
    ∃ pc ∈ ([⟨r2A, p0⟩] : List (View.Piece (Elt F) S128x1024 .f32)), y ∈ pc.1.set :=
  View.cover_of_tiled [⟨r2A, p0⟩] S128x1024.size (by rfl) y

set_option maxHeartbeats 1000000 in
/-- The body on whole buffers: the inputs at their contents and the output at anything; it runs to the continuation with
    the inputs as they were and the output at `outBlk` of the inputs. -/
theorem sound_kernel2 (c : Dev nD) (E : Set ℕ) (i : grid2.Coords)
    (arg1 : Memref sig .tc .vmem S128x1024 .f32) (harg1 : arg1.IsWhole) (arg2 : Memref sig .tc .vmem S128x1024 .f32) (harg2 : arg2.IsWhole)
    (arg3 : Memref sig .tc .vmem S1024x512 .bf16) (harg3 : arg3.IsWhole) (arg4 : Memref sig .tc .vmem S512 .f32) (harg4 : arg4.IsWhole)
    (arg5 : Memref sig .tc .vmem S1024x1024 .bf16) (harg5 : arg5.IsWhole) (arg6 : Memref sig .tc .vmem S1024 .f32) (harg6 : arg6.IsWhole)
    (arg7 : Memref sig .tc .vmem S1024 .f32) (harg7 : arg7.IsWhole) (arg8 : Memref sig .tc .vmem S128x1024 .f32) (harg8 : arg8.IsWhole)
    (ca phi : Vec F S128x1024 .f32) (wg : Vec F S1024x512 .bf16) (bg : Vec F S512 .f32) (ww : Vec F S1024x1024 .bf16) (ga be : Vec F S1024 .f32)
    (K : PUnit → sProp 𝕄) :
    iprop(owns (c : Thread nD τ) arg1 fullShare ca ∗ owns (c : Thread nD τ) arg2 fullShare phi ∗ owns (c : Thread nD τ) arg3 fullShare wg
        ∗ owns (c : Thread nD τ) arg4 fullShare bg ∗ owns (c : Thread nD τ) arg5 fullShare ww ∗ owns (c : Thread nD τ) arg6 fullShare ga
        ∗ owns (c : Thread nD τ) arg7 fullShare be ∗ (∃ d, owns (c : Thread nD τ) arg8 fullShare d)
        ∗ (iprop(owns (c : Thread nD τ) arg1 fullShare ca ∗ owns (c : Thread nD τ) arg2 fullShare phi ∗ owns (c : Thread nD τ) arg3 fullShare wg
            ∗ owns (c : Thread nD τ) arg4 fullShare bg ∗ owns (c : Thread nD τ) arg5 fullShare ww ∗ owns (c : Thread nD τ) arg6 fullShare ga
            ∗ owns (c : Thread nD τ) arg7 fullShare be ∗ owns (c : Thread nD τ) arg8 fullShare (outBlk ca phi wg bg ww ga be)) -∗ K ⟨⟩))
      ⊢ wp frame (wpE (defs₀ (F := F)) Variants.none c none) E
          (cc2__final_kernel i arg1 harg1 arg2 harg2 arg3 harg3 arg4 harg4 arg5 harg5 arg6 harg6 arg7 harg7 arg8 harg8) K := by
  simp only [cc2__final_kernel_eq_skeleton]; unfold cc2__final_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-! ## The pipeline's proof data -/

/-- Pipeline 2's proof data on core c: the arrays as the region finds them; after the body at point t each input's
    buffer at its block and the output's at `outBlk` of the point's input blocks; the invariant is the buffers the region
    does not stage and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outBlk (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = outBlk (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.LibSharedPairs.lean ====
/-
  Two arrays, each behind two windows of one pipeline.

  A pipeline's entry takes the distinct buffers behind its windows' arrays, each held whole at the full share, and must
  produce one term per WINDOW at that window's share; its exit goes the other way.  When two of the buffers each stand
  behind two windows, each of those buffers' terms is cut into its two windows' terms and the rest correspond one to
  one.  Stated for four buffers and six windows listed in order (windows 0 and 2 on the first buffer, 1 and 3 on the
  second), over any separation algebra, from the two cuts and the two plain correspondences.
-/
import Idealize.ShloMosaic.Lib.Pipeline.Launch

noncomputable section

namespace Cert.Lib

open Idealize.SL Idealize.SL.BI
open scoped Idealize.SL.BI
open Idealize.SL.BI.BIBase Idealize.SL.BI.Laws Idealize.SL.ProofMode

variable {M : Type} [Idealize.SL.RA.URA M]

/-- Four buffers' terms are six windows' terms, the first two buffers each cut between two windows. -/
theorem sep4_iff_sep6 {A B C D P0 P1 P2 P3 P4 P5 : sProp M}
    (hA : A ⊣⊢ iprop(P0 ∗ P2)) (hB : B ⊣⊢ iprop(P1 ∗ P3)) (hC : C ⊣⊢ P4) (hD : D ⊣⊢ P5) :
    iprop(A ∗ B ∗ C ∗ D) ⊣⊢ iprop(P0 ∗ P1 ∗ P2 ∗ P3 ∗ P4 ∗ P5) := by
  constructor
  · iintro ⟨HA, HB, HC, HD⟩
    ihave HA' := hA.1 $$ HA
    icases HA' with ⟨H0, H2⟩
    ihave HB' := hB.1 $$ HB
    icases HB' with ⟨H1, H3⟩
    ihave H4 := hC.1 $$ HC
    ihave H5 := hD.1 $$ HD
    isplitl [H0]; · iexact H0
    isplitl [H1]; · iexact H1
    isplitl [H2]; · iexact H2
    isplitl [H3]; · iexact H3
    isplitl [H4]; · iexact H4
    iexact H5
  · iintro ⟨H0, H1, H2, H3, H4, H5⟩
    isplitl [H0 H2]
    · iapply hA.2
      isplitl [H0]; · iexact H0
      iexact H2
    isplitl [H1 H3]
    · iapply hB.2
      isplitl [H1]; · iexact H1
      iexact H3
    isplitl [H4]
    · iapply hC.2; iexact H4
    iapply hD.2; iexact H5

end Cert.Lib

end
-- ==== Proof.IdealShare1.lean ====
/-
  Region 1's arrays at its entry and its exit.

  Its six windows stand on four buffers: cos phi behind windows 0 (a block) and 2 (a strip), sin phi behind windows 1
  and 3, prev_ca behind window 4 and the output ca behind window 5.  The distinct buffers, each whole at the full share,
  are the six windows' terms at the windows' shares: cos phi and sin phi each cut into a left and a right half share, the
  other two as they are.  The same equivalence serves the entry (buffers to windows) and the exit (windows to buffers).
-/
import proofs.«168497_j76398878261811_2_alg».proof.Proof.IdealR1
import proofs.«168497_j76398878261811_2_alg».proof.Proof.LibSharedPairs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! Each window's term in the arrays' conjunction is its array's buffer, whole, at the given share. -/
theorem arrTerm1_0 (c : Dev nD) (q : PosShare TreeShare) (f : Buf (Elt F) ((cfg1.win (0 : Fin 6)).arr.view.loc (c.tc : Thread nD τ))) :
    (((cfg1.win (0 : Fin 6)).arr.view.loc (c.tc : Thread nD τ)) ↦[(cfg1.win (0 : Fin 6)).arr.view.set]{q} f : sProp 𝕄)
      = (((c.tc : Thread nD τ).loc main_v5_1) ↦{q} f) := by
  rw [(arr_whole1 0).set_eq_univ]
theorem arrTerm1_1 (c : Dev nD) (q : PosShare TreeShare) (f : Buf (Elt F) ((cfg1.win (1 : Fin 6)).arr.view.loc (c.tc : Thread nD τ))) :
    (((cfg1.win (1 : Fin 6)).arr.view.loc (c.tc : Thread nD τ)) ↦[(cfg1.win (1 : Fin 6)).arr.view.set]{q} f : sProp 𝕄)
      = (((c.tc : Thread nD τ).loc main_v5_2) ↦{q} f) := by
  rw [(arr_whole1 1).set_eq_univ]
theorem arrTerm1_2 (c : Dev nD) (q : PosShare TreeShare) (f : Buf (Elt F) ((cfg1.win (2 : Fin 6)).arr.view.loc (c.tc : Thread nD τ))) :
    (((cfg1.win (2 : Fin 6)).arr.view.loc (c.tc : Thread nD τ)) ↦[(cfg1.win (2 : Fin 6)).arr.view.set]{q} f : sProp 𝕄)
      = (((c.tc : Thread nD τ).loc main_v5_1) ↦{q} f) := by
  rw [(arr_whole1 2).set_eq_univ]
theorem arrTerm1_3 (c : Dev nD) (q : PosShare TreeShare) (f : Buf (Elt F) ((cfg1.win (3 : Fin 6)).arr.view.loc (c.tc : Thread nD τ))) :
    (((cfg1.win (3 : Fin 6)).arr.view.loc (c.tc : Thread nD τ)) ↦[(cfg1.win (3 : Fin 6)).arr.view.set]{q} f : sProp 𝕄)
      = (((c.tc : Thread nD τ).loc main_v5_2) ↦{q} f) := by
  rw [(arr_whole1 3).set_eq_univ]
theorem arrTerm1_4 (c : Dev nD) (q : PosShare TreeShare) (f : Buf (Elt F) ((cfg1.win (4 : Fin 6)).arr.view.loc (c.tc : Thread nD τ))) :
    (((cfg1.win (4 : Fin 6)).arr.view.loc (c.tc : Thread nD τ)) ↦[(cfg1.win (4 : Fin 6)).arr.view.set]{q} f : sProp 𝕄)
      = (((c.tc : Thread nD τ).loc main_arg1) ↦{q} f) := by
  rw [(arr_whole1 4).set_eq_univ]
theorem arrTerm1_5 (c : Dev nD) (q : PosShare TreeShare) (f : Buf (Elt F) ((cfg1.win (5 : Fin 6)).arr.view.loc (c.tc : Thread nD τ))) :
    (((cfg1.win (5 : Fin 6)).arr.view.loc (c.tc : Thread nD τ)) ↦[(cfg1.win (5 : Fin 6)).arr.view.set]{q} f : sProp 𝕄)
      = (((c.tc : Thread nD τ).loc main_v6) ↦{q} f) := by
  rw [(arr_whole1 5).set_eq_univ]

/-! The shares the six windows hold their arrays at. -/
theorem share1_0 (c : Dev nD) : (dat1 V c).share (0 : Fin 6) = fullShare.left := rfl
theorem share1_1 (c : Dev nD) : (dat1 V c).share (1 : Fin 6) = fullShare.left := rfl
theorem share1_2 (c : Dev nD) : (dat1 V c).share (2 : Fin 6) = fullShare.right := rfl
theorem share1_3 (c : Dev nD) : (dat1 V c).share (3 : Fin 6) = fullShare.right := rfl
theorem share1_4 (c : Dev nD) : (dat1 V c).share (4 : Fin 6) = fullShare := rfl
theorem share1_5 (c : Dev nD) : (dat1 V c).share (5 : Fin 6) = fullShare := rfl

/-- The four buffers behind region 1's windows, whole at contents V', are its six windows' terms at contents that read
    V' at each window's array. -/
theorem arrBufs1_iff (c : Dev nD) (V' : (b : Ref sig .tc) → Buf (Elt F) ((c : Thread nD τ).loc b))
    (Fw : (w : Fin cfg1.W) → Buf (Elt F) ((cfg1.win w).arr.view.loc (c.tc : Thread nD τ)))
    (h0 : Fw (0 : Fin 6) = V' main_v5_1) (h1 : Fw (1 : Fin 6) = V' main_v5_2) (h2 : Fw (2 : Fin 6) = V' main_v5_1)
    (h3 : Fw (3 : Fin 6) = V' main_v5_2) (h4 : Fw (4 : Fin 6) = V' main_arg1) (h5 : Fw (5 : Fin 6) = V' main_v6) :
    (Pipeline.arrBufs spec1 c V' : sProp 𝕄) ⊣⊢ (dat1 V c).arrays Fw := by
  unfold Pipeline.arrBufs Dat.arrays
  rw [bigSep_eq_bigSepL_of_eq [main_v5_1, main_v5_2, main_arg1, main_v6] (by decide) (by decide), bigSep_W1]
  simp only [bigSepL, View.set_whole, arrTerm1_0, arrTerm1_1, arrTerm1_2, arrTerm1_3, arrTerm1_4, arrTerm1_5,
    share1_0, share1_1, share1_2, share1_3, share1_4, share1_5, h0, h1, h2, h3, h4, h5]
  refine Cert.Lib.sep4_iff_sep6 ?_ ?_ ?_ ?_
  · exact pointsTo_share (PosShare.mem_left_op_right fullShare)
  · exact pointsTo_share (PosShare.mem_left_op_right fullShare)
  · exact .rfl
  · exact .rfl

end Cert.KernelIdeal.Hand

end
-- ==== Proof.IdealRun.lean ====
/-
  The run: the program from the launch to the return, as one host stretch and three regions.

  The core's buffer contents are followed through the program: as launched; after the host stretch (the two weight
  matrices transposed, three format changes); after region 0, with phi, cos phi and sin phi at what its two points wrote
  back; after region 1, with ca at what its 64 points wrote back; after region 2, with the result.  Each region is entered
  from every unscoped buffer held at the contents before it and left at the contents after it.  Every weakly fair
  execution then terminates, and the final memory holds every unscoped buffer at the last contents: the frame and the
  results are read off that.
-/
import proofs.«168497_j76398878261811_2_alg».proof.Proof.IdealR0
import proofs.«168497_j76398878261811_2_alg».proof.Proof.IdealR1
import proofs.«168497_j76398878261811_2_alg».proof.Proof.IdealR2
import proofs.«168497_j76398878261811_2_alg».proof.Proof.IdealShare1
import proofs.«168497_j76398878261811_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the host stretch: region 0's entry. -/
abbrev Wh : Dev nD → Valuation τ sig (Elt F) := fun c => StableHlo.after hostOps0 (W0 m c)
abbrev Vh : (c : Dev nD) → (b : Ref sig .tc) → Buf (Elt F) ((c : Thread nD τ).loc b) := fun c b => Wh m c b

/-- At region 0's exit: its arrays at what the pipeline leaves, every other buffer as entered. -/
def W1 (c : Dev nD) : Valuation τ sig (Elt F) :=
  Pipeline.withArrays spec0 c (Wh m c) fun w => (dat0 (Vh m) c).arrAt w cfg0.N
theorem W1_arr (c : Dev nD) (w : Fin cfg0.W) :
    W1 m c (Proc.devRef .tc (Pipeline.arrRef spec0 w)) = (dat0 (Vh m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = Wh m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (Vh m) c).arrAt w cfg0.N = V1 m c (Pipeline.arrRef spec0 w) :=
  (W1_arr m c w).symm
theorem hrest0 (c : Dev nD) : ∀ b, b ∉ Finset.univ.image (Pipeline.arrRef spec0) → V1 m c b = Vh m c b :=
  fun b hb => W1_of_ne m c b fun w e => hb (Finset.mem_image.mpr ⟨w, Finset.mem_univ _, e⟩)

/-- At region 1's exit: ca at what the pipeline leaves, every other buffer as entered (its other arrays are inputs). -/
def W2 (c : Dev nD) : Valuation τ sig (Elt F) :=
  Function.update (W1 m c) (Proc.devRef .tc main_v6) ((dat1 (V1 m) c).arrAt 5 cfg1.N)
theorem W2_v6 (c : Dev nD) : W2 m c (Proc.devRef .tc main_v6) = (dat1 (V1 m) c).arrAt 5 cfg1.N := by
  unfold W2; exact Function.update_self ..
theorem W2_of_ne (c : Dev nD) (b : Ref sig .tc) (hb : b ≠ main_v6) :
    W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b
/-- Each of region 1's arrays ends at the new contents: the inputs as entered, ca as written back. -/
theorem hF1 (c : Dev nD) : ∀ w : Fin cfg1.W, (dat1 (V1 m) c).arrAt w cfg1.N = V2 m c (Pipeline.arrRef spec1 w)
  | ⟨0, _⟩ => (((dat1 (V1 m) c).arrAt_in 0 rfl _).trans (A_eq1 (V1 m) c 0)).trans (W2_of_ne m c main_v5_1 (by decide)).symm
  | ⟨1, _⟩ => (((dat1 (V1 m) c).arrAt_in 1 rfl _).trans (A_eq1 (V1 m) c 1)).trans (W2_of_ne m c main_v5_2 (by decide)).symm
  | ⟨2, _⟩ => (((dat1 (V1 m) c).arrAt_in 2 rfl _).trans (A_eq1 (V1 m) c 2)).trans (W2_of_ne m c main_v5_1 (by decide)).symm
  | ⟨3, _⟩ => (((dat1 (V1 m) c).arrAt_in 3 rfl _).trans (A_eq1 (V1 m) c 3)).trans (W2_of_ne m c main_v5_2 (by decide)).symm
  | ⟨4, _⟩ => (((dat1 (V1 m) c).arrAt_in 4 rfl _).trans (A_eq1 (V1 m) c 4)).trans (W2_of_ne m c main_arg1 (by decide)).symm
  | ⟨5, _⟩ => (W2_v6 m c).symm
  | ⟨_ + 6, h⟩ => absurd h (Nat.not_lt.2 (Nat.le_add_left _ _))
theorem hrest1 (c : Dev nD) : ∀ b, b ∉ Finset.univ.image (Pipeline.arrRef spec1) → V2 m c b = V1 m c b :=
  fun b hb => W2_of_ne m c b fun e => hb (Finset.mem_image.mpr ⟨5, Finset.mem_univ _, e.symm⟩)

/-- At region 2's exit: its arrays at what the pipeline leaves, every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vh m) c
  | ⟨1, _⟩ => fun c => dat1 (V1 m) c
  | ⟨2, _⟩ => fun c => dat2 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped buffers from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 as a segment: entered from every unscoped buffer at `Wh`, left at `W1`.  Its arrays are split out
    of the unscoped buffers at the entry and put back at the exit contents; the generator register goes into the region's
    invariant and comes out; nothing is owed; the kernel names no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at `W1`, left at `W2`.  The four buffers behind its six
    windows are split out of the unscoped buffers, cos phi and sin phi each cut into the two half shares their two
    windows hold, and joined again at the exit, ca at what the pipeline wrote back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        = iprop((Pipeline.arrBufs spec1 c (V1 m c) : sProp 𝕄) ∗ Pipeline.unscopedRest spec1 c (V1 m c)) :=
      Pipeline.unscopedBufs_split₀ (Pipeline.pin (pcfgs (F := F)) adm) 1 winFacts₀1.arr_unscoped c (V1 m c)
    rw [Pipeline.unscopedBufs_held] at hsplit
    have hcut := (arrBufs1_iff (V1 m) c (V1 m c) ((pdats m 1 c).arrAt · 0) rfl rfl rfl rfl rfl rfl).1
    iintro ⟨⟨Hub, Hp, HO⟩, -, -⟩
    ihave H := (Entails.of_eq hsplit) $$ Hub
    icases H with ⟨Hb, Hrest⟩
    ihave Ha := hcut $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit : (unscopedBufs c (V2 m c) : sProp 𝕄)
        = iprop((Pipeline.arrBufs spec1 c (V2 m c) : sProp 𝕄) ∗ Pipeline.unscopedRest spec1 c (V2 m c)) :=
      Pipeline.unscopedBufs_split₀ (Pipeline.pin (pcfgs (F := F)) adm) 1 winFacts₀1.arr_unscoped c (V2 m c)
    rw [Pipeline.unscopedBufs_held] at hsplit
    have hjoin : ((pdats m 1 c).arrays ((pdats m 1 c).arrAt · (Pipeline.pin (pcfgs (F := F)) adm 1).N) : sProp 𝕄)
        ⊢ Pipeline.arrBufs spec1 c (V2 m c) :=
      (arrBufs1_iff (V1 m) c (V2 m c) ((pdats m 1 c).arrAt · cfg1.N) (hF1 m c 0) (hF1 m c 1) (hF1 m c 2) (hF1 m c 3) (hF1 m c 4) (hF1 m c 5)).2
    have hrest : (Pipeline.unscopedRest (Ix := Unit) (Name := ℕ) (U := UR sig nD τ) (Lvl := ℕ) spec1 c (V1 m c) : sProp 𝕄)
        = Pipeline.unscopedRest spec1 c (V2 m c) := by
      unfold Pipeline.unscopedRest
      exact bigSep_congr fun b hb => by rw [hrest1 m c b (Finset.mem_sdiff.mp hb).2]
    iintro ⟨Ha, HO, HY, Hrest⟩
    ihave Hb := hjoin $$ Ha
    ihave Hrest' := (Entails.of_eq hrest) $$ Hrest
    imodintro
    isplitl [Hb Hrest']
    · iapply (Entails.of_eq hsplit.symm); isplitl [Hb] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered from every unscoped buffer at `W2`, left at `W3`.  Its arrays are split out
    of the unscoped buffers at the entry and put back at the exit contents; the generator register goes into the region's
    invariant and comes out; nothing is owed; the kernel names no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m) () defs₀ 𝒱₀ L lv) :=
  [ .host (hseg m),
    .region (reg0 m),
    .region (reg1 m),
    .region (reg2 m) ]
/-- The program IS the run of the segments. -/
theorem main_run (c : Dev nD) : main (F := F) c = Pipeline.Seg.run (segs m) := (main_chain c).trans (by chain_rfl)

set_option backward.isDefEq.respectTransparency.types false in
/-- THE RUN.  From any memory with zero counters every weakly fair execution of the program terminates, nothing
    faulting, and the final memory holds every unscoped buffer of every core at the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Hand

end
-- ==== Proof.IdealFrame.lean ====
/-
  The frame: the nine arguments end as launched.

  No host operation writes an argument and no region's output window stands on one: a region reads an argument through
  an input window, whose array ends as entered, or does not touch it.  So the last contents at an argument's buffer walk
  back, boundary by boundary, to the launch memory.
-/
import proofs.«168497_j76398878261811_2_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = Wh m c (Proc.devRef .tc main_arg0) := (W1_arr m c 0).trans (((dat0 (Vh m) c).arrAt_in 0 rfl _).trans (A_eq0 (Vh m) c 0))
    _ = m ((c : Thread nD τ).loc main_arg0) := Gen.V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = Wh m c (Proc.devRef .tc main_arg1) := W1_of_ne m c main_arg1 (by decide)
    _ = m ((c : Thread nD τ).loc main_arg1) := Gen.V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = Wh m c (Proc.devRef .tc main_arg2) := W1_of_ne m c main_arg2 (by decide)
    _ = m ((c : Thread nD τ).loc main_arg2) := Gen.V1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = Wh m c (Proc.devRef .tc main_arg3) := (W1_arr m c 2).trans (((dat0 (Vh m) c).arrAt_in 2 rfl _).trans (A_eq0 (Vh m) c 2))
    _ = m ((c : Thread nD τ).loc main_arg3) := Gen.V1_of m c main_arg3 (by decide)

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = Wh m c (Proc.devRef .tc main_arg4) := W1_of_ne m c main_arg4 (by decide)
    _ = m ((c : Thread nD τ).loc main_arg4) := Gen.V1_of m c main_arg4 (by decide)

theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 3).trans (((dat2 (V2 m) c).arrAt_in 3 rfl _).trans (A_eq2 (V2 m) c 3))
    _ = W1 m c (Proc.devRef .tc main_arg5) := W2_of_ne m c main_arg5 (by decide)
    _ = Wh m c (Proc.devRef .tc main_arg5) := W1_of_ne m c main_arg5 (by decide)
    _ = m ((c : Thread nD τ).loc main_arg5) := Gen.V1_of m c main_arg5 (by decide)

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = Wh m c (Proc.devRef .tc main_arg6) := W1_of_ne m c main_arg6 (by decide)
    _ = m ((c : Thread nD τ).loc main_arg6) := Gen.V1_of m c main_arg6 (by decide)

theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 5).trans (((dat2 (V2 m) c).arrAt_in 5 rfl _).trans (A_eq2 (V2 m) c 5))
    _ = W1 m c (Proc.devRef .tc main_arg7) := W2_of_ne m c main_arg7 (by decide)
    _ = Wh m c (Proc.devRef .tc main_arg7) := W1_of_ne m c main_arg7 (by decide)
    _ = m ((c : Thread nD τ).loc main_arg7) := Gen.V1_of m c main_arg7 (by decide)

theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 6).trans (((dat2 (V2 m) c).arrAt_in 6 rfl _).trans (A_eq2 (V2 m) c 6))
    _ = W1 m c (Proc.devRef .tc main_arg8) := W2_of_ne m c main_arg8 (by decide)
    _ = Wh m c (Proc.devRef .tc main_arg8) := W1_of_ne m c main_arg8 (by decide)
    _ = m ((c : Thread nD τ).loc main_arg8) := Gen.V1_of m c main_arg8 (by decide)

/-- Every weakly fair execution terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩)
    (run_all m ρ)

end Cert.KernelIdeal.Hand

end
-- ==== Proof.IdealChain.lean ====
/-
  Which contents each region reads.

  Region 1 reads cos phi, sin phi (what region 0 wrote back) and prev_ca (as launched); region 2 reads ca (what region 1
  wrote back), phi (what region 0 wrote back), the two host-prepared weight arrays, and three arguments as launched.  The
  program's results are what region 2 wrote back, what region 1 wrote back, and the coupling matrix as launched.
-/
import proofs.«168497_j76398878261811_2_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 1's inputs. -/
theorem V1_cos (c : Dev nD) : V1 m c main_v5_1 = (dat0 (Vh m) c).arrAt 4 cfg0.N := W1_arr m c 4
theorem V1_sin (c : Dev nD) : V1 m c main_v5_2 = (dat0 (Vh m) c).arrAt 5 cfg0.N := W1_arr m c 5
theorem V1_prev (c : Dev nD) : V1 m c main_arg1 = m ((c : Thread nD τ).loc main_arg1) :=
  (W1_of_ne m c main_arg1 (by decide)).trans (Gen.V1_of m c main_arg1 (by decide))

/-! Region 2's inputs. -/
theorem V2_ca (c : Dev nD) : V2 m c main_v6 = (dat1 (V1 m) c).arrAt 5 cfg1.N := W2_v6 m c
theorem V2_phi (c : Dev nD) : V2 m c main_v5_0 = (dat0 (Vh m) c).arrAt 3 cfg0.N :=
  (W2_of_ne m c main_v5_0 (by decide)).trans (W1_arr m c 3)
theorem V2_wg (c : Dev nD) : V2 m c main_v3 = Vh m c main_v3 :=
  (W2_of_ne m c main_v3 (by decide)).trans (W1_of_ne m c main_v3 (by decide))
theorem V2_ww (c : Dev nD) : V2 m c main_v4 = Vh m c main_v4 :=
  (W2_of_ne m c main_v4 (by decide)).trans (W1_of_ne m c main_v4 (by decide))
theorem V2_bg (c : Dev nD) : V2 m c main_arg5 = m ((c : Thread nD τ).loc main_arg5) :=
  ((W2_of_ne m c main_arg5 (by decide)).trans (W1_of_ne m c main_arg5 (by decide))).trans (Gen.V1_of m c main_arg5 (by decide))
theorem V2_gamma (c : Dev nD) : V2 m c main_arg7 = m ((c : Thread nD τ).loc main_arg7) :=
  ((W2_of_ne m c main_arg7 (by decide)).trans (W1_of_ne m c main_arg7 (by decide))).trans (Gen.V1_of m c main_arg7 (by decide))
theorem V2_beta (c : Dev nD) : V2 m c main_arg8 = m ((c : Thread nD τ).loc main_arg8) :=
  ((W2_of_ne m c main_arg8 (by decide)).trans (W1_of_ne m c main_arg8 (by decide))).trans (Gen.V1_of m c main_arg8 (by decide))

/-! The results. -/
theorem W3_out (c : Dev nD) : W3 m c (Proc.devRef .tc main_v7) = (dat2 (V2 m) c).arrAt 7 cfg2.N := W3_arr m c 7
theorem W3_ca (c : Dev nD) : W3 m c (Proc.devRef .tc main_v6) = (dat1 (V1 m) c).arrAt 5 cfg1.N :=
  ((W3_arr m c 0).trans (((dat2 (V2 m) c).arrAt_in 0 rfl _).trans (A_eq2 (V2 m) c 0))).trans (W2_v6 m c)

end Cert.KernelIdeal.Hand

end
-- ==== Proof.KerPay0.lean ====
/-
  Region 0's three stored values read at an entry, on the extended reals.

  The body multiplies a 128-row block of x by the transposed weights (a [128,512] by [512,1024] product into a zero
  accumulator; the change of the operands' float format is the identity on extended reals), adds the bias along every
  row, and stores the sum, its cosine and its sine.
-/
import proofs.«168497_j76398878261811_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KerPay

open Cert.KernelIdeal Cert.KernelIdeal.Gen
open Idealize.ShloMosaic Idealize.ShloMosaic.ValueIdx
open scoped BigOperators

/-! ### The [128,512] × [512,1024] product read at an entry -/

theorem mm_128x512x1024_lhs0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide),
    dif_pos (show (0 : Fin S128x512.rank) ∈ dot_S128x512_S512x1024_S128x1024_1_0_0_1_n_n.lhsNonContracting by decide)]
  rfl
theorem mm_128x512x1024_lhs1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem mm_128x512x1024_rhs0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem mm_128x512x1024_rhs1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide),
    dif_pos (show (1 : Fin S512x1024.rank) ∈ dot_S128x512_S512x1024_S128x1024_1_0_0_1_n_n.rhsNonContracting by decide)]
  rfl

/-- Into a zero accumulator the product's entry (r, j) is the sum over k of row r of the left factor times column j of
    the right one. -/
theorem mm_128x512x1024_apply {φ₁ φ₂ : FTy} (lhs : FVec Ideal S128x512 φ₁) (rhs : FVec Ideal S512x1024 φ₂) (r : Fin 128) (j : Fin 1024) :
    matmul dot_S128x512_S512x1024_S128x1024_1_0_0_1_n_n none lhs rhs (constant S128x1024 .f32 0x00000000#32) (ix2 r j)
      = ∑ k : Fin 512, lhs (ix2 r k) * rhs (ix2 k j) := by
  simp only [matmul]
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 r j) ((contrEquiv1 dot_S128x512_S512x1024_S128x1024_1_0_0_1_n_n 512 rfl rfl).symm k) = ix2 r k :=
    funext fun a => Fin.ext (by
      match a with
      | ⟨0, _⟩ => exact mm_128x512x1024_lhs0 _ _
      | ⟨1, _⟩ => exact (mm_128x512x1024_lhs1 _ _).trans hk)
  have er : dot_S128x512_S512x1024_S128x1024_1_0_0_1_n_n.rhsIdx (ix2 r j) ((contrEquiv1 dot_S128x512_S512x1024_S128x1024_1_0_0_1_n_n 512 rfl rfl).symm k) = ix2 k j :=
    funext fun a => Fin.ext (by
      match a with
      | ⟨0, _⟩ => exact (mm_128x512x1024_rhs0 _ _).trans hk
      | ⟨1, _⟩ => exact mm_128x512x1024_rhs1 _ _)
  rw [el, er]

/-! ### The three stored values -/

/-- phi's block at (r, j): row r of the x block times column j of the transposed weights, plus the bias at j. -/
theorem k0_pay1_apply (x : Vec Ideal S128x512 .f32) (w : Vec Ideal S512x1024 .bf16) (b : Vec Ideal S1024 .f32)
    (r : Fin 128) (j : Fin 1024) :
    k0_pay1 (F := Ideal) x w b (ix2 r j) = (∑ k : Fin 512, x (ix2 r k) * w (ix2 k j)) + b (ix1 j) := by
  unfold k0_pay1
  rw [addf_apply, shapeCast_self]
  refine congrArg₂ (· + ·) ?_ ?_
  · exact mm_128x512x1024_apply _ _ r j
  · exact (broadcastTo_1b_ab_apply _ _ r j).trans (shapeCast_a_1a_apply b _ 0 j)

/-- The second stored value is the cosine of the first, entry by entry. -/
theorem k0_pay2_apply (x : Vec Ideal S128x512 .f32) (w : Vec Ideal S512x1024 .bf16) (b : Vec Ideal S1024 .f32)
    (r : Fin 128) (j : Fin 1024) :
    k0_pay2 (F := Ideal) x w b (ix2 r j) = Ideal.cos (k0_pay1 (F := Ideal) x w b (ix2 r j)) := rfl

/-- The third stored value is the sine of the first, entry by entry. -/
theorem k0_pay3_apply (x : Vec Ideal S128x512 .f32) (w : Vec Ideal S512x1024 .bf16) (b : Vec Ideal S1024 .f32)
    (r : Fin 128) (j : Fin 1024) :
    k0_pay3 (F := Ideal) x w b (ix2 r j) = Ideal.sin (k0_pay1 (F := Ideal) x w b (ix2 r j)) := rfl

end Cert.KerPay
-- ==== Proof.IdealVal0.lean ====
/-
  Region 0's three output arrays after the region, each as one function of the arrays the region finds.

  At grid point t the body's phi buffer holds, at (r, j), row 128·(row block) + r of x times column j of the transposed
  weights plus the bias at j: the x window's row block is the output's, and the weights and the bias are read whole.  So
  what a point writes back is its block of one whole-array function, the two row blocks tile the 256 rows (row r lies in
  block r / 128), and the array ends as that function; the cosine and sine arrays likewise.
-/
import proofs.«168497_j76398878261811_2_alg».proof.Proof.IdealR0
import proofs.«168497_j76398878261811_2_alg».proof.Proof.KerPay0
import Idealize.ShloMosaic.Lib.Pipeline.Value

set_option maxRecDepth 16384

noncomputable section

namespace Cert.KernelIdeal.Hand

open Cert.KernelIdeal Cert.KernelIdeal.Gen Cert.KerPay
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem offs0_zero2 : (![0, 0] : Fin 2 → Nat) = fun _ => 0 := funext fun a => by fin_cases a <;> rfl
theorem offs0_zero1 : (![0] : Fin 1 → Nat) = fun _ => 0 := funext fun a => by fin_cases a <;> rfl

/-! ### The three arrays as functions of x, the transposed weights and the bias -/

/-- phi at (r, j): row r of x times column j of the transposed weights, plus the bias at j. -/
def phiArr (X : S256x512.Idx → EReal) (W : S512x1024.Idx → EReal) (B : S1024.Idx → EReal) (r : Fin 256) (j : Fin 1024) : EReal :=
  (∑ k : Fin 512, X (ix2 r k) * W (ix2 k j)) + B (ix1 j)

/-- The three output arrays, index by index. -/
def phiOut (X : S256x512.Idx → EReal) (W : S512x1024.Idx → EReal) (B : S1024.Idx → EReal) : S256x1024.Idx → EReal :=
  fun idx => phiArr X W B (idx 0) (idx 1)
def cosOut (X : S256x512.Idx → EReal) (W : S512x1024.Idx → EReal) (B : S1024.Idx → EReal) : S256x1024.Idx → EReal :=
  fun idx => Ideal.cos (phiArr X W B (idx 0) (idx 1))
def sinOut (X : S256x512.Idx → EReal) (W : S512x1024.Idx → EReal) (B : S1024.Idx → EReal) : S256x1024.Idx → EReal :=
  fun idx => Ideal.sin (phiArr X W B (idx 0) (idx 1))

/-! ### The three buffers after the body, at an entry -/

/-- The phi buffer at (r, j), when row r of the x block is row R of x and the other two blocks are the whole arrays. -/
theorem phiBlk_apply (X : S256x512.Idx → EReal) (W : S512x1024.Idx → EReal) (B : S1024.Idx → EReal)
    (x : Vec Ideal S128x512 .f32) (w : Vec Ideal S512x1024 .bf16) (b : Vec Ideal S1024 .f32)
    (r : Fin 128) (j : Fin 1024) (R : Fin 256)
    (hx : ∀ k : Fin 512, x (ix2 r k) = X (ix2 R k)) (hw : ∀ k : Fin 512, w (ix2 k j) = W (ix2 k j)) (hb : b (ix1 j) = B (ix1 j)) :
    phiBlk x w b (ix2 r j) = phiArr X W B R j := by
  unfold phiBlk
  rw [View.canon_unit_zero offs0_zero2]
  simp only [View.ld_unit_zero (S := S128x512) offs0_zero2, View.ld_unit_zero (S := S512x1024) offs0_zero2, View.ld_unit_zero (S := S1024) offs0_zero1]
  rw [k0_pay1_apply, hb]
  unfold phiArr
  exact congrArg (· + B (ix1 j)) (Finset.sum_congr rfl fun k _ => by rw [hx k, hw k])

/-- The cosine buffer likewise. -/
theorem cosBlk_apply (X : S256x512.Idx → EReal) (W : S512x1024.Idx → EReal) (B : S1024.Idx → EReal)
    (x : Vec Ideal S128x512 .f32) (w : Vec Ideal S512x1024 .bf16) (b : Vec Ideal S1024 .f32)
    (r : Fin 128) (j : Fin 1024) (R : Fin 256)
    (hx : ∀ k : Fin 512, x (ix2 r k) = X (ix2 R k)) (hw : ∀ k : Fin 512, w (ix2 k j) = W (ix2 k j)) (hb : b (ix1 j) = B (ix1 j)) :
    cosBlk x w b (ix2 r j) = Ideal.cos (phiArr X W B R j) := by
  unfold cosBlk
  rw [View.canon_unit_zero offs0_zero2]
  simp only [View.ld_unit_zero (S := S128x512) offs0_zero2, View.ld_unit_zero (S := S512x1024) offs0_zero2, View.ld_unit_zero (S := S1024) offs0_zero1]
  rw [k0_pay2_apply, k0_pay1_apply, hb]
  unfold phiArr
  exact congrArg (fun s => Ideal.cos (s + B (ix1 j))) (Finset.sum_congr rfl fun k _ => by rw [hx k, hw k])

/-- The sine buffer likewise. -/
theorem sinBlk_apply (X : S256x512.Idx → EReal) (W : S512x1024.Idx → EReal) (B : S1024.Idx → EReal)
    (x : Vec Ideal S128x512 .f32) (w : Vec Ideal S512x1024 .bf16) (b : Vec Ideal S1024 .f32)
    (r : Fin 128) (j : Fin 1024) (R : Fin 256)
    (hx : ∀ k : Fin 512, x (ix2 r k) = X (ix2 R k)) (hw : ∀ k : Fin 512, w (ix2 k j) = W (ix2 k j)) (hb : b (ix1 j) = B (ix1 j)) :
    sinBlk x w b (ix2 r j) = Ideal.sin (phiArr X W B R j) := by
  unfold sinBlk
  rw [View.canon_unit_zero offs0_zero2]
  simp only [View.ld_unit_zero (S := S128x512) offs0_zero2, View.ld_unit_zero (S := S512x1024) offs0_zero2, View.ld_unit_zero (S := S1024) offs0_zero1]
  rw [k0_pay3_apply, k0_pay1_apply, hb]
  unfold phiArr
  exact congrArg (fun s => Ideal.sin (s + B (ix1 j))) (Finset.sum_congr rfl fun k _ => by rw [hx k, hw k])

/-! ### Output window 3: phi -/

/-- The index maps over the grid: the x window's row block is this output's, everything else stays at block 0, and a
    row block is 0 or 1. -/
theorem idx_facts0_3 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 1 ∧ win0_3.index t (1 : Fin 2) = 0 :=
  (by decide +kernel : ∀ t : Fin grid0.N, _)

/-- Each of the two row blocks is some point's. -/
theorem idx_onto0_3 : ∀ q0 : Fin 2, ∃ t : Fin cfg0.N, win0_3.index t = ![q0.val, 0] :=
  (by decide +kernel : ∀ q0 : Fin 2, ∃ t : Fin grid0.N, win0_3.index t = ![q0.val, 0])

/-- What point t writes back is block t of the whole-array function. -/
theorem flushed0_3_eq (c : Dev nD) (t : Fin cfg0.N) :
    (dat0 V c).flushed 3 t = ((cfg0.win 3).blk t).view.read (Elt Ideal) (phiOut (V c main_arg0) (V c main_v1) (V c main_arg3)) := by
  show (cfg0.win 3).cut (grid0.coords t) ((dat0 V c).after 3 t) = _
  rw [after0_3]
  obtain ⟨e0, e1, e2, e3, e4, e5, e6⟩ := idx_facts0_3 t
  funext y
  show phiBlk (iblk0 V c 0 t) (iblk0 V c 1 t) (iblk0 V c 2 t) y
    = phiArr (V c main_arg0) (V c main_v1) (V c main_arg3) ((((cfg0.win 3).blk t).view.emb y) 0) ((((cfg0.win 3).blk t).view.emb y) 1)
  have hj : ((((cfg0.win 3).blk t).view.emb y) 1 : Fin 1024) = (y 1 : Fin 1024) :=
    Fin.ext (by show win0_3.index t (1 : Fin 2) * 1024 + 1 * (y 1).val = (y 1).val; omega)
  refine ((congrArg (phiBlk _ _ _) (eq_ix2 (n0 := 128) (n1 := 1024) y)).trans
    (phiBlk_apply (V c main_arg0) (V c main_v1) (V c main_arg3) _ _ _ (y 0) (y 1) ((((cfg0.win 3).blk t).view.emb y) 0)
      (fun k => ?_) (fun k => ?_) ?_)).trans (congrArg (fun J => phiArr (V c main_arg0) (V c main_v1) (V c main_arg3) ((((cfg0.win 3).blk t).view.emb y) 0) J) hj.symm)
  · show V c main_arg0 (((cfg0.win 0).blk t).view.emb (ix2 (y 0) k)) = _
    refine congrArg (V c main_arg0) (funext fun a => Fin.ext ?_)
    match a with
    | ⟨0, _⟩ => show win0_0.index t (0 : Fin 2) * 128 + 1 * (y 0).val = win0_3.index t (0 : Fin 2) * 128 + 1 * (y 0).val; omega
    | ⟨1, _⟩ => show win0_0.index t (1 : Fin 2) * 512 + 1 * k.val = k.val; omega
  · show V c main_v1 (((cfg0.win 1).blk t).view.emb (ix2 k (y 1))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 1024 + 1 * (y 1).val = (y 1).val; omega
  · show V c main_arg3 (((cfg0.win 2).blk t).view.emb (ix1 (y 1))) = _
    refine congrArg (V c main_arg3) (funext fun a => Fin.ext ?_)
    match a with
    | ⟨0, _⟩ => show win0_2.index t (0 : Fin 1) * 1024 + 1 * (y 1).val = (y 1).val; omega

/-- An index of the array is in point t's block iff each coordinate is in the block's range on its axis. -/
theorem mem_blk0_3 (t : Fin cfg0.N) (i : S256x1024.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v5_0).slice (win0_3.rect t)).set ↔ _
  rw [View.set_slice_whole, Rect.mem_set_unit]
  exact Iff.rfl

/-- Row r of the array lies in the block of the point whose row block is r / 128. -/
theorem cover0_3 (i : S256x1024.Idx) :
    ∃ t : Fin cfg0.N, (cfg0.win 3).flush t = true ∧ i ∈ ((cfg0.win 3).blk t).view.set := by
  have hi0 : (i 0).val < 256 := (i 0).isLt
  have hi1 : (i 1).val < 1024 := (i 1).isLt
  obtain ⟨t, ht⟩ := idx_onto0_3 ⟨(i 0).val / 128, by omega⟩
  have q0 : win0_3.index t (0 : Fin 2) = (i 0).val / 128 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1024 ≤ (i 1).val ∧ (i 1).val < win0_3.index t (1 : Fin 2) * 1024 + 1024; omega

/-- The array after the region. -/
theorem final0_3 (c : Dev nD) :
    (dat0 V c).arrAt 3 cfg0.N = phiOut (V c main_arg0) (V c main_v1) (V c main_arg3) :=
  (dat0 V c).arrAt_eq_of_cover 3 _ (fun t _ => flushed0_3_eq V c t) cover0_3

/-! ### Output window 4: cos phi -/

/-- The index maps over the grid: the x window's row block is this output's, everything else stays at block 0, and a
    row block is 0 or 1. -/
theorem idx_facts0_4 : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_4.index t (0 : Fin 2) ≤ 1 ∧ win0_4.index t (1 : Fin 2) = 0 :=
  (by decide +kernel : ∀ t : Fin grid0.N, _)

/-- Each of the two row blocks is some point's. -/
theorem idx_onto0_4 : ∀ q0 : Fin 2, ∃ t : Fin cfg0.N, win0_4.index t = ![q0.val, 0] :=
  (by decide +kernel : ∀ q0 : Fin 2, ∃ t : Fin grid0.N, win0_4.index t = ![q0.val, 0])

/-- What point t writes back is block t of the whole-array function. -/
theorem flushed0_4_eq (c : Dev nD) (t : Fin cfg0.N) :
    (dat0 V c).flushed 4 t = ((cfg0.win 4).blk t).view.read (Elt Ideal) (cosOut (V c main_arg0) (V c main_v1) (V c main_arg3)) := by
  show (cfg0.win 4).cut (grid0.coords t) ((dat0 V c).after 4 t) = _
  rw [after0_4]
  obtain ⟨e0, e1, e2, e3, e4, e5, e6⟩ := idx_facts0_4 t
  funext y
  show cosBlk (iblk0 V c 0 t) (iblk0 V c 1 t) (iblk0 V c 2 t) y
    = Ideal.cos (phiArr (V c main_arg0) (V c main_v1) (V c main_arg3) ((((cfg0.win 4).blk t).view.emb y) 0) ((((cfg0.win 4).blk t).view.emb y) 1))
  have hj : ((((cfg0.win 4).blk t).view.emb y) 1 : Fin 1024) = (y 1 : Fin 1024) :=
    Fin.ext (by show win0_4.index t (1 : Fin 2) * 1024 + 1 * (y 1).val = (y 1).val; omega)
  refine ((congrArg (cosBlk _ _ _) (eq_ix2 (n0 := 128) (n1 := 1024) y)).trans
    (cosBlk_apply (V c main_arg0) (V c main_v1) (V c main_arg3) _ _ _ (y 0) (y 1) ((((cfg0.win 4).blk t).view.emb y) 0)
      (fun k => ?_) (fun k => ?_) ?_)).trans (congrArg (fun J => Ideal.cos (phiArr (V c main_arg0) (V c main_v1) (V c main_arg3) ((((cfg0.win 4).blk t).view.emb y) 0) J)) hj.symm)
  · show V c main_arg0 (((cfg0.win 0).blk t).view.emb (ix2 (y 0) k)) = _
    refine congrArg (V c main_arg0) (funext fun a => Fin.ext ?_)
    match a with
    | ⟨0, _⟩ => show win0_0.index t (0 : Fin 2) * 128 + 1 * (y 0).val = win0_4.index t (0 : Fin 2) * 128 + 1 * (y 0).val; omega
    | ⟨1, _⟩ => show win0_0.index t (1 : Fin 2) * 512 + 1 * k.val = k.val; omega
  · show V c main_v1 (((cfg0.win 1).blk t).view.emb (ix2 k (y 1))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 1024 + 1 * (y 1).val = (y 1).val; omega
  · show V c main_arg3 (((cfg0.win 2).blk t).view.emb (ix1 (y 1))) = _
    refine congrArg (V c main_arg3) (funext fun a => Fin.ext ?_)
    match a with
    | ⟨0, _⟩ => show win0_2.index t (0 : Fin 1) * 1024 + 1 * (y 1).val = (y 1).val; omega

/-- An index of the array is in point t's block iff each coordinate is in the block's range on its axis. -/
theorem mem_blk0_4 (t : Fin cfg0.N) (i : S256x1024.Idx) :
    i ∈ ((cfg0.win 4).blk t).view.set ↔ ∀ a : Fin 2, win0_4.index t a * S128x1024.size a ≤ (i a).val
      ∧ (i a).val < win0_4.index t a * S128x1024.size a + S128x1024.size a := by
  show i ∈ ((View.whole main_v5_1).slice (win0_4.rect t)).set ↔ _
  rw [View.set_slice_whole, Rect.mem_set_unit]
  exact Iff.rfl

/-- Row r of the array lies in the block of the point whose row block is r / 128. -/
theorem cover0_4 (i : S256x1024.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  obtain ⟨t, ht⟩ := idx_onto0_4 ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 1024 ≤ (i 1).val ∧ (i 1).val < win0_4.index t (1 : Fin 2) * 1024 + 1024; omega

/-- The array after the region. -/
theorem final0_4 (c : Dev nD) :
    (dat0 V c).arrAt 4 cfg0.N = cosOut (V c main_arg0) (V c main_v1) (V c main_arg3) :=
  (dat0 V c).arrAt_eq_of_cover 4 _ (fun t _ => flushed0_4_eq V c t) cover0_4

/-! ### Output window 5: sin phi -/

/-- The index maps over the grid: the x window's row block is this output's, everything else stays at block 0, and a
    row block is 0 or 1. -/
theorem idx_facts0_5 : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_5.index t (0 : Fin 2) ≤ 1 ∧ win0_5.index t (1 : Fin 2) = 0 :=
  (by decide +kernel : ∀ t : Fin grid0.N, _)

/-- Each of the two row blocks is some point's. -/
theorem idx_onto0_5 : ∀ q0 : Fin 2, ∃ t : Fin cfg0.N, win0_5.index t = ![q0.val, 0] :=
  (by decide +kernel : ∀ q0 : Fin 2, ∃ t : Fin grid0.N, win0_5.index t = ![q0.val, 0])

/-- What point t writes back is block t of the whole-array function. -/
theorem flushed0_5_eq (c : Dev nD) (t : Fin cfg0.N) :
    (dat0 V c).flushed 5 t = ((cfg0.win 5).blk t).view.read (Elt Ideal) (sinOut (V c main_arg0) (V c main_v1) (V c main_arg3)) := by
  show (cfg0.win 5).cut (grid0.coords t) ((dat0 V c).after 5 t) = _
  rw [after0_5]
  obtain ⟨e0, e1, e2, e3, e4, e5, e6⟩ := idx_facts0_5 t
  funext y
  show sinBlk (iblk0 V c 0 t) (iblk0 V c 1 t) (iblk0 V c 2 t) y
    = Ideal.sin (phiArr (V c main_arg0) (V c main_v1) (V c main_arg3) ((((cfg0.win 5).blk t).view.emb y) 0) ((((cfg0.win 5).blk t).view.emb y) 1))
  have hj : ((((cfg0.win 5).blk t).view.emb y) 1 : Fin 1024) = (y 1 : Fin 1024) :=
    Fin.ext (by show win0_5.index t (1 : Fin 2) * 1024 + 1 * (y 1).val = (y 1).val; omega)
  refine ((congrArg (sinBlk _ _ _) (eq_ix2 (n0 := 128) (n1 := 1024) y)).trans
    (sinBlk_apply (V c main_arg0) (V c main_v1) (V c main_arg3) _ _ _ (y 0) (y 1) ((((cfg0.win 5).blk t).view.emb y) 0)
      (fun k => ?_) (fun k => ?_) ?_)).trans (congrArg (fun J => Ideal.sin (phiArr (V c main_arg0) (V c main_v1) (V c main_arg3) ((((cfg0.win 5).blk t).view.emb y) 0) J)) hj.symm)
  · show V c main_arg0 (((cfg0.win 0).blk t).view.emb (ix2 (y 0) k)) = _
    refine congrArg (V c main_arg0) (funext fun a => Fin.ext ?_)
    match a with
    | ⟨0, _⟩ => show win0_0.index t (0 : Fin 2) * 128 + 1 * (y 0).val = win0_5.index t (0 : Fin 2) * 128 + 1 * (y 0).val; omega
    | ⟨1, _⟩ => show win0_0.index t (1 : Fin 2) * 512 + 1 * k.val = k.val; omega
  · show V c main_v1 (((cfg0.win 1).blk t).view.emb (ix2 k (y 1))) = _
    refine congrArg (V c main_v1) (funext fun a => Fin.ext ?_)
    match a with
    | ⟨0, _⟩ => show win0_1.index t (0 : Fin 2) * 512 + 1 * k.val = k.val; omega
    | ⟨1, _⟩ => show win0_1.index t (1 : Fin 2) * 1024 + 1 * (y 1).val = (y 1).val; omega
  · show V c main_arg3 (((cfg0.win 2).blk t).view.emb (ix1 (y 1))) = _
    refine congrArg (V c main_arg3) (funext fun a => Fin.ext ?_)
    match a with
    | ⟨0, _⟩ => show win0_2.index t (0 : Fin 1) * 1024 + 1 * (y 1).val = (y 1).val; omega

/-- An index of the array is in point t's block iff each coordinate is in the block's range on its axis. -/
theorem mem_blk0_5 (t : Fin cfg0.N) (i : S256x1024.Idx) :
    i ∈ ((cfg0.win 5).blk t).view.set ↔ ∀ a : Fin 2, win0_5.index t a * S128x1024.size a ≤ (i a).val
      ∧ (i a).val < win0_5.index t a * S128x1024.size a + S128x1024.size a := by
  show i ∈ ((View.whole main_v5_2).slice (win0_5.rect t)).set ↔ _
  rw [View.set_slice_whole, Rect.mem_set_unit]
  exact Iff.rfl

/-- Row r of the array lies in the block of the point whose row block is r / 128. -/
theorem cover0_5 (i : S256x1024.Idx) :
    ∃ t : Fin cfg0.N, (cfg0.win 5).flush t = true ∧ i ∈ ((cfg0.win 5).blk t).view.set := by
  have hi0 : (i 0).val < 256 := (i 0).isLt
  have hi1 : (i 1).val < 1024 := (i 1).isLt
  obtain ⟨t, ht⟩ := idx_onto0_5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 1024 ≤ (i 1).val ∧ (i 1).val < win0_5.index t (1 : Fin 2) * 1024 + 1024; omega

/-- The array after the region. -/
theorem final0_5 (c : Dev nD) :
    (dat0 V c).arrAt 5 cfg0.N = sinOut (V c main_arg0) (V c main_v1) (V c main_arg3) :=
  (dat0 V c).arrAt_eq_of_cover 5 _ (fun t _ => flushed0_5_eq V c t) cover0_5

end Cert.KernelIdeal.Hand
-- ==== Proof.IdealVal1.lean ====
/-
  Region 1, what the body computes: the accumulator and the output block.

  Every store of the body is of a whole 32 × 128 buffer, so what a buffer holds after a sequence of stores is the last
  store's value.  The scratch accumulator therefore holds, after k trips of the loop, the k-fold recursion
      acc 0 = zeros,   acc (k + 1) = acc k + (lane sums of the coherence terms against columns 128 k … 128 k + 127),
  each step one application of the trip's arithmetic to the k-th 128-column slices of the cos phi and sin phi strips; and
  the output block is the final blend of acc 8 with the prev_ca block.
-/
import proofs.«168497_j76398878261811_2_alg».proof.Proof.IdealR1
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 32 × 128 rectangle. -/
abbrev rS1 : Rect S32x128 := Rect.unit (s := S32x128) ![0, 0] S32x128.size inb_S32x128_S32x128_0_0

/-- The k-th 128-column slice of a 32 × 1024 strip. -/
def sliceOf (x : Vec F S32x1024 .f32) (k : Fin k1_t1_loop.trips) : Vec F S32x128 .f32 :=
  View.ld x (Rect.unit (s := S32x1024) (k1_off1 k) S32x128.size (k1_off1_inb k))

/-- The accumulator after k trips, from the two blocks and the two strips. -/
def accUpTo (x0 x1 : Vec F S32x128 .f32) (x2 x3 : Vec F S32x1024 .f32) : ℕ → Vec F S32x128 .f32
  | 0 => k1_pay1
  | k + 1 => if h : k < k1_t1_loop.trips then k1_pay2 x0 x1 (sliceOf x2 ⟨k, h⟩) (sliceOf x3 ⟨k, h⟩) (accUpTo x0 x1 x2 x3 k)
      else accUpTo x0 x1 x2 x3 k

/-- A trip's one piece: the trip's arithmetic of the two slices at the trip's offset and the accumulator it finds, stored
    over the whole scratch. -/
theorem tripL_eq (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (v0 v2 : Vec F S32x128 .f32) (X4 : BufTy.Contents (Elt F) arg4.view.ty) (X5 : BufTy.Contents (Elt F) arg5.view.ty)
    (k : Fin k1_t1_loop.trips) (f : BufTy.Contents (Elt F) arg8.view.ty) :
    tripL_k1_t1 (F := F) Variants.none c none i arg2 harg2 arg3 harg3 arg4 harg4 arg5 harg5 arg6 harg6 arg7 harg7 arg8 harg8 v0 v2 X4 X5 k f
      = [⟨rS1, k1_pay2 v0 v2 (View.readAt (Elt F) arg4.view (Rect.unit (s := S32x1024) (k1_off1 k) S32x128.size (k1_off1_inb k)).toLoadRect X4)
          (View.readAt (Elt F) arg5.view (Rect.unit (s := S32x1024) (k1_off1 k) S32x128.size (k1_off1_inb k)).toLoadRect X5)
          (View.readAt (Elt F) arg8.view rS1.toLoadRect f)⟩] := by
  unfold tripL_k1_t1 trip_k1_t1
  rfl

/-- The zero offsets, however spelt. -/
theorem hzS1 : (![0, 0] : Fin S32x128.rank → Nat) = fun _ => 0 := by
  funext a
  match a with
  | ⟨0, _⟩ => rfl
  | ⟨1, _⟩ => rfl

/-- After a store of the whole buffer, the buffer reads that store's value, whatever came before. -/
theorem read_whole_store (v : View sig .tc .vmem S32x128 .f32) (f : v.ty.Contents (Elt F)) (p : Vec F S32x128 .f32)
    (L : List (View.Piece (Elt F) S32x128 .f32)) :
    v.read (Elt F) (v.writes (Elt F) f (⟨rS1, p⟩ :: L)) = p :=
  funext fun y => View.read_writes_cons_unit_of_mem v f inb_S32x128_S32x128_0_0 p L y y rfl
    (fun a => by rw [congrFun hzS1 a, Nat.zero_add])

/-- What the scratch reads after k trips: the k-fold recursion over the two blocks and the contents of the two strips. -/
theorem scratch_after (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (v0 v2 : Vec F S32x128 .f32) (X4 : BufTy.Contents (Elt F) arg4.view.ty) (X5 : BufTy.Contents (Elt F) arg5.view.ty) : ∀ k : ℕ,
    arg8.view.read (Elt F) (arg8.view.writes (Elt F) arg8.view.junk
      (pb_k1_t1 Variants.none c none i arg2 harg2 arg3 harg3 arg4 harg4 arg5 harg5 arg6 harg6 arg7 harg7 arg8 harg8 v0 v2 X4 X5 (arg8.view.writes (Elt F) arg8.view.junk [⟨rS1, k1_pay1⟩]) k ++ [⟨rS1, k1_pay1⟩]))
      = accUpTo v0 v2 (arg4.view.read (Elt F) X4) (arg5.view.read (Elt F) X5) k
  | 0 => by
    show arg8.view.read (Elt F) (arg8.view.writes (Elt F) arg8.view.junk ([] ++ [⟨rS1, k1_pay1⟩])) = k1_pay1
    exact read_whole_store _ _ _ _
  | k + 1 => by
    have ih := scratch_after c i arg2 harg2 arg3 harg3 arg4 harg4 arg5 harg5 arg6 harg6 arg7 harg7 arg8 harg8 v0 v2 X4 X5 k
    rw [pb_k1_t1.eq_2]
    unfold pb_k1_t1Step
    by_cases h : k < k1_t1_loop.trips
    · rw [dif_pos h, tripL_eq, List.singleton_append, List.cons_append, read_whole_store]
      have e3 : View.readAt (Elt F) arg8.view rS1.toLoadRect
          (arg8.view.writes (Elt F) (arg8.view.writes (Elt F) arg8.view.junk [⟨rS1, k1_pay1⟩])
            (pb_k1_t1 Variants.none c none i arg2 harg2 arg3 harg3 arg4 harg4 arg5 harg5 arg6 harg6 arg7 harg7 arg8 harg8 v0 v2 X4 X5 (arg8.view.writes (Elt F) arg8.view.junk [⟨rS1, k1_pay1⟩]) k))
          = accUpTo v0 v2 (arg4.view.read (Elt F) X4) (arg5.view.read (Elt F) X5) k := by
        rw [View.readAt_eq_ld, ← View.writes_append, ih, View.ld_unit_zero hzS1]
      rw [e3]
      show _ = if h : k < k1_t1_loop.trips then _ else _
      rw [dif_pos h]
      rfl
    · rw [dif_neg h, ih]
      show _ = if h : k < k1_t1_loop.trips then _ else _
      rw [dif_neg h]

/-- What the body leaves in the output buffer: the final blend of the accumulator after all the trips with the prev_ca
    block. -/
theorem out1_eq (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) :
    out1 c i arg2 harg2 arg3 harg3 arg4 harg4 arg5 harg5 arg6 harg6 arg7 harg7 arg8 harg8 x0 x1 x2 x3 x4 = k1_pay3 (accUpTo x0 x1 x2 x3 k1_t1_loop.trips) x4 := by
  unfold out1
  rw [show (kernelRun1 c i arg2 harg2 arg3 harg3 arg4 harg4 arg5 harg5 arg6 harg6 arg7 harg7 arg8 harg8 x0 x1 x2 x3 x4).1
      = [⟨rS1, k1_pay3 (kernelRun1.sl.v9 c i arg2 harg2 arg3 harg3 arg4 harg4 arg5 harg5 arg6 harg6 arg7 harg7 arg8 harg8 x0 x1 x2 x3)
          (View.readAt (Elt F) arg6.view rS1.toLoadRect (harg6.unread x4))⟩] from by unfold kernelRun1; rfl]
  rw [read_whole_store]
  have hv9 : kernelRun1.sl.v9 c i arg2 harg2 arg3 harg3 arg4 harg4 arg5 harg5 arg6 harg6 arg7 harg7 arg8 harg8 x0 x1 x2 x3 = accUpTo x0 x1 x2 x3 k1_t1_loop.trips := by
    unfold kernelRun1.sl.v9 kernelRun1.sl.H8_1
    rw [View.readAt_eq_ld, scratch_after, View.ld_unit_zero hzS1, View.readAt_eq_ld, View.readAt_eq_ld,
      harg2.read_unread, harg3.read_unread, harg4.read_unread, harg5.read_unread,
      View.ld_unit_zero (S := S32x128) hzS1, View.ld_unit_zero (S := S32x128) hzS1]
  rw [hv9, View.readAt_eq_ld, harg6.read_unread, View.ld_unit_zero hzS1]

end Cert.KernelIdeal.Hand

end
-- ==== Proof.KerPay1.lean ====
/-
  Region 1's three stored values read at an entry, on the extended reals.

  The body clears a [32,128] accumulator, then for each of eight slices of 128 columns adds to it, at (r, i), the sum over
  the slice's columns l of |cos_i cos_l + sin_i sin_l| (row r of the two tables; the outer products are formed by laying
  the factors out as [32,128,1] and [32,1,128] and broadcasting both to [32,128,128]), and last combines the accumulator,
  scaled by two literals, with the previous value scaled by a third.
-/
import proofs.«168497_j76398878261811_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KerPay

open Cert.KernelIdeal Cert.KernelIdeal.Gen
open Idealize.ShloMosaic Idealize.ShloMosaic.ValueIdx
open scoped BigOperators

/-! ### Layout steps of the outer product, read at coordinates -/

variable {α : Type}

/-- An [a, b] array viewed as [a, b, 1] reads, at (p, q, u), the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, c] array viewed as [a, 1, c] reads, at (p, u, l), the operand at (p, l). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (l : Fin c) :
    shapeCast ⟨3, ![a, 1, c]⟩ x h (ix3 p u l) = x (ix2 p l) :=
  shapeCast_apply x h _ _ (by
    have hu : u.val = 0 := by omega
    rw [Shape.rowMajor_val_three, Shape.rowMajor_val_two]
    show p.val * c + l.val = (p.val * 1 + u.val) * c + l.val
    rw [hu, Nat.mul_one, Nat.add_zero])

/-- An [a, b, 1] array broadcast to [a, b, c] reads, at (p, q, l), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (l : Fin c) :
    broadcastTo ⟨3, ![a, b, c]⟩ v h (ix3 p q l) = v (ix3 p q (0 : Fin 1)) := by
  refine broadcastTo_apply v h (ix3 p q l) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [a, 1, c] array broadcast to [a, b, c] reads, at (p, q, l), the operand at (p, 0, l). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A column factor laid out [32,128,1] and broadcast along the last axis reads the factor at (r, i). -/
theorem colFactor_apply (v : FVec Ideal S32x128 .f32) (r : Fin 32) (i l : Fin 128) :
    broadcastTo S32x128x128 (shapeCast S32x128x1 v shapeCasts_S32x128_S32x128x1) broadcasts_S32x128x1_S32x128x128 (ix3 r i l)
      = v (ix2 r i) :=
  (broadcastTo_ab1_abc_apply _ _ r i l).trans (shapeCast_ab_ab1_apply v _ r i 0)

/-- A row factor laid out [32,1,128] and broadcast along the middle axis reads the factor at (r, l). -/
theorem rowFactor_apply (v : FVec Ideal S32x128 .f32) (r : Fin 32) (i l : Fin 128) :
    broadcastTo S32x128x128 (shapeCast S32x1x128 v shapeCasts_S32x128_S32x1x128) broadcasts_S32x1x128_S32x128x128 (ix3 r i l)
      = v (ix2 r l) :=
  (broadcastTo_a1c_abc_apply _ _ r i l).trans (shapeCast_ac_a1c_apply v _ r 0 l)

/-- The index a sum over the last axis of [32,128,128] inserts at (r, i) is (r, i, l). -/
theorem lift_last (r : Fin 32) (i l : Fin 128) :
    reduces_S32x128x128_S32x128.lift (ix2 r i) l = ix3 r i l :=
  funext fun a => Fin.ext (by
    match a with
    | ⟨0, _⟩ => rfl
    | ⟨1, _⟩ => rfl
    | ⟨2, _⟩ => rfl)

/-- A sum over the last axis of a [32,128,128] array into a zero word, at (r, i): the sum over l of the entries (r, i, l). -/
theorem sumLast_apply (src : FVec Ideal S32x128x128 .f32) (hφ : FKind.Formats .f32)
    (hacc : (0x00000000#32 : BitVec 32) = FKind.add.neutral .f32 hφ) (r : Fin 32) (i : Fin 128) :
    multiReduction .add [2] S32x128 src 0x00000000#32 reduces_S32x128x128_S32x128 hφ hacc (ix2 r i)
      = ∑ l : Fin 128, src (ix3 r i l) := by
  refine (Ideal.multiReduction_add_single src 0x00000000#32 reduces_S32x128x128_S32x128 hφ hacc (ix2 r i)).trans ?_
  exact Finset.sum_congr rfl fun l _ => congrArg src (lift_last r i l)

/-! ### The three stored values -/

/-- The cleared accumulator is the zero literal everywhere … -/
theorem k1_pay1_apply_ofBits (r : Fin 32) (i : Fin 128) :
    k1_pay1 (F := Ideal) (ix2 r i) = Ideal.ofBits .f32 0x00000000#32 := by
  unfold k1_pay1
  rw [shapeCast_self]
  rfl

/-- … which is the extended real 0. -/
theorem k1_pay1_apply (r : Fin 32) (i : Fin 128) : k1_pay1 (F := Ideal) (ix2 r i) = 0 :=
  (k1_pay1_apply_ofBits r i).trans Ideal.ofBits_zero_f32

/-- One slice's step: the accumulator at (r, i) plus the sum over the slice's columns l of the absolute value of
    c_i c_l + s_i s_l, the absolute value as the float operation. -/
theorem k1_pay2_apply (v0 v2 v24 v27 v41 : Vec Ideal S32x128 .f32) (r : Fin 32) (i : Fin 128) :
    k1_pay2 (F := Ideal) v0 v2 v24 v27 v41 (ix2 r i)
      = v41 (ix2 r i) + ∑ l : Fin 128, FloatOps.absf (F := Ideal) (φ := .f32)
          (v0 (ix2 r i) * v24 (ix2 r l) + v2 (ix2 r i) * v27 (ix2 r l)) := by
  unfold k1_pay2
  simp only [shapeCast_self]
  rw [addf_apply]
  refine congrArg (v41 (ix2 r i) + ·) ?_
  refine (sumLast_apply _ _ _ r i).trans ?_
  refine Finset.sum_congr rfl fun l _ => ?_
  show FloatOps.absf (F := Ideal) (φ := .f32) _ = _
  refine congrArg (FloatOps.absf (F := Ideal) (φ := .f32)) ?_
  rw [addf_apply, mulf_apply, mulf_apply, colFactor_apply, rowFactor_apply, colFactor_apply, rowFactor_apply]

/-- The same with the absolute value written as the larger of a and −a. -/
theorem k1_pay2_apply_max (v0 v2 v24 v27 v41 : Vec Ideal S32x128 .f32) (r : Fin 32) (i : Fin 128) :
    k1_pay2 (F := Ideal) v0 v2 v24 v27 v41 (ix2 r i)
      = v41 (ix2 r i) + ∑ l : Fin 128,
          max (v0 (ix2 r i) * v24 (ix2 r l) + v2 (ix2 r i) * v27 (ix2 r l))
            (-(v0 (ix2 r i) * v24 (ix2 r l) + v2 (ix2 r i) * v27 (ix2 r l))) :=
  k1_pay2_apply v0 v2 v24 v27 v41 r i

/-- The same again with the zero literal written in front of the sum, as a sum that starts from it reads. -/
theorem k1_pay2_apply_init (v0 v2 v24 v27 v41 : Vec Ideal S32x128 .f32) (r : Fin 32) (i : Fin 128) :
    k1_pay2 (F := Ideal) v0 v2 v24 v27 v41 (ix2 r i)
      = v41 (ix2 r i) + (Ideal.ofBits .f32 0x00000000#32 + ∑ l : Fin 128,
          max (v0 (ix2 r i) * v24 (ix2 r l) + v2 (ix2 r i) * v27 (ix2 r l))
            (-(v0 (ix2 r i) * v24 (ix2 r l) + v2 (ix2 r i) * v27 (ix2 r l)))) := by
  rw [Ideal.ofBits_zero_f32, zero_add]
  exact k1_pay2_apply_max v0 v2 v24 v27 v41 r i

/-- The final combination: previous value times the first literal, plus accumulator times the second literal times the
    third; the three literals are left as the words they are. -/
theorem k1_pay3_apply (v9 v12 : Vec Ideal S32x128 .f32) (r : Fin 32) (i : Fin 128) :
    k1_pay3 (F := Ideal) v9 v12 (ix2 r i)
      = v12 (ix2 r i) * Ideal.ofBits .f32 0x3F733333#32
        + (v9 (ix2 r i) * Ideal.ofBits .f32 0x3A800000#32) * Ideal.ofBits .f32 0x3D4CCCCD#32 := rfl

end Cert.KerPay
-- ==== Proof.RefSpec.lean ====
/-
  The reference computation, stage by stage, as small named functions of extended-real arrays read at explicit
  coordinates: the phase projection, the pairwise phase coherence averaged over the second phase, the gate, the
  coupled features and the layer normalisation. Every function is written in the order and with the operations the
  reference program itself uses at the exact instance (sums with their initial value, the quotient `Ideal.div`, float
  literals as the words they are printed with), so that reading the program at an index lands on these definitions
  without any algebra. No program is imported here.
-/
import Idealize.ShloMosaic.PureOps.Ideal.Laws
import Idealize.ShloMosaic.Lib.ValueIdx

noncomputable section

open scoped BigOperators

namespace Cert.RefSide

open Idealize.ShloMosaic Idealize.ShloMosaic.ValueIdx

/-- A rank-2 array of extended reals with literal extents. -/
abbrev Arr2 (a b : Nat) : Type := (⟨2, ![a, b]⟩ : Shape).Idx → EReal
/-- A rank-1 array of extended reals with a literal extent. -/
abbrev Arr1 (a : Nat) : Type := (⟨1, ![a]⟩ : Shape).Idx → EReal

/-- The absolute value of an extended real in the form the exact instance gives it: the larger of `x` and `-x`. -/
def eabs (x : EReal) : EReal := max x (-x)

/-- The exact instance's absolute value, at every format, is `eabs`. -/
theorem absf_eq_eabs {φ : FTy} (x : Ideal φ) : FloatOps.absf x = eabs x := rfl

/-- The phase: `phi[r, j] = (∑ k, x[r, k] * Wp[j, k]) + bp[j]`. -/
def refPhi (x : Arr2 256 512) (Wp : Arr2 1024 512) (bp : Arr1 1024) (r : Fin 256) (j : Fin 1024) : EReal :=
  (∑ k : Fin 512, x (ix2 r k) * Wp (ix2 j k)) + bp (ix1 j)

/-- The coherence sum of row `r` at phase `i`: the zero literal plus `∑ j, |cos (phi[r, i] - phi[r, j])|`. -/
def refCohSum (phi : Fin 256 → Fin 1024 → EReal) (r : Fin 256) (i : Fin 1024) : EReal :=
  Ideal.ofBits .f32 0x00000000#32 + ∑ j : Fin 1024, eabs (Ideal.cos (phi r i - phi r j))

/-- The updated state: `ca[r, i] = prev[r, i] * 0.95 + (cohSum[r, i] / 1024) * 0.05`, the three literals as their words. -/
def refCa (prev : Arr2 256 1024) (phi : Fin 256 → Fin 1024 → EReal) (r : Fin 256) (i : Fin 1024) : EReal :=
  prev (ix2 r i) * Ideal.ofBits .f32 0x3F733333#32
    + Ideal.div (refCohSum phi r i) (Ideal.ofBits .f32 0x44800000#32) * Ideal.ofBits .f32 0x3D4CCCCD#32

/-- The gate's argument: `z[r, q] = (∑ k, ca[r, k] * Wg[q, k]) + bg[q]`. -/
def refGateLogit (ca : Fin 256 → Fin 1024 → EReal) (Wg : Arr2 512 1024) (bg : Arr1 512) (r : Fin 256) (q : Fin 512) : EReal :=
  (∑ k : Fin 1024, ca r k * Wg (ix2 q k)) + bg (ix1 q)

/-- The gate as the reference spells the sigmoid: `1 / (1 + exp (-z))`, `1` the literal word of one. -/
def refGate (ca : Fin 256 → Fin 1024 → EReal) (Wg : Arr2 512 1024) (bg : Arr1 512) (r : Fin 256) (q : Fin 512) : EReal :=
  Ideal.div (Ideal.ofBits .f32 0x3F800000#32)
    (Ideal.ofBits .f32 0x3F800000#32 + Ideal.exp (-(refGateLogit ca Wg bg r q)))

/-- A `[256, 512]` array laid twice side by side: column `j` reads column `j` below 512 and column `j - 512` from 512 on. -/
def refTwice (g : Fin 256 → Fin 512 → EReal) (r : Fin 256) (j : Fin 1024) : EReal :=
  if h : j.val < 512 then g r ⟨j.val, h⟩ else g r ⟨j.val - 512, by omega⟩

/-- The coupled phase: `coupled[r, j] = ∑ k, phi[r, k] * W[k, j]`. -/
def refCoupled (phi : Fin 256 → Fin 1024 → EReal) (W : Arr2 1024 1024) (r : Fin 256) (j : Fin 1024) : EReal :=
  ∑ k : Fin 1024, phi r k * W (ix2 k j)

/-- The features before normalisation: `h[r, j] = coupled[r, j] * gate2[r, j] + phi[r, j]`. -/
def refH (phi : Fin 256 → Fin 1024 → EReal) (g : Fin 256 → Fin 512 → EReal) (W : Arr2 1024 1024)
    (r : Fin 256) (j : Fin 1024) : EReal :=
  refCoupled phi W r j * refTwice g r j + phi r j

/-- The row mean: `mu[r] = (0 + ∑ k, h[r, k]) / 1024`. -/
def refMean (h : Fin 256 → Fin 1024 → EReal) (r : Fin 256) : EReal :=
  Ideal.div (Ideal.ofBits .f32 0x00000000#32 + ∑ k : Fin 1024, h r k) (Ideal.ofBits .f32 0x44800000#32)

/-- The row variance: `var[r] = (0 + ∑ k, (h[r, k] - mu[r]) * (h[r, k] - mu[r])) / 1024`. -/
def refVar (h : Fin 256 → Fin 1024 → EReal) (r : Fin 256) : EReal :=
  Ideal.div (Ideal.ofBits .f32 0x00000000#32 + ∑ k : Fin 1024, (h r k - refMean h r) * (h r k - refMean h r))
    (Ideal.ofBits .f32 0x44800000#32)

/-- The layer normalisation: `(h[r, j] - mu[r]) * rsqrt (var[r] + eps) * gamma[j] + beta[j]`, `eps` its literal word. -/
def refNorm (h : Fin 256 → Fin 1024 → EReal) (gamma beta : Arr1 1024) (r : Fin 256) (j : Fin 1024) : EReal :=
  (h r j - refMean h r) * Ideal.rsqrt (refVar h r + Ideal.ofBits .f32 0x3727C5AC#32) * gamma (ix1 j) + beta (ix1 j)

/-- The state result of the whole computation as a function of the arguments. -/
def refCaOf (x : Arr2 256 512) (prev : Arr2 256 1024) (Wp : Arr2 1024 512) (bp : Arr1 1024)
    (r : Fin 256) (i : Fin 1024) : EReal :=
  refCa prev (refPhi x Wp bp) r i

/-- The feature result of the whole computation as a function of the arguments. -/
def refOutOf (x : Arr2 256 512) (prev : Arr2 256 1024) (Wp : Arr2 1024 512) (bp : Arr1 1024) (Wg : Arr2 512 1024)
    (bg : Arr1 512) (W : Arr2 1024 1024) (gamma beta : Arr1 1024) (r : Fin 256) (j : Fin 1024) : EReal :=
  refNorm (refH (refPhi x Wp bp) (refGate (refCaOf x prev Wp bp) Wg bg) W) gamma beta r j

end Cert.RefSide

end
-- ==== Proof.RefMath.lean ====
/-
  The real-number laws behind the comparison of the two programs, stated on the extended reals in exactly the
  operations the programs use at the exact instance: the phase is a real number when its inputs are; the cosine of a
  difference of two reals is the product form `cos a * cos b + sin a * sin b`; dividing by the word of 1024 is
  multiplying by the word of 2^-10; the logistic function is `1 / (1 + exp (-z))` with the word of one; and a sum over
  1024 columns is the sum over 8 consecutive chunks of 128 columns.
-/
import proofs.«168497_j76398878261811_2_alg».proof.Proof.RefSpec

noncomputable section

open scoped BigOperators

namespace Cert.RefSide

open Idealize.ShloMosaic Idealize.ShloMosaic.ValueIdx

/-! ## Literal words as the reals they denote -/

/-- The word `0x44800000` is 1024. -/
theorem ofBits_1024 : Ideal.ofBits .f32 0x44800000#32 = ((1024 : ℝ) : EReal) := by
  simp [Ideal.ofBits, Ideal.ieee, -EReal.coe_mul]; norm_num

/-- The word `0x3A800000` is 2^-10, the reciprocal of 1024. -/
theorem ofBits_inv1024 : Ideal.ofBits .f32 0x3A800000#32 = ((1 / 1024 : ℝ) : EReal) := by
  simp [Ideal.ofBits, Ideal.ieee, -EReal.coe_mul]; norm_num

/-- The word `0x3F800000` is one. -/
theorem ofBits_one : Ideal.ofBits .f32 0x3F800000#32 = 1 := by
  simp [Ideal.ofBits, Ideal.ieee, -EReal.coe_mul]; norm_num

/-- The zero word is a neutral initial value of a sum. -/
theorem zero_word_add (y : EReal) : Ideal.ofBits .f32 0x00000000#32 + y = y := by
  rw [Ideal.ofBits_zero_f32, zero_add]

/-! ## Division by 1024 is multiplication by 2^-10 -/

/-- For every extended real `s`: the quotient by the word of 1024 is the product with the word of 2^-10. -/
theorem div_1024_eq_mul (s : EReal) :
    Ideal.div s (Ideal.ofBits .f32 0x44800000#32) = s * Ideal.ofBits .f32 0x3A800000#32 := by
  rw [ofBits_1024, ofBits_inv1024]
  exact Ideal.div_coe (by norm_num) s

/-! ## The logistic function is the reference's spelling of the sigmoid -/

/-- `logistic z = 1 / (1 + exp (-z))`, the two ones the literal word of one. -/
theorem logistic_eq_div (z : EReal) :
    Ideal.logistic z
      = Ideal.div (Ideal.ofBits .f32 0x3F800000#32) (Ideal.ofBits .f32 0x3F800000#32 + Ideal.exp (-z)) := by
  rw [ofBits_one]; rfl

/-! ## Sums of reals are real -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The phase is a real number when every entry of its three inputs is. -/
theorem refPhi_real (x : Arr2 256 512) (Wp : Arr2 1024 512) (bp : Arr1 1024)
    (hx : ∀ i, ∃ v : ℝ, x i = (v : EReal)) (hW : ∀ i, ∃ v : ℝ, Wp i = (v : EReal))
    (hb : ∀ i, ∃ v : ℝ, bp i = (v : EReal)) (r : Fin 256) (j : Fin 1024) :
    ∃ v : ℝ, refPhi x Wp bp r j = (v : EReal) := by
  choose fx hfx using hx
  choose fW hfW using hW
  choose fb hfb using hb
  refine ⟨(∑ k : Fin 512, fx (ix2 r k) * fW (ix2 j k)) + fb (ix1 j), ?_⟩
  unfold refPhi
  rw [EReal.coe_add, coe_sum, hfb]
  refine congrArg (· + _) (Finset.sum_congr rfl fun k _ => ?_)
  rw [hfx, hfW, EReal.coe_mul]

/-! ## The cosine of a difference -/

/-- For real `a` and `b`, in the operations of the exact instance: `cos (a - b) = cos a * cos b + sin a * sin b`. -/
theorem cos_sub_real (a b : ℝ) :
    Ideal.cos ((a : EReal) - (b : EReal))
      = Ideal.cos (a : EReal) * Ideal.cos (b : EReal) + Ideal.sin (a : EReal) * Ideal.sin (b : EReal) := by
  rw [← EReal.coe_sub, Ideal.cos_coe, Ideal.cos_coe, Ideal.cos_coe, Ideal.sin_coe, Ideal.sin_coe, ← EReal.coe_mul,
    ← EReal.coe_mul, ← EReal.coe_add, Real.cos_sub]

/-- The angle-difference law under the absolute value, for real `a` and `b`. -/
theorem eabs_cos_sub_real (a b : ℝ) :
    eabs (Ideal.cos ((a : EReal) - (b : EReal)))
      = eabs (Ideal.cos (a : EReal) * Ideal.cos (b : EReal) + Ideal.sin (a : EReal) * Ideal.sin (b : EReal)) :=
  congrArg eabs (cos_sub_real a b)

/-- The same law for extended reals known to be real. -/
theorem eabs_cos_sub_of_real {p q : EReal} (hp : ∃ v : ℝ, p = (v : EReal)) (hq : ∃ v : ℝ, q = (v : EReal)) :
    eabs (Ideal.cos (p - q)) = eabs (Ideal.cos p * Ideal.cos q + Ideal.sin p * Ideal.sin q) := by
  obtain ⟨a, rfl⟩ := hp
  obtain ⟨b, rfl⟩ := hq
  exact eabs_cos_sub_real a b

/-- The same law in the exact instance's own absolute value, at any two formats. -/
theorem absf_cos_sub_of_real {φ ψ : FTy} {p q : EReal} (hp : ∃ v : ℝ, p = (v : EReal)) (hq : ∃ v : ℝ, q = (v : EReal)) :
    FloatOps.absf (F := Ideal) (φ := φ) (Ideal.cos (p - q))
      = FloatOps.absf (F := Ideal) (φ := ψ) (Ideal.cos p * Ideal.cos q + Ideal.sin p * Ideal.sin q) :=
  eabs_cos_sub_of_real hp hq

/-! ## A sum over 1024 columns in 8 chunks of 128 -/

/-- `∑ j : Fin 1024, f j = ∑ s : Fin 8, ∑ l : Fin 128, f (128 * s + l)`. -/
theorem sum_1024_chunks {M : Type*} [AddCommMonoid M] (f : Fin 1024 → M) :
    ∑ j : Fin 1024, f j = ∑ s : Fin 8, ∑ l : Fin 128, f ⟨128 * s.val + l.val, by omega⟩ := by
  have e := Equiv.sum_comp (finProdFinEquiv (m := 8) (n := 128)) (fun j : Fin (8 * 128) => f j)
  rw [Fintype.sum_prod_type] at e
  refine e.symm.trans ?_
  refine Finset.sum_congr rfl fun s _ => Finset.sum_congr rfl fun l _ => congrArg f (Fin.ext ?_)
  show l.val + 128 * s.val = 128 * s.val + l.val
  omega

end Cert.RefSide

end
-- ==== Proof.RefLaw.lean ====
/-
  The tiled computation's whole-array spelling equals the reference's. The tiled computation forms the phase against
  the transposed weights, keeps the cosine and the sine of the phase as arrays, accumulates the coherence in eight trips
  over chunks of 128 columns with every term in the product form `|cos a * cos b + sin a * sin b|`, multiplies by 2^-10
  where the reference divides by 1024, and takes the logistic function where the reference spells `1 / (1 + exp (-z))`.
  Over real inputs the two agree entry by entry; only the coherence needs the phase to be real.
-/
import proofs.«168497_j76398878261811_2_alg».proof.Proof.RefMath

noncomputable section

open scoped BigOperators

namespace Cert.RefSide

open Idealize.ShloMosaic Idealize.ShloMosaic.ValueIdx

/-! ## The coherence sum of a real phase, in the product form and in chunks -/

/-- Over a real row of the phase, each coherence term is the absolute value of the product form. -/
theorem refCohSum_prod_row (phi : Fin 256 → Fin 1024 → EReal) (r : Fin 256)
    (hphi : ∀ j, ∃ v : ℝ, phi r j = (v : EReal)) (i : Fin 1024) :
    refCohSum phi r i
      = Ideal.ofBits .f32 0x00000000#32
        + ∑ j : Fin 1024, eabs (Ideal.cos (phi r i) * Ideal.cos (phi r j) + Ideal.sin (phi r i) * Ideal.sin (phi r j)) := by
  unfold refCohSum
  exact congrArg (_ + ·) (Finset.sum_congr rfl fun j _ => eabs_cos_sub_of_real (hphi i) (hphi j))

/-- Over a real row of the phase, the coherence sum in the product form, summed in 8 chunks of 128 columns. -/
theorem refCohSum_chunks_row (phi : Fin 256 → Fin 1024 → EReal) (r : Fin 256)
    (hphi : ∀ j, ∃ v : ℝ, phi r j = (v : EReal)) (i : Fin 1024) :
    refCohSum phi r i
      = Ideal.ofBits .f32 0x00000000#32
        + ∑ s : Fin 8, ∑ l : Fin 128,
            eabs (Ideal.cos (phi r i) * Ideal.cos (phi r ⟨128 * s.val + l.val, by omega⟩)
              + Ideal.sin (phi r i) * Ideal.sin (phi r ⟨128 * s.val + l.val, by omega⟩)) := by
  rw [refCohSum_prod_row phi r hphi i]
  exact congrArg (_ + ·) (sum_1024_chunks fun j =>
    eabs (Ideal.cos (phi r i) * Ideal.cos (phi r j) + Ideal.sin (phi r i) * Ideal.sin (phi r j)))

/-- The same two facts over a phase that is real everywhere. -/
theorem refCohSum_prod (phi : Fin 256 → Fin 1024 → EReal) (hphi : ∀ r j, ∃ v : ℝ, phi r j = (v : EReal))
    (r : Fin 256) (i : Fin 1024) :
    refCohSum phi r i
      = Ideal.ofBits .f32 0x00000000#32
        + ∑ j : Fin 1024, eabs (Ideal.cos (phi r i) * Ideal.cos (phi r j) + Ideal.sin (phi r i) * Ideal.sin (phi r j)) :=
  refCohSum_prod_row phi r (hphi r) i

theorem refCohSum_chunks (phi : Fin 256 → Fin 1024 → EReal) (hphi : ∀ r j, ∃ v : ℝ, phi r j = (v : EReal))
    (r : Fin 256) (i : Fin 1024) :
    refCohSum phi r i
      = Ideal.ofBits .f32 0x00000000#32
        + ∑ s : Fin 8, ∑ l : Fin 128,
            eabs (Ideal.cos (phi r i) * Ideal.cos (phi r ⟨128 * s.val + l.val, by omega⟩)
              + Ideal.sin (phi r i) * Ideal.sin (phi r ⟨128 * s.val + l.val, by omega⟩)) :=
  refCohSum_chunks_row phi r (hphi r) i

/-- The state update with the quotient by 1024 written as the product with 2^-10. -/
theorem refCa_mul (prev : Arr2 256 1024) (phi : Fin 256 → Fin 1024 → EReal) (r : Fin 256) (i : Fin 1024) :
    refCa prev phi r i
      = prev (ix2 r i) * Ideal.ofBits .f32 0x3F733333#32
        + refCohSum phi r i * Ideal.ofBits .f32 0x3A800000#32 * Ideal.ofBits .f32 0x3D4CCCCD#32 := by
  unfold refCa
  rw [div_1024_eq_mul]

/-- A sum over eight chunks as the accumulation from zero, chunk after chunk. -/
theorem sum_eight_acc {M : Type*} [AddCommMonoid M] (g : Fin 8 → M) :
    ∑ s : Fin 8, g s = 0 + g 0 + g 1 + g 2 + g 3 + g 4 + g 5 + g 6 + g 7 := by
  rw [Fin.sum_univ_eight, zero_add]

/-! ## The tiled computation's phase -/

/-- The phase against the transposed weights: `(∑ k, x[r, k] * WpT[k, j]) + bp[j]`. -/
def kerPhi (x : Arr2 256 512) (WpT : Arr2 512 1024) (bp : Arr1 1024) (r : Fin 256) (j : Fin 1024) : EReal :=
  (∑ k : Fin 512, x (ix2 r k) * WpT (ix2 k j)) + bp (ix1 j)

/-- Against the transpose of `Wp` it is the reference's phase. -/
theorem kerPhi_eq_refPhi (x : Arr2 256 512) (WpT : Arr2 512 1024) (Wp : Arr2 1024 512) (bp : Arr1 1024)
    (hT : ∀ (k : Fin 512) (j : Fin 1024), WpT (ix2 k j) = Wp (ix2 j k)) (r : Fin 256) (j : Fin 1024) :
    kerPhi x WpT bp r j = refPhi x Wp bp r j := by
  unfold kerPhi refPhi
  exact congrArg (· + _) (Finset.sum_congr rfl fun k _ => by rw [hT])

/-! ## The tiled computation's coherence accumulation and state update -/

/-- One trip's contribution at `(r, i)`: the sum over the 128 columns of chunk `s` of the product-form terms, over the
    cosine array `C` and the sine array `S`. -/
def kerChunk (C S : Fin 256 → Fin 1024 → EReal) (r : Fin 256) (i : Fin 1024) (s : Fin 8) : EReal :=
  ∑ l : Fin 128, eabs (C r i * C r ⟨128 * s.val + l.val, by omega⟩ + S r i * S r ⟨128 * s.val + l.val, by omega⟩)

/-- The accumulator after `n` trips, by recursion on the trip count: zero before the first trip, and each trip adds
    its chunk's contribution on the right. -/
def kerAccUpTo (C S : Fin 256 → Fin 1024 → EReal) (r : Fin 256) (i : Fin 1024) : (n : Nat) → n ≤ 8 → EReal
  | 0, _ => 0
  | n + 1, h => kerAccUpTo C S r i n (by omega) + kerChunk C S r i ⟨n, by omega⟩

/-- The accumulator after all eight trips. -/
def kerAcc (C S : Fin 256 → Fin 1024 → EReal) (r : Fin 256) (i : Fin 1024) : EReal :=
  kerAccUpTo C S r i 8 le_rfl

theorem kerAccUpTo_zero (C S : Fin 256 → Fin 1024 → EReal) (r : Fin 256) (i : Fin 1024) (h : 0 ≤ 8) :
    kerAccUpTo C S r i 0 h = 0 := rfl

theorem kerAccUpTo_succ (C S : Fin 256 → Fin 1024 → EReal) (r : Fin 256) (i : Fin 1024) (n : Nat) (h : n + 1 ≤ 8) :
    kerAccUpTo C S r i (n + 1) h = kerAccUpTo C S r i n (by omega) + kerChunk C S r i ⟨n, by omega⟩ := rfl

/-- The eight trips written out: the left-nested sum from zero. -/
theorem kerAcc_unrolled (C S : Fin 256 → Fin 1024 → EReal) (r : Fin 256) (i : Fin 1024) :
    kerAcc C S r i
      = 0 + kerChunk C S r i 0 + kerChunk C S r i 1 + kerChunk C S r i 2 + kerChunk C S r i 3
          + kerChunk C S r i 4 + kerChunk C S r i 5 + kerChunk C S r i 6 + kerChunk C S r i 7 := rfl

/-- The accumulator is the sum of the eight chunks. -/
theorem kerAcc_eq_sum (C S : Fin 256 → Fin 1024 → EReal) (r : Fin 256) (i : Fin 1024) :
    kerAcc C S r i = ∑ s : Fin 8, kerChunk C S r i s := by
  rw [sum_eight_acc]; rfl

/-- The state update of the tiled computation: `prev * 0.95 + (acc * 2^-10) * 0.05`, the literals as their words. -/
def kerCa (prev : Arr2 256 1024) (C S : Fin 256 → Fin 1024 → EReal) (r : Fin 256) (i : Fin 1024) : EReal :=
  prev (ix2 r i) * Ideal.ofBits .f32 0x3F733333#32
    + (kerAcc C S r i * Ideal.ofBits .f32 0x3A800000#32) * Ideal.ofBits .f32 0x3D4CCCCD#32

/-- Over a real row of the phase, with `C` and `S` its cosine and sine on that row, the tiled state update is the
    reference's. -/
theorem kerCa_eq_refCa (prev : Arr2 256 1024) (phi C S : Fin 256 → Fin 1024 → EReal) (r : Fin 256)
    (hphi : ∀ j, ∃ v : ℝ, phi r j = (v : EReal)) (hC : ∀ j, C r j = Ideal.cos (phi r j))
    (hS : ∀ j, S r j = Ideal.sin (phi r j)) (i : Fin 1024) :
    kerCa prev C S r i = refCa prev phi r i := by
  rw [refCa_mul, refCohSum_chunks_row phi r hphi i, zero_word_add]
  unfold kerCa
  rw [kerAcc_eq_sum]
  refine congrArg (fun a => _ + a * _ * _) (Finset.sum_congr rfl fun s _ => ?_)
  unfold kerChunk
  exact Finset.sum_congr rfl fun l _ => by rw [hC, hC, hS, hS]

/-! ## The tiled computation's gate and result -/

/-- The gate as the logistic function of the argument against the transposed gate weights. -/
def kerGate (ca : Fin 256 → Fin 1024 → EReal) (WgT : Arr2 1024 512) (bg : Arr1 512) (r : Fin 256) (q : Fin 512) : EReal :=
  Ideal.logistic ((∑ k : Fin 1024, ca r k * WgT (ix2 k q)) + bg (ix1 q))

/-- Against the transpose of `Wg` it is the reference's gate. -/
theorem kerGate_eq_refGate (ca : Fin 256 → Fin 1024 → EReal) (WgT : Arr2 1024 512) (Wg : Arr2 512 1024) (bg : Arr1 512)
    (hT : ∀ (k : Fin 1024) (q : Fin 512), WgT (ix2 k q) = Wg (ix2 q k)) (r : Fin 256) (q : Fin 512) :
    kerGate ca WgT bg r q = refGate ca Wg bg r q := by
  unfold kerGate refGate refGateLogit
  rw [logistic_eq_div]
  refine congrArg (fun z => Ideal.div _ (_ + Ideal.exp (-z))) ?_
  exact congrArg (· + _) (Finset.sum_congr rfl fun k _ => by rw [hT])

/-- The normalised result of the tiled computation over its own operands: the features `coupled * gate2 + phi` with
    the logistic gate, then the layer normalisation — the same spelling as the reference's from there on. -/
def kerOut (phi ca : Fin 256 → Fin 1024 → EReal) (WgT : Arr2 1024 512) (bg : Arr1 512) (Wk : Arr2 1024 1024)
    (gamma beta : Arr1 1024) (r : Fin 256) (j : Fin 1024) : EReal :=
  refNorm (refH phi (kerGate ca WgT bg) Wk) gamma beta r j

/-- Written out: the deviation from the row mean times the reciprocal root of the variance plus the small literal,
    times the scale, plus the shift. -/
theorem kerOut_def (phi ca : Fin 256 → Fin 1024 → EReal) (WgT : Arr2 1024 512) (bg : Arr1 512) (Wk : Arr2 1024 1024)
    (gamma beta : Arr1 1024) (r : Fin 256) (j : Fin 1024) :
    kerOut phi ca WgT bg Wk gamma beta r j
      = (refH phi (kerGate ca WgT bg) Wk r j - refMean (refH phi (kerGate ca WgT bg) Wk) r)
          * Ideal.rsqrt (refVar (refH phi (kerGate ca WgT bg) Wk) r + Ideal.ofBits .f32 0x3727C5AC#32) * gamma (ix1 j)
        + beta (ix1 j) := rfl

/-- With the gate weights transposed and the square weights equal entry by entry, it is the reference's result. -/
theorem kerOut_eq_refNorm (phi ca : Fin 256 → Fin 1024 → EReal) (WgT : Arr2 1024 512) (Wg : Arr2 512 1024)
    (bg : Arr1 512) (Wk W : Arr2 1024 1024) (gamma beta : Arr1 1024)
    (hT : ∀ (k : Fin 1024) (q : Fin 512), WgT (ix2 k q) = Wg (ix2 q k))
    (hW : ∀ (k j : Fin 1024), Wk (ix2 k j) = W (ix2 k j)) (r : Fin 256) (j : Fin 1024) :
    kerOut phi ca WgT bg Wk gamma beta r j = refNorm (refH phi (refGate ca Wg bg) W) gamma beta r j := by
  have hg : kerGate ca WgT bg = refGate ca Wg bg :=
    funext fun r => funext fun q => kerGate_eq_refGate ca WgT Wg bg hT r q
  have hWk : Wk = W := funext fun idx => by
    obtain ⟨k, j, rfl⟩ : ∃ (k j : Fin 1024), idx = ix2 k j := ⟨idx 0, idx 1, eq_ix2 idx⟩
    exact hW k j
  unfold kerOut
  rw [hg, hWk]

/-! ## End to end -/

/-- The state result of the tiled computation as a function of its operands. -/
def kerCaOf (x : Arr2 256 512) (prev : Arr2 256 1024) (WpT : Arr2 512 1024) (bp : Arr1 1024)
    (r : Fin 256) (i : Fin 1024) : EReal :=
  kerCa prev (fun r j => Ideal.cos (kerPhi x WpT bp r j)) (fun r j => Ideal.sin (kerPhi x WpT bp r j)) r i

/-- The feature result of the tiled computation as a function of its operands. -/
def kerOutOf (x : Arr2 256 512) (prev : Arr2 256 1024) (WpT : Arr2 512 1024) (bp : Arr1 1024) (WgT : Arr2 1024 512)
    (bg : Arr1 512) (Wk : Arr2 1024 1024) (gamma beta : Arr1 1024) (r : Fin 256) (j : Fin 1024) : EReal :=
  kerOut (kerPhi x WpT bp) (kerCaOf x prev WpT bp) WgT bg Wk gamma beta r j

/-- Over real `x`, `Wp`, `bp` the tiled state result is the reference's. -/
theorem kerCaOf_eq_refCaOf (x : Arr2 256 512) (prev : Arr2 256 1024) (WpT : Arr2 512 1024) (Wp : Arr2 1024 512)
    (bp : Arr1 1024) (hT : ∀ (k : Fin 512) (j : Fin 1024), WpT (ix2 k j) = Wp (ix2 j k))
    (hx : ∀ i, ∃ v : ℝ, x i = (v : EReal)) (hW : ∀ i, ∃ v : ℝ, Wp i = (v : EReal))
    (hb : ∀ i, ∃ v : ℝ, bp i = (v : EReal)) (r : Fin 256) (i : Fin 1024) :
    kerCaOf x prev WpT bp r i = refCaOf x prev Wp bp r i := by
  have hphi : kerPhi x WpT bp = refPhi x Wp bp :=
    funext fun r => funext fun j => kerPhi_eq_refPhi x WpT Wp bp hT r j
  unfold kerCaOf refCaOf
  rw [hphi]
  exact kerCa_eq_refCa prev (refPhi x Wp bp) _ _ r (fun j => refPhi_real x Wp bp hx hW hb r j)
    (fun _ => rfl) (fun _ => rfl) i

/-- Over real `x`, `Wp`, `bp`, with the weights transposed and the square weights equal entry by entry, the tiled
    feature result is the reference's. -/
theorem kerOutOf_eq_refOutOf (x : Arr2 256 512) (prev : Arr2 256 1024) (WpT : Arr2 512 1024) (Wp : Arr2 1024 512)
    (bp : Arr1 1024) (WgT : Arr2 1024 512) (Wg : Arr2 512 1024) (bg : Arr1 512) (Wk W : Arr2 1024 1024)
    (gamma beta : Arr1 1024)
    (hTp : ∀ (k : Fin 512) (j : Fin 1024), WpT (ix2 k j) = Wp (ix2 j k))
    (hTg : ∀ (k : Fin 1024) (q : Fin 512), WgT (ix2 k q) = Wg (ix2 q k))
    (hWk : ∀ (k j : Fin 1024), Wk (ix2 k j) = W (ix2 k j))
    (hx : ∀ i, ∃ v : ℝ, x i = (v : EReal)) (hW : ∀ i, ∃ v : ℝ, Wp i = (v : EReal))
    (hb : ∀ i, ∃ v : ℝ, bp i = (v : EReal)) (r : Fin 256) (j : Fin 1024) :
    kerOutOf x prev WpT bp WgT bg Wk gamma beta r j = refOutOf x prev Wp bp Wg bg W gamma beta r j := by
  have hphi : kerPhi x WpT bp = refPhi x Wp bp :=
    funext fun r => funext fun j => kerPhi_eq_refPhi x WpT Wp bp hTp r j
  have hca : kerCaOf x prev WpT bp = refCaOf x prev Wp bp :=
    funext fun r => funext fun i => kerCaOf_eq_refCaOf x prev WpT Wp bp hTp hx hW hb r i
  unfold kerOutOf refOutOf
  rw [hca, hphi]
  exact kerOut_eq_refNorm (refPhi x Wp bp) (refCaOf x prev Wp bp) WgT Wg bg Wk W gamma beta hTg hWk r j

end Cert.RefSide

end
-- ==== Proof.IdealVal1Arr.lean ====
/-
  Region 1's output array after the region, as one function of the arrays the region finds.

  At grid point (b, ib) the body's output buffer holds, at (r, i), the blend of prev_ca at row 32 b + r, column
  128 ib + i, with the accumulated coherence of that entry: eight trips, trip s adding the sum over the 128 columns of
  chunk s of |cos_i cos_j + sin_i sin_j|, the cosines and sines read off the whole cos phi and sin phi arrays (the block
  windows give the entry's own cosine and sine, the strip windows the row's). So what a point writes back is its block
  of one whole-array function, the 8 by 8 blocks tile the array (row R, column J lies in block (R / 32, J / 128)), and
  the array ends as that function.
-/
import proofs.«168497_j76398878261811_2_alg».proof.Proof.IdealVal1
import proofs.«168497_j76398878261811_2_alg».proof.Proof.KerPay1
import proofs.«168497_j76398878261811_2_alg».proof.Proof.RefLaw
import Idealize.ShloMosaic.Lib.Pipeline.Value

set_option maxRecDepth 16384

noncomputable section

namespace Cert.KernelIdeal.Hand

open Cert.KernelIdeal Cert.KernelIdeal.Gen Cert.KerPay Cert.RefSide
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The loop runs eight trips. -/
theorem trips1_eq : k1_t1_loop.trips = 8 := by decide

/-! ### The output array as a function of cos phi, sin phi and prev_ca -/

/-- The state array, index by index: the tiled state update over the whole cosine and sine arrays. -/
def caOut (C S P : S256x1024.Idx → EReal) : S256x1024.Idx → EReal :=
  fun idx => kerCa P (fun r j => C (ix2 r j)) (fun r j => S (ix2 r j)) (idx 0) (idx 1)

/-! ### The accumulator and the output buffer at an entry -/

/-- The k-th slice of a strip at (r, l) is the strip at (r, 128 k + l). -/
theorem sliceOf_apply (x : Vec Ideal S32x1024 .f32) (k : Fin k1_t1_loop.trips) (r : Fin 32) (l : Fin 128)
    (hb : 128 * k.val + l.val < 1024) :
    sliceOf x k (ix2 r l) = x (ix2 r ⟨128 * k.val + l.val, hb⟩) := by
  unfold sliceOf
  show x ((Rect.unit (s := S32x1024) (k1_off1 k) S32x128.size (k1_off1_inb k)).idx (ix2 r l)) = _
  refine congrArg x (funext fun a => Fin.ext ?_)
  have hk := k1_off1_eq k
  match a with
  | ⟨0, _⟩ =>
    show k1_off1 k 0 + 1 * r.val = r.val
    rw [hk]
    show 0 + 1 * r.val = r.val
    omega
  | ⟨1, _⟩ =>
    show k1_off1 k 1 + 1 * l.val = 128 * k.val + l.val
    rw [hk]
    show 128 * k.val + 1 * l.val = 128 * k.val + l.val
    omega

/-- The accumulator after n trips at (r, i), when the two blocks hold the entry's own cosine and sine and the two
    strips the row's: the recursion over the whole arrays. -/
theorem accUpTo_apply (C S : Fin 256 → Fin 1024 → EReal) (x0 x1 : Vec Ideal S32x128 .f32) (x2 x3 : Vec Ideal S32x1024 .f32)
    (r : Fin 32) (i : Fin 128) (R : Fin 256) (I : Fin 1024)
    (h0 : x0 (ix2 r i) = C R I) (h1 : x1 (ix2 r i) = S R I)
    (h2 : ∀ j : Fin 1024, x2 (ix2 r j) = C R j) (h3 : ∀ j : Fin 1024, x3 (ix2 r j) = S R j) :
    ∀ (n : Nat) (hn : n ≤ 8), accUpTo x0 x1 x2 x3 n (ix2 r i) = kerAccUpTo C S R I n hn
  | 0, _ => k1_pay1_apply r i
  | n + 1, hn => by
    have h : n < k1_t1_loop.trips := by rw [trips1_eq]; omega
    have ih := accUpTo_apply C S x0 x1 x2 x3 r i R I h0 h1 h2 h3 n (by omega)
    show (if h : n < k1_t1_loop.trips then k1_pay2 x0 x1 (sliceOf x2 ⟨n, h⟩) (sliceOf x3 ⟨n, h⟩) (accUpTo x0 x1 x2 x3 n)
        else accUpTo x0 x1 x2 x3 n) (ix2 r i) = _
    rw [dif_pos h, k1_pay2_apply_max, ih, kerAccUpTo_succ]
    refine congrArg (_ + ·) ?_
    unfold kerChunk
    refine Finset.sum_congr rfl fun l _ => ?_
    rw [sliceOf_apply x2 ⟨n, h⟩ r l (by show 128 * n + l.val < 1024; omega),
      sliceOf_apply x3 ⟨n, h⟩ r l (by show 128 * n + l.val < 1024; omega), h0, h1, h2, h3]
    rfl

/-- The recursion after all the trips is the accumulator. -/
theorem kerAccUpTo_trips (C S : Fin 256 → Fin 1024 → EReal) (R : Fin 256) (I : Fin 1024) :
    ∀ (n : Nat) (hn : n ≤ 8), n = 8 → kerAccUpTo C S R I n hn = kerAcc C S R I := by
  intro n hn e
  subst e
  rfl

/-- The output buffer at (r, i), when the blocks and strips hold what the whole arrays hold at row R, column I. -/
theorem caBlk_apply (C S P : S256x1024.Idx → EReal) (x0 x1 : Vec Ideal S32x128 .f32) (x2 x3 : Vec Ideal S32x1024 .f32)
    (x4 : Vec Ideal S32x128 .f32) (r : Fin 32) (i : Fin 128) (R : Fin 256) (I : Fin 1024)
    (h0 : x0 (ix2 r i) = C (ix2 R I)) (h1 : x1 (ix2 r i) = S (ix2 R I))
    (h2 : ∀ j : Fin 1024, x2 (ix2 r j) = C (ix2 R j)) (h3 : ∀ j : Fin 1024, x3 (ix2 r j) = S (ix2 R j))
    (h4 : x4 (ix2 r i) = P (ix2 R I)) :
    k1_pay3 (F := Ideal) (accUpTo x0 x1 x2 x3 k1_t1_loop.trips) x4 (ix2 r i) = caOut C S P (ix2 R I) := by
  rw [k1_pay3_apply,
    accUpTo_apply (fun r j => C (ix2 r j)) (fun r j => S (ix2 r j)) x0 x1 x2 x3 r i R I h0 h1 h2 h3 _ (le_of_eq trips1_eq),
    kerAccUpTo_trips _ _ R I _ _ trips1_eq, h4]
  rfl

/-! ### Output window 5: ca -/

/-- The index maps over the grid: the three block windows sit at the output's block, the two strip windows at its row
    block and column block 0, and the output's block coordinates are below 8. -/
theorem idx_facts1_5 : ∀ t : Fin cfg1.N,
    win1_0.index t (0 : Fin 2) = win1_5.index t (0 : Fin 2) ∧ win1_0.index t (1 : Fin 2) = win1_5.index t (1 : Fin 2)
    ∧ win1_1.index t (0 : Fin 2) = win1_5.index t (0 : Fin 2) ∧ win1_1.index t (1 : Fin 2) = win1_5.index t (1 : Fin 2)
    ∧ win1_2.index t (0 : Fin 2) = win1_5.index t (0 : Fin 2) ∧ win1_2.index t (1 : Fin 2) = 0
    ∧ win1_3.index t (0 : Fin 2) = win1_5.index t (0 : Fin 2) ∧ win1_3.index t (1 : Fin 2) = 0
    ∧ win1_4.index t (0 : Fin 2) = win1_5.index t (0 : Fin 2) ∧ win1_4.index t (1 : Fin 2) = win1_5.index t (1 : Fin 2)
    ∧ win1_5.index t (0 : Fin 2) ≤ 7 ∧ win1_5.index t (1 : Fin 2) ≤ 7 :=
  (by decide +kernel : ∀ t : Fin grid1.N, _)

/-- Each of the 8 by 8 blocks is some point's. -/
theorem idx_onto1_5 : ∀ q0 q1 : Fin 8, ∃ t : Fin cfg1.N, win1_5.index t = ![q0.val, q1.val] :=
  (by decide +kernel : ∀ q0 q1 : Fin 8, ∃ t : Fin grid1.N, win1_5.index t = ![q0.val, q1.val])

/-- What point t writes back is block t of the whole-array function. -/
theorem flushed1_5_eq (c : Dev nD) (t : Fin cfg1.N) :
    (dat1 V c).flushed 5 t
      = ((cfg1.win 5).blk t).view.read (Elt Ideal) (caOut (V c main_v5_1) (V c main_v5_2) (V c main_arg1)) := by
  show (cfg1.win 5).cut (grid1.coords t) ((dat1 V c).after 5 t) = _
  rw [after1_5]
  obtain ⟨e00, e01, e10, e11, e20, e21, e30, e31, e40, e41, e50, e51⟩ := idx_facts1_5 t
  funext y
  show outsAt1 V c t y = caOut (V c main_v5_1) (V c main_v5_2) (V c main_arg1) (((cfg1.win 5).blk t).view.emb y)
  unfold outsAt1
  rw [out1_eq]
  refine ((congrArg (k1_pay3 (F := Ideal) _ _) (eq_ix2 (n0 := 32) (n1 := 128) y)).trans
    (caBlk_apply (V c main_v5_1) (V c main_v5_2) (V c main_arg1) _ _ _ _ _ (y 0) (y 1)
      ((((cfg1.win 5).blk t).view.emb y) 0) ((((cfg1.win 5).blk t).view.emb y) 1) ?_ ?_ (fun j => ?_) (fun j => ?_) ?_)).trans
    (congrArg (caOut (V c main_v5_1) (V c main_v5_2) (V c main_arg1))
      (eq_ix2 (n0 := 256) (n1 := 1024) (((cfg1.win 5).blk t).view.emb y)).symm)
  · show V c main_v5_1 (((cfg1.win 0).blk t).view.emb (ix2 (y 0) (y 1))) = _
    refine congrArg (V c main_v5_1) (funext fun a => Fin.ext ?_)
    match a with
    | ⟨0, _⟩ => show win1_0.index t (0 : Fin 2) * 32 + 1 * (y 0).val = win1_5.index t (0 : Fin 2) * 32 + 1 * (y 0).val; omega
    | ⟨1, _⟩ => show win1_0.index t (1 : Fin 2) * 128 + 1 * (y 1).val = win1_5.index t (1 : Fin 2) * 128 + 1 * (y 1).val; omega
  · show V c main_v5_2 (((cfg1.win 1).blk t).view.emb (ix2 (y 0) (y 1))) = _
    refine congrArg (V c main_v5_2) (funext fun a => Fin.ext ?_)
    match a with
    | ⟨0, _⟩ => show win1_1.index t (0 : Fin 2) * 32 + 1 * (y 0).val = win1_5.index t (0 : Fin 2) * 32 + 1 * (y 0).val; omega
    | ⟨1, _⟩ => show win1_1.index t (1 : Fin 2) * 128 + 1 * (y 1).val = win1_5.index t (1 : Fin 2) * 128 + 1 * (y 1).val; omega
  · show V c main_v5_1 (((cfg1.win 2).blk t).view.emb (ix2 (y 0) j)) = _
    refine congrArg (V c main_v5_1) (funext fun a => Fin.ext ?_)
    match a with
    | ⟨0, _⟩ => show win1_2.index t (0 : Fin 2) * 32 + 1 * (y 0).val = win1_5.index t (0 : Fin 2) * 32 + 1 * (y 0).val; omega
    | ⟨1, _⟩ => show win1_2.index t (1 : Fin 2) * 1024 + 1 * j.val = j.val; omega
  · show V c main_v5_2 (((cfg1.win 3).blk t).view.emb (ix2 (y 0) j)) = _
    refine congrArg (V c main_v5_2) (funext fun a => Fin.ext ?_)
    match a with
    | ⟨0, _⟩ => show win1_3.index t (0 : Fin 2) * 32 + 1 * (y 0).val = win1_5.index t (0 : Fin 2) * 32 + 1 * (y 0).val; omega
    | ⟨1, _⟩ => show win1_3.index t (1 : Fin 2) * 1024 + 1 * j.val = j.val; omega
  · show V c main_arg1 (((cfg1.win 4).blk t).view.emb (ix2 (y 0) (y 1))) = _
    refine congrArg (V c main_arg1) (funext fun a => Fin.ext ?_)
    match a with
    | ⟨0, _⟩ => show win1_4.index t (0 : Fin 2) * 32 + 1 * (y 0).val = win1_5.index t (0 : Fin 2) * 32 + 1 * (y 0).val; omega
    | ⟨1, _⟩ => show win1_4.index t (1 : Fin 2) * 128 + 1 * (y 1).val = win1_5.index t (1 : Fin 2) * 128 + 1 * (y 1).val; omega

/-- An index of the array is in point t's block iff each coordinate is in the block's range on its axis. -/
theorem mem_blk1_5 (t : Fin cfg1.N) (i : S256x1024.Idx) :
    i ∈ ((cfg1.win 5).blk t).view.set ↔ ∀ a : Fin 2, win1_5.index t a * S32x128.size a ≤ (i a).val
      ∧ (i a).val < win1_5.index t a * S32x128.size a + S32x128.size a := by
  show i ∈ ((View.whole main_v6).slice (win1_5.rect t)).set ↔ _
  rw [View.set_slice_whole, Rect.mem_set_unit]
  exact Iff.rfl

/-- Row R, column J of the array lies in the block of the point whose block coordinates are (R / 32, J / 128). -/
theorem cover1_5 (i : S256x1024.Idx) :
    ∃ t : Fin cfg1.N, (cfg1.win 5).flush t = true ∧ i ∈ ((cfg1.win 5).blk t).view.set := by
  have hi0 : (i 0).val < 256 := (i 0).isLt
  have hi1 : (i 1).val < 1024 := (i 1).isLt
  obtain ⟨t, ht⟩ := idx_onto1_5 ⟨(i 0).val / 32, by omega⟩ ⟨(i 1).val / 128, by omega⟩
  have q0 : win1_5.index t (0 : Fin 2) = (i 0).val / 32 := congrFun ht 0
  have q1 : win1_5.index t (1 : Fin 2) = (i 1).val / 128 := congrFun ht 1
  refine ⟨t, flush1_5 t, ?_⟩
  rw [mem_blk1_5]
  intro a
  match a with
  | ⟨0, _⟩ => show win1_5.index t (0 : Fin 2) * 32 ≤ (i 0).val ∧ (i 0).val < win1_5.index t (0 : Fin 2) * 32 + 32; omega
  | ⟨1, _⟩ => show win1_5.index t (1 : Fin 2) * 128 ≤ (i 1).val ∧ (i 1).val < win1_5.index t (1 : Fin 2) * 128 + 128; omega

/-- The array after the region. -/
theorem final1_5 (c : Dev nD) :
    (dat1 V c).arrAt 5 cfg1.N = caOut (V c main_v5_1) (V c main_v5_2) (V c main_arg1) :=
  (dat1 V c).arrAt_eq_of_cover 5 _ (fun t _ => flushed1_5_eq V c t) cover1_5

end Cert.KernelIdeal.Hand

end
-- ==== Proof.KerPay2.lean ====
/-
  Region 2's two stored values read at an entry, on the extended reals.

  The body forms the gate (the logistic of the first operand times the gate weights plus a bias, a [128,512] table laid
  twice side by side), multiplies it into the second operand times the square weights, adds the second operand, and
  normalises every row: the row's mean and the mean of the squared deviations are kept as [128,1] columns and laid back
  along the rows; the deviation is multiplied by the reciprocal square root of the variance plus a small literal, by the
  scale, and the shift is added last.  Both products are into zero accumulators, and a change of float format is the
  identity on extended reals.
-/
import proofs.«168497_j76398878261811_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KerPay

open Cert.KernelIdeal Cert.KernelIdeal.Gen
open Idealize.ShloMosaic Idealize.ShloMosaic.ValueIdx
open scoped BigOperators

/-! ### The [128,1024] × [1024,512] product read at an entry -/

theorem mm_128x1024x512_lhs0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide),
    dif_pos (show (0 : Fin S128x1024.rank) ∈ dot_S128x1024_S1024x512_S128x512_1_0_0_1_n_n.lhsNonContracting by decide)]
  rfl
theorem mm_128x1024x512_lhs1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
theorem mm_128x1024x512_rhs0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
theorem mm_128x1024x512_rhs1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide),
    dif_pos (show (1 : Fin S1024x512.rank) ∈ dot_S128x1024_S1024x512_S128x512_1_0_0_1_n_n.rhsNonContracting by decide)]
  rfl

/-- Into a zero accumulator the product's entry (r, j) is the sum over k of row r of the left factor times column j of
    the right one. -/
theorem mm_128x1024x512_apply {φ₁ φ₂ : FTy} (lhs : FVec Ideal S128x1024 φ₁) (rhs : FVec Ideal S1024x512 φ₂) (r : Fin 128) (j : Fin 512) :
    matmul dot_S128x1024_S1024x512_S128x512_1_0_0_1_n_n none lhs rhs (constant S128x512 .f32 0x00000000#32) (ix2 r j)
      = ∑ k : Fin 1024, lhs (ix2 r k) * rhs (ix2 k j) := by
  simp only [matmul]
  rw [Ideal.matmul_constant_zero_apply, ← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 r j) ((contrEquiv1 dot_S128x1024_S1024x512_S128x512_1_0_0_1_n_n 1024 rfl rfl).symm k) = ix2 r k :=
    funext fun a => Fin.ext (by
      match a with
      | ⟨0, _⟩ => exact mm_128x1024x512_lhs0 _ _
      | ⟨1, _⟩ => exact (mm_128x1024x512_lhs1 _ _).trans hk)
  have er : dot_S128x1024_S1024x512_S128x512_1_0_0_1_n_n.rhsIdx (ix2 r j) ((contrEquiv1 dot_S128x1024_S1024x512_S128x512_1_0_0_1_n_n 1024 rfl rfl).symm k) = ix2 k j :=
    funext fun a => Fin.ext (by
      match a with
      | ⟨0, _⟩ => exact (mm_128x1024x512_rhs0 _ _).trans hk
      | ⟨1, _⟩ => exact mm_128x1024x512_rhs1 _ _)
  rw [el, er]

/-! ### The [128,1024] × [1024,1024] product read at an entry -/

theorem mm_128x1024x1024_lhs0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide),
    dif_pos (show (0 : Fin S128x1024.rank) ∈ dot_S128x1024_S1024x1024_S128x1024_1_0_0_1_n_n.lhsNonContracting by decide)]
  rfl
theorem mm_128x1024x1024_lhs1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem mm_128x1024x1024_rhs0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem mm_128x1024x1024_rhs1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide),
    dif_pos (show (1 : Fin S1024x1024.rank) ∈ dot_S128x1024_S1024x1024_S128x1024_1_0_0_1_n_n.rhsNonContracting by decide)]
  rfl

/-- Into a zero accumulator the product's entry (r, j) is the sum over k of row r of the left factor times column j of
    the right one. -/
theorem mm_128x1024x1024_apply {φ₁ φ₂ : FTy} (lhs : FVec Ideal S128x1024 φ₁) (rhs : FVec Ideal S1024x1024 φ₂) (r : Fin 128) (j : Fin 1024) :
    matmul dot_S128x1024_S1024x1024_S128x1024_1_0_0_1_n_n none lhs rhs (constant S128x1024 .f32 0x00000000#32) (ix2 r j)
      = ∑ k : Fin 1024, lhs (ix2 r k) * rhs (ix2 k j) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 r j) ((contrEquiv1 dot_S128x1024_S1024x1024_S128x1024_1_0_0_1_n_n 1024 rfl rfl).symm k) = ix2 r k :=
    funext fun a => Fin.ext (by
      match a with
      | ⟨0, _⟩ => exact mm_128x1024x1024_lhs0 _ _
      | ⟨1, _⟩ => exact (mm_128x1024x1024_lhs1 _ _).trans hk)
  have er : dot_S128x1024_S1024x1024_S128x1024_1_0_0_1_n_n.rhsIdx (ix2 r j) ((contrEquiv1 dot_S128x1024_S1024x1024_S128x1024_1_0_0_1_n_n 1024 rfl rfl).symm k) = ix2 k j :=
    funext fun a => Fin.ext (by
      match a with
      | ⟨0, _⟩ => exact (mm_128x1024x1024_rhs0 _ _).trans hk
      | ⟨1, _⟩ => exact mm_128x1024x1024_rhs1 _ _)
  rw [el, er]

/-! ### Layout steps of a row statistic kept as a column, read at coordinates -/

variable {α : Type}

/-- An [a] array viewed as the column [a, 1] reads, at (p, u), the operand at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum over the columns of [128,1024] inserts at row r is (r, j). -/
theorem lift_col (r : Fin 128) (j : Fin 1024) : reduces_S128x1024_S128.lift (ix1 r) j = ix2 r j :=
  funext fun a => Fin.ext (by
    match a with
    | ⟨0, _⟩ => rfl
    | ⟨1, _⟩ => rfl)

/-- A sum over the columns of a [128,1024] array into a zero word, at row r: the sum over j of the entries (r, j). -/
theorem sumCols_apply (src : FVec Ideal S128x1024 .f32) (hφ : FKind.Formats .f32)
    (hacc : (0x00000000#32 : BitVec 32) = FKind.add.neutral .f32 hφ) (r : Fin 128) :
    multiReduction .add [1] S128 src 0x00000000#32 reduces_S128x1024_S128 hφ hacc (ix1 r)
      = ∑ j : Fin 1024, src (ix2 r j) := by
  refine (Ideal.multiReduction_add_single src 0x00000000#32 reduces_S128x1024_S128 hφ hacc (ix1 r)).trans ?_
  exact Finset.sum_congr rfl fun j _ => congrArg src (lift_col r j)

/-- A row's sum kept as a column and divided by a literal: at (r, u) the quotient of the row's sum, written from the zero
    literal, by the literal. -/
theorem rowStat_apply (src : FVec Ideal S128x1024 .f32) (c : BitVec 32) (hφ : FKind.Formats .f32)
    (hacc : (0x00000000#32 : BitVec 32) = FKind.add.neutral .f32 hφ) (r : Fin 128) (u : Fin 1) :
    divf (shapeCast S128x1 (multiReduction .add [1] S128 src 0x00000000#32 reduces_S128x1024_S128 hφ hacc) shapeCasts_S128_S128x1)
        (broadcast S128x1 (Scalar.ofBits (F := Ideal) .f32 c)) (ix2 r u)
      = Ideal.div (Ideal.ofBits .f32 0x00000000#32 + ∑ j : Fin 1024, src (ix2 r j)) (Ideal.ofBits .f32 c) := by
  rw [divf_apply, shapeCast_a_a1_apply, sumCols_apply, Ideal.ofBits_zero_f32, zero_add]
  rfl

/-- Two copies of a [128,512] array side by side read, at column j, the array at column j when j is below 512 and at
    column j − 512 otherwise. -/
theorem sideBySide_apply (g : FVec Ideal S128x512 .f32) (r : Fin 128) (j : Fin 1024) :
    concatenate S128x1024 1 [⟨S128x512, g⟩, ⟨S128x512, g⟩] concatenates_S128x512_S128x512_S128x1024_d1 (ix2 r j)
      = if h : j.val < 512 then g (ix2 r ⟨j.val, h⟩) else g (ix2 r ⟨j.val - 512, by omega⟩) := by
  by_cases h : j.val < 512
  · rw [dif_pos h]
    exact concatenate_pair_apply_left 1 g g concatenates_S128x512_S128x512_S128x1024_d1 (ix2 r j) rfl (ix2 r ⟨j.val, h⟩)
      (fun b => match b with | ⟨0, _⟩ => rfl | ⟨1, _⟩ => rfl)
  · rw [dif_neg h]
    refine concatenate_pair_apply_right 1 g g concatenates_S128x512_S128x512_S128x1024_d1 (ix2 r j) rfl rfl
      (ix2 r ⟨j.val - 512, by omega⟩) (fun b hb => ?_) ?_
    · match b with
      | ⟨0, _⟩ => rfl
      | ⟨1, _⟩ => exact absurd rfl hb
    · show j.val - 512 + 512 = j.val
      omega

/-! ### The named steps of the gated layer normalisation, row r of a 128-row block -/

/-- The gate at (r, q): the logistic of row r of the first operand times column q of the gate weights, plus the bias. -/
def gate (v0 : Vec Ideal S128x1024 .f32) (v5 : Vec Ideal S1024x512 .bf16) (v8 : Vec Ideal S512 .f32)
    (r : Fin 128) (q : Fin 512) : EReal :=
  Ideal.logistic ((∑ k : Fin 1024, v0 (ix2 r k) * v5 (ix2 k q)) + v8 (ix1 q))

/-- A [128,512] table laid twice side by side: column j reads column j below 512, column j − 512 from there on. -/
def twice (g : Fin 128 → Fin 512 → EReal) (r : Fin 128) (j : Fin 1024) : EReal :=
  if h : j.val < 512 then g r ⟨j.val, h⟩ else g r ⟨j.val - 512, by omega⟩

/-- Row r of the second operand times column j of the square weights. -/
def coupled (v2 : Vec Ideal S128x1024 .f32) (v15 : Vec Ideal S1024x1024 .bf16) (r : Fin 128) (j : Fin 1024) : EReal :=
  ∑ k : Fin 1024, v2 (ix2 r k) * v15 (ix2 k j)

/-- The value that is normalised: the coupled term times the gate laid twice, plus the second operand. -/
def hid (v0 v2 : Vec Ideal S128x1024 .f32) (v5 : Vec Ideal S1024x512 .bf16) (v8 : Vec Ideal S512 .f32)
    (v15 : Vec Ideal S1024x1024 .bf16) (r : Fin 128) (j : Fin 1024) : EReal :=
  coupled v2 v15 r j * twice (gate v0 v5 v8) r j + v2 (ix2 r j)

/-- A row's mean: its sum, written from the zero literal, divided by the literal 1024. -/
def rowMean (h : Fin 128 → Fin 1024 → EReal) (r : Fin 128) : EReal :=
  Ideal.div (Ideal.ofBits .f32 0x00000000#32 + ∑ j : Fin 1024, h r j) (Ideal.ofBits .f32 0x44800000#32)

/-- A row's variance: the mean of the squared deviations from the row's mean. -/
def rowVar (h : Fin 128 → Fin 1024 → EReal) (r : Fin 128) : EReal :=
  Ideal.div (Ideal.ofBits .f32 0x00000000#32 + ∑ j : Fin 1024, (h r j - rowMean h r) * (h r j - rowMean h r))
    (Ideal.ofBits .f32 0x44800000#32)

/-- The gate as the body forms it (a product into a zero accumulator, the bias along every row, the logistic), at (r, q). -/
theorem gateVec_apply (v0 : FVec Ideal S128x1024 .f32) (v5 : FVec Ideal S1024x512 .bf16) (v8 : FVec Ideal S512 .f32)
    (r : Fin 128) (q : Fin 512) :
    logistic (F := Ideal) (addf
        (matmul dot_S128x1024_S1024x512_S128x512_1_0_0_1_n_n none
          (truncf .bf16 (shapeCast S128x1024 v0 shapeCasts_S128x1024_S128x1024) bitsLt_bf16_f32)
          (shapeCast S1024x512 v5 shapeCasts_S1024x512_S1024x512) (constant S128x512 .f32 0x00000000#32))
        (broadcastTo S128x512 (shapeCast S1x512 v8 shapeCasts_S512_S1x512) broadcasts_S1x512_S128x512))
      (ix2 r q) = gate v0 v5 v8 r q := by
  rw [shapeCast_self, shapeCast_self]
  unfold gate
  show Ideal.logistic _ = Ideal.logistic _
  refine congrArg Ideal.logistic ?_
  rw [addf_apply]
  refine congrArg₂ (· + ·) ?_ ?_
  · exact (mm_128x1024x512_apply _ _ r q).trans (Finset.sum_congr rfl fun k _ => rfl)
  · exact (broadcastTo_1b_ab_apply _ _ r q).trans (shapeCast_a_1a_apply v8 _ 0 q)

/-- The rows' means, kept as a column and laid back along the rows: at (r, k) the mean of row r, for a vector whose row
    r is known entry by entry. -/
theorem meanBack_apply (src : FVec Ideal S128x1024 .f32) (hφ : FKind.Formats .f32)
    (hacc : (0x00000000#32 : BitVec 32) = FKind.add.neutral .f32 hφ) (h : Fin 128 → Fin 1024 → EReal) (r : Fin 128)
    (H : ∀ k : Fin 1024, src (ix2 r k) = h r k) (k : Fin 1024) :
    broadcastTo S128x1024
        (divf (shapeCast S128x1 (multiReduction .add [1] S128 src 0x00000000#32 reduces_S128x1024_S128 hφ hacc) shapeCasts_S128_S128x1)
          (broadcast S128x1 (Scalar.ofBits (F := Ideal) .f32 0x44800000#32)))
        broadcasts_S128x1_S128x1024 (ix2 r k)
      = rowMean h r := by
  refine (broadcastTo_a1_ab_apply _ _ r k).trans ((rowStat_apply src _ _ _ r 0).trans ?_)
  unfold rowMean
  exact congrArg (fun s => Ideal.div (Ideal.ofBits .f32 0x00000000#32 + s) (Ideal.ofBits .f32 0x44800000#32))
    (Finset.sum_congr rfl fun k' _ => H k')

/-! ### The two stored values -/

/-- The last step adds the second row vector along every row. -/
theorem k2_pay1_apply (v41 : FVec Ideal S128x1024 .f32) (v42 : Vec Ideal S1024 .f32) (r : Fin 128) (j : Fin 1024) :
    k2_pay1 (F := Ideal) v41 v42 (ix2 r j) = v41 (ix2 r j) + v42 (ix1 j) := by
  unfold k2_pay1
  rw [addf_apply]
  exact congrArg (v41 (ix2 r j) + ·) ((broadcastTo_1b_ab_apply _ _ r j).trans (shapeCast_a_1a_apply v42 _ 0 j))

/-- The normalised value at (r, j): the deviation of the gated value from its row's mean, times the reciprocal square
    root of the row's variance plus the small literal, times the scale at column j. -/
theorem k2_pay2_apply (v0 v2 : Vec Ideal S128x1024 .f32) (v5 : Vec Ideal S1024x512 .bf16) (v8 : Vec Ideal S512 .f32)
    (v15 : Vec Ideal S1024x1024 .bf16) (v38 : Vec Ideal S1024 .f32) (r : Fin 128) (j : Fin 1024) :
    k2_pay2 (F := Ideal) v0 v2 v5 v8 v15 v38 (ix2 r j)
      = (hid v0 v2 v5 v8 v15 r j - rowMean (hid v0 v2 v5 v8 v15) r)
          * Ideal.rsqrt (rowVar (hid v0 v2 v5 v8 v15) r + Ideal.ofBits .f32 0x3727C5AC#32) * v38 (ix1 j) := by
  unfold k2_pay2
  simp only [shapeCast_self]
  -- the gated value, as one vector
  generalize h19 : addf (F := Ideal) (mulf (matmul dot_S128x1024_S1024x1024_S128x1024_1_0_0_1_n_n none _ _ _)
    (concatenate _ _ _ _)) (v2 : FVec Ideal S128x1024 .f32) = v19
  have H : ∀ k : Fin 1024, v19 (ix2 r k) = hid v0 v2 v5 v8 v15 r k := by
    intro k
    rw [← h19, addf_apply, mulf_apply, mm_128x1024x1024_apply, sideBySide_apply]
    unfold hid
    refine congrArg₂ (· + ·) (congrArg₂ (· * ·) rfl ?_) rfl
    unfold twice
    by_cases hk : k.val < 512
    · rw [dif_pos hk, dif_pos hk]; exact gateVec_apply v0 v5 v8 r _
    · rw [dif_neg hk, dif_neg hk]; exact gateVec_apply v0 v5 v8 r _
  clear h19
  rw [mulf_apply, mulf_apply, subf_apply]
  refine congrArg₂ (· * ·)
    (congrArg₂ (· * ·) (congrArg₂ (· - ·) (H j) (meanBack_apply v19 _ _ (hid v0 v2 v5 v8 v15) r H j)) ?_)
    ((broadcastTo_1b_ab_apply _ _ r j).trans (shapeCast_a_1a_apply v38 _ 0 j))
  refine (broadcastTo_a1_ab_apply _ _ r j).trans ?_
  show Ideal.rsqrt _ = Ideal.rsqrt _
  refine congrArg Ideal.rsqrt ?_
  rw [addf_apply]
  refine congrArg₂ (· + ·) ?_ rfl
  refine (rowStat_apply _ _ _ _ r 0).trans ?_
  unfold rowVar
  refine congrArg (fun s => Ideal.div (Ideal.ofBits .f32 0x00000000#32 + s) (Ideal.ofBits .f32 0x44800000#32))
    (Finset.sum_congr rfl fun k _ => ?_)
  rw [mulf_apply, subf_apply]
  exact congrArg₂ (· * ·)
    (congrArg₂ (· - ·) (H k) (meanBack_apply v19 _ _ (hid v0 v2 v5 v8 v15) r H k))
    (congrArg₂ (· - ·) (H k) (meanBack_apply v19 _ _ (hid v0 v2 v5 v8 v15) r H k))

/-- Both steps together: the stored result at (r, j) is the normalised value times the scale plus the shift. -/
theorem k2_out_apply (v0 v2 : Vec Ideal S128x1024 .f32) (v5 : Vec Ideal S1024x512 .bf16) (v8 : Vec Ideal S512 .f32)
    (v15 : Vec Ideal S1024x1024 .bf16) (v38 v42 : Vec Ideal S1024 .f32) (r : Fin 128) (j : Fin 1024) :
    k2_pay1 (F := Ideal) (k2_pay2 (F := Ideal) v0 v2 v5 v8 v15 v38) v42 (ix2 r j)
      = (hid v0 v2 v5 v8 v15 r j - rowMean (hid v0 v2 v5 v8 v15) r)
          * Ideal.rsqrt (rowVar (hid v0 v2 v5 v8 v15) r + Ideal.ofBits .f32 0x3727C5AC#32) * v38 (ix1 j) + v42 (ix1 j) := by
  rw [k2_pay1_apply, k2_pay2_apply]

end Cert.KerPay
-- ==== Proof.IdealVal2.lean ====
/-
  Region 2's output array after the region, as one function of the arrays the region finds.

  At grid point t the body's output buffer holds, at (r, j), the normalised, scaled and shifted value of row
  128·(row block) + r: the ca and phi windows' row block is the output's, and the gate weights, the gate bias, the square
  weights, the scale and the shift are read whole.  A row's mean and variance depend on that row alone, so the block's
  row r gives the arrays' row; what a point writes back is its block of one whole-array function, the two row blocks tile
  the 256 rows (row r lies in block r / 128), and the array ends as that function.
-/
import proofs.«168497_j76398878261811_2_alg».proof.Proof.IdealR2
import proofs.«168497_j76398878261811_2_alg».proof.Proof.KerPay2
import Idealize.ShloMosaic.Lib.Pipeline.Value

set_option maxRecDepth 16384

noncomputable section

namespace Cert.KernelIdeal.Hand

open Cert.KernelIdeal Cert.KernelIdeal.Gen Cert.KerPay
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem offs2_zero2 : (![0, 0] : Fin 2 → Nat) = fun _ => 0 := funext fun a => by fin_cases a <;> rfl
theorem offs2_zero1 : (![0] : Fin 1 → Nat) = fun _ => 0 := funext fun a => by fin_cases a <;> rfl

/-! ### The named steps over the whole 256-row arrays -/

/-- The gate at (r, q): the logistic of row r of ca times column q of the gate weights, plus the gate bias. -/
def gateA (CA : S256x1024.Idx → EReal) (WG : S1024x512.Idx → EReal) (BG : S512.Idx → EReal) (r : Fin 256) (q : Fin 512) : EReal :=
  Ideal.logistic ((∑ k : Fin 1024, CA (ix2 r k) * WG (ix2 k q)) + BG (ix1 q))

/-- A [256,512] table laid twice side by side: column j reads column j below 512, column j − 512 from there on. -/
def twiceA (g : Fin 256 → Fin 512 → EReal) (r : Fin 256) (j : Fin 1024) : EReal :=
  if h : j.val < 512 then g r ⟨j.val, h⟩ else g r ⟨j.val - 512, by omega⟩

/-- Row r of phi times column j of the square weights. -/
def coupledA (PHI : S256x1024.Idx → EReal) (WW : S1024x1024.Idx → EReal) (r : Fin 256) (j : Fin 1024) : EReal :=
  ∑ k : Fin 1024, PHI (ix2 r k) * WW (ix2 k j)

/-- The value that is normalised: the coupled term times the gate laid twice, plus phi. -/
def hidA (CA PHI : S256x1024.Idx → EReal) (WG : S1024x512.Idx → EReal) (BG : S512.Idx → EReal) (WW : S1024x1024.Idx → EReal)
    (r : Fin 256) (j : Fin 1024) : EReal :=
  coupledA PHI WW r j * twiceA (gateA CA WG BG) r j + PHI (ix2 r j)

/-- A row's mean: its sum, written from the zero literal, divided by the literal 1024. -/
def rowMeanA (h : Fin 256 → Fin 1024 → EReal) (r : Fin 256) : EReal :=
  Ideal.div (Ideal.ofBits .f32 0x00000000#32 + ∑ j : Fin 1024, h r j) (Ideal.ofBits .f32 0x44800000#32)

/-- A row's variance: the mean of the squared deviations from the row's mean. -/
def rowVarA (h : Fin 256 → Fin 1024 → EReal) (r : Fin 256) : EReal :=
  Ideal.div (Ideal.ofBits .f32 0x00000000#32 + ∑ j : Fin 1024, (h r j - rowMeanA h r) * (h r j - rowMeanA h r))
    (Ideal.ofBits .f32 0x44800000#32)

/-- The result at (r, j): the deviation from the row's mean times the reciprocal square root of the row's variance plus
    the small literal, times the scale at j, plus the shift at j. -/
def outAt (CA PHI : S256x1024.Idx → EReal) (WG : S1024x512.Idx → EReal) (BG : S512.Idx → EReal) (WW : S1024x1024.Idx → EReal)
    (GA BE : S1024.Idx → EReal) (r : Fin 256) (j : Fin 1024) : EReal :=
  (hidA CA PHI WG BG WW r j - rowMeanA (hidA CA PHI WG BG WW) r)
    * Ideal.rsqrt (rowVarA (hidA CA PHI WG BG WW) r + Ideal.ofBits .f32 0x3727C5AC#32) * GA (ix1 j) + BE (ix1 j)

/-- The output array, index by index. -/
def outArr (CA PHI : S256x1024.Idx → EReal) (WG : S1024x512.Idx → EReal) (BG : S512.Idx → EReal) (WW : S1024x1024.Idx → EReal)
    (GA BE : S1024.Idx → EReal) : S256x1024.Idx → EReal :=
  fun idx => outAt CA PHI WG BG WW GA BE (idx 0) (idx 1)

/-! ### A block's row against the arrays' row -/

section Row
variable (CA PHI : S256x1024.Idx → EReal) (WG : S1024x512.Idx → EReal) (BG : S512.Idx → EReal) (WW : S1024x1024.Idx → EReal)
  (ca phi : Vec Ideal S128x1024 .f32) (wg : Vec Ideal S1024x512 .bf16) (bg : Vec Ideal S512 .f32) (ww : Vec Ideal S1024x1024 .bf16)
  (r : Fin 128) (R : Fin 256)
  (hca : ∀ k : Fin 1024, ca (ix2 r k) = CA (ix2 R k)) (hphi : ∀ k : Fin 1024, phi (ix2 r k) = PHI (ix2 R k))
  (hwg : ∀ (k : Fin 1024) (q : Fin 512), wg (ix2 k q) = WG (ix2 k q)) (hbg : ∀ q : Fin 512, bg (ix1 q) = BG (ix1 q))
  (hww : ∀ k j : Fin 1024, ww (ix2 k j) = WW (ix2 k j))
include hca hphi hwg hbg hww

/-- When row r of the two row blocks is row R of ca and of phi and the other blocks are the whole arrays, the gated value
    of the block's row r is that of the arrays' row R … -/
theorem hid_eq (j : Fin 1024) : hid ca phi wg bg ww r j = hidA CA PHI WG BG WW R j := by
  unfold hid hidA coupled coupledA twice twiceA gate gateA
  simp only [hca, hphi, hwg, hbg, hww]

/-- … and so are the row's mean … -/
theorem rowMean_eq : rowMean (hid ca phi wg bg ww) r = rowMeanA (hidA CA PHI WG BG WW) R := by
  unfold rowMean rowMeanA
  simp only [hid_eq CA PHI WG BG WW ca phi wg bg ww r R hca hphi hwg hbg hww]

/-- … and its variance. -/
theorem rowVar_eq : rowVar (hid ca phi wg bg ww) r = rowVarA (hidA CA PHI WG BG WW) R := by
  unfold rowVar rowVarA
  simp only [hid_eq CA PHI WG BG WW ca phi wg bg ww r R hca hphi hwg hbg hww,
    rowMean_eq CA PHI WG BG WW ca phi wg bg ww r R hca hphi hwg hbg hww]

/-- The output buffer after the body at (r, j). -/
theorem outBlk_apply (GA BE : S1024.Idx → EReal) (ga be : Vec Ideal S1024 .f32) (j : Fin 1024)
    (hga : ga (ix1 j) = GA (ix1 j)) (hbe : be (ix1 j) = BE (ix1 j)) :
    outBlk ca phi wg bg ww ga be (ix2 r j) = outAt CA PHI WG BG WW GA BE R j := by
  unfold outBlk
  rw [View.canon_unit_zero offs2_zero2]
  simp only [View.ld_unit_zero (S := S128x1024) offs2_zero2, View.ld_unit_zero (S := S1024x512) offs2_zero2, View.ld_unit_zero (S := S512) offs2_zero1,
    View.ld_unit_zero (S := S1024x1024) offs2_zero2, View.ld_unit_zero (S := S1024) offs2_zero1]
  rw [k2_out_apply, hga, hbe, hid_eq CA PHI WG BG WW ca phi wg bg ww r R hca hphi hwg hbg hww,
    rowMean_eq CA PHI WG BG WW ca phi wg bg ww r R hca hphi hwg hbg hww,
    rowVar_eq CA PHI WG BG WW ca phi wg bg ww r R hca hphi hwg hbg hww]
  rfl

end Row

/-! ### Output window 7 -/

/-- The index maps over the grid: the two row windows' row block is the output's, everything else stays at block 0, and
    a row block is 0 or 1. -/
theorem idx_facts2_7 : ∀ t : Fin cfg2.N, win2_0.index t (0 : Fin 2) = win2_7.index t (0 : Fin 2)
    ∧ win2_0.index t (1 : Fin 2) = 0
    ∧ win2_1.index t (0 : Fin 2) = win2_7.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0 ∧ win2_6.index t (0 : Fin 1) = 0
    ∧ win2_7.index t (0 : Fin 2) ≤ 1 ∧ win2_7.index t (1 : Fin 2) = 0 :=
  (by decide +kernel : ∀ t : Fin grid2.N, _)

/-- Each of the two row blocks is some point's. -/
theorem idx_onto2_7 : ∀ q0 : Fin 2, ∃ t : Fin cfg2.N, win2_7.index t = ![q0.val, 0] :=
  (by decide +kernel : ∀ q0 : Fin 2, ∃ t : Fin grid2.N, win2_7.index t = ![q0.val, 0])

/-- What point t writes back is block t of the whole-array function. -/
theorem flushed2_7_eq (c : Dev nD) (t : Fin cfg2.N) :
    (dat2 V c).flushed 7 t = ((cfg2.win 7).blk t).view.read (Elt Ideal)
      (outArr (V c main_v6) (V c main_v5_0) (V c main_v3) (V c main_arg5) (V c main_v4) (V c main_arg7) (V c main_arg8)) := by
  show (cfg2.win 7).cut (grid2.coords t) ((dat2 V c).after 7 t) = _
  rw [after2_7]
  obtain ⟨e0, e1, e2, e3, e4, e5, e6, e7, e8, e9, e10, e11, e12⟩ := idx_facts2_7 t
  funext y
  show outBlk (iblk2 V c 0 t) (iblk2 V c 1 t) (iblk2 V c 2 t) (iblk2 V c 3 t) (iblk2 V c 4 t) (iblk2 V c 5 t) (iblk2 V c 6 t) y
    = outAt (V c main_v6) (V c main_v5_0) (V c main_v3) (V c main_arg5) (V c main_v4) (V c main_arg7) (V c main_arg8)
        ((((cfg2.win 7).blk t).view.emb y) 0) ((((cfg2.win 7).blk t).view.emb y) 1)
  have hj : ((((cfg2.win 7).blk t).view.emb y) 1 : Fin 1024) = (y 1 : Fin 1024) :=
    Fin.ext (by show win2_7.index t (1 : Fin 2) * 1024 + 1 * (y 1).val = (y 1).val; omega)
  refine ((congrArg (outBlk _ _ _ _ _ _ _) (eq_ix2 (n0 := 128) (n1 := 1024) y)).trans
    (outBlk_apply (V c main_v6) (V c main_v5_0) (V c main_v3) (V c main_arg5) (V c main_v4) _ _ _ _ _ (y 0)
      ((((cfg2.win 7).blk t).view.emb y) 0) (fun k => ?_) (fun k => ?_) (fun k q => ?_) (fun q => ?_) (fun k j => ?_)
      (V c main_arg7) (V c main_arg8) _ _ (y 1) ?_ ?_)).trans
    (congrArg (outAt (V c main_v6) (V c main_v5_0) (V c main_v3) (V c main_arg5) (V c main_v4) (V c main_arg7) (V c main_arg8)
      ((((cfg2.win 7).blk t).view.emb y) 0)) hj.symm)
  · show V c main_v6 (((cfg2.win 0).blk t).view.emb (ix2 (y 0) k)) = _
    refine congrArg (V c main_v6) (funext fun a => Fin.ext ?_)
    match a with
    | ⟨0, _⟩ => show win2_0.index t (0 : Fin 2) * 128 + 1 * (y 0).val = win2_7.index t (0 : Fin 2) * 128 + 1 * (y 0).val; omega
    | ⟨1, _⟩ => show win2_0.index t (1 : Fin 2) * 1024 + 1 * k.val = k.val; omega
  · show V c main_v5_0 (((cfg2.win 1).blk t).view.emb (ix2 (y 0) k)) = _
    refine congrArg (V c main_v5_0) (funext fun a => Fin.ext ?_)
    match a with
    | ⟨0, _⟩ => show win2_1.index t (0 : Fin 2) * 128 + 1 * (y 0).val = win2_7.index t (0 : Fin 2) * 128 + 1 * (y 0).val; omega
    | ⟨1, _⟩ => show win2_1.index t (1 : Fin 2) * 1024 + 1 * k.val = k.val; omega
  · show V c main_v3 (((cfg2.win 2).blk t).view.emb (ix2 k q)) = _
    refine congrArg (V c main_v3) (funext fun a => Fin.ext ?_)
    match a with
    | ⟨0, _⟩ => show win2_2.index t (0 : Fin 2) * 1024 + 1 * k.val = k.val; omega
    | ⟨1, _⟩ => show win2_2.index t (1 : Fin 2) * 512 + 1 * q.val = q.val; omega
  · show V c main_arg5 (((cfg2.win 3).blk t).view.emb (ix1 q)) = _
    refine congrArg (V c main_arg5) (funext fun a => Fin.ext ?_)
    match a with
    | ⟨0, _⟩ => show win2_3.index t (0 : Fin 1) * 512 + 1 * q.val = q.val; omega
  · show V c main_v4 (((cfg2.win 4).blk t).view.emb (ix2 k j)) = _
    refine congrArg (V c main_v4) (funext fun a => Fin.ext ?_)
    match a with
    | ⟨0, _⟩ => show win2_4.index t (0 : Fin 2) * 1024 + 1 * k.val = k.val; omega
    | ⟨1, _⟩ => show win2_4.index t (1 : Fin 2) * 1024 + 1 * j.val = j.val; omega
  · show V c main_arg7 (((cfg2.win 5).blk t).view.emb (ix1 (y 1))) = _
    refine congrArg (V c main_arg7) (funext fun a => Fin.ext ?_)
    match a with
    | ⟨0, _⟩ => show win2_5.index t (0 : Fin 1) * 1024 + 1 * (y 1).val = (y 1).val; omega
  · show V c main_arg8 (((cfg2.win 6).blk t).view.emb (ix1 (y 1))) = _
    refine congrArg (V c main_arg8) (funext fun a => Fin.ext ?_)
    match a with
    | ⟨0, _⟩ => show win2_6.index t (0 : Fin 1) * 1024 + 1 * (y 1).val = (y 1).val; omega

/-- An index of the array is in point t's block iff each coordinate is in the block's range on its axis. -/
theorem mem_blk2_7 (t : Fin cfg2.N) (i : S256x1024.Idx) :
    i ∈ ((cfg2.win 7).blk t).view.set ↔ ∀ a : Fin 2, win2_7.index t a * S128x1024.size a ≤ (i a).val
      ∧ (i a).val < win2_7.index t a * S128x1024.size a + S128x1024.size a := by
  show i ∈ ((View.whole main_v7).slice (win2_7.rect t)).set ↔ _
  rw [View.set_slice_whole, Rect.mem_set_unit]
  exact Iff.rfl

/-- Row r of the array lies in the block of the point whose row block is r / 128. -/
theorem cover2_7 (i : S256x1024.Idx) :
    ∃ t : Fin cfg2.N, (cfg2.win 7).flush t = true ∧ i ∈ ((cfg2.win 7).blk t).view.set := by
  have hi0 : (i 0).val < 256 := (i 0).isLt
  have hi1 : (i 1).val < 1024 := (i 1).isLt
  obtain ⟨t, ht⟩ := idx_onto2_7 ⟨(i 0).val / 128, by omega⟩
  have q0 : win2_7.index t (0 : Fin 2) = (i 0).val / 128 := congrFun ht 0
  have q1 : win2_7.index t (1 : Fin 2) = 0 := congrFun ht 1
  refine ⟨t, flush2_7 t, ?_⟩
  rw [mem_blk2_7]
  intro a
  match a with
  | ⟨0, _⟩ => show win2_7.index t (0 : Fin 2) * 128 ≤ (i 0).val ∧ (i 0).val < win2_7.index t (0 : Fin 2) * 128 + 128; omega
  | ⟨1, _⟩ => show win2_7.index t (1 : Fin 2) * 1024 ≤ (i 1).val ∧ (i 1).val < win2_7.index t (1 : Fin 2) * 1024 + 1024; omega

/-- The array after the region. -/
theorem final2_7 (c : Dev nD) :
    (dat2 V c).arrAt 7 cfg2.N
      = outArr (V c main_v6) (V c main_v5_0) (V c main_v3) (V c main_arg5) (V c main_v4) (V c main_arg7) (V c main_arg8) :=
  (dat2 V c).arrAt_eq_of_cover 7 _ (fun t _ => flushed2_7_eq V c t) cover2_7

end Cert.KernelIdeal.Hand
-- ==== Proof.IdealCompose.lean ====
/-
  The arrays the regions leave, against the tiled computation's whole-array spelling.

  Region 0's phi array is the phase against the transposed weights, and its two companions are the cosine and the sine
  of it.  Region 2's array, read with the ca array and the phi array as functions of (row, column), is the normalised
  result over those two: the gate, the table laid twice, the coupled term, the row mean and variance are the same
  expressions term for term.  So with ca the state result and phi the phase, region 2's array is the feature result.
-/
import proofs.«168497_j76398878261811_2_alg».proof.Proof.IdealVal0
import proofs.«168497_j76398878261811_2_alg».proof.Proof.IdealVal2
import proofs.«168497_j76398878261811_2_alg».proof.Proof.RefLaw

set_option maxRecDepth 16384

noncomputable section

namespace Cert.KernelIdeal.Hand

open Cert.KernelIdeal Cert.KernelIdeal.Gen Cert.RefSide
open Idealize.ShloMosaic Idealize.ShloMosaic.ValueIdx
open scoped BigOperators

/-! ### Region 0's three arrays -/

/-- The phi array at (r, j) is the phase against the transposed weights … -/
theorem phiOut_apply (X : S256x512.Idx → EReal) (W : S512x1024.Idx → EReal) (B : S1024.Idx → EReal) (r : Fin 256) (j : Fin 1024) :
    phiOut X W B (ix2 r j) = kerPhi X W B r j := rfl

/-- … the second array its cosine … -/
theorem cosOut_apply (X : S256x512.Idx → EReal) (W : S512x1024.Idx → EReal) (B : S1024.Idx → EReal) (r : Fin 256) (j : Fin 1024) :
    cosOut X W B (ix2 r j) = Ideal.cos (kerPhi X W B r j) := rfl

/-- … and the third its sine. -/
theorem sinOut_apply (X : S256x512.Idx → EReal) (W : S512x1024.Idx → EReal) (B : S1024.Idx → EReal) (r : Fin 256) (j : Fin 1024) :
    sinOut X W B (ix2 r j) = Ideal.sin (kerPhi X W B r j) := rfl

/-- As functions of (row, column). -/
theorem phiOut_fun (X : S256x512.Idx → EReal) (W : S512x1024.Idx → EReal) (B : S1024.Idx → EReal) :
    (fun (r : Fin 256) (j : Fin 1024) => phiOut X W B (ix2 r j)) = kerPhi X W B := rfl
theorem cosOut_fun (X : S256x512.Idx → EReal) (W : S512x1024.Idx → EReal) (B : S1024.Idx → EReal) :
    (fun (r : Fin 256) (j : Fin 1024) => cosOut X W B (ix2 r j)) = fun r j => Ideal.cos (kerPhi X W B r j) := rfl
theorem sinOut_fun (X : S256x512.Idx → EReal) (W : S512x1024.Idx → EReal) (B : S1024.Idx → EReal) :
    (fun (r : Fin 256) (j : Fin 1024) => sinOut X W B (ix2 r j)) = fun r j => Ideal.sin (kerPhi X W B r j) := rfl

/-! ### Region 2's array -/

/-- The result at (r, j) over the ca and phi arrays read as functions of (row, column): the same expression, term for
    term. -/
theorem outAt_eq_kerOut (CA PHI : S256x1024.Idx → EReal) (WG : S1024x512.Idx → EReal) (BG : S512.Idx → EReal)
    (WW : S1024x1024.Idx → EReal) (GA BE : S1024.Idx → EReal) (r : Fin 256) (j : Fin 1024) :
    outAt CA PHI WG BG WW GA BE r j
      = kerOut (fun r j => PHI (ix2 r j)) (fun r j => CA (ix2 r j)) WG BG WW GA BE r j := rfl

/-- So the array is that result at every index. -/
theorem outArr_eq_kerOut (CA PHI : S256x1024.Idx → EReal) (WG : S1024x512.Idx → EReal) (BG : S512.Idx → EReal)
    (WW : S1024x1024.Idx → EReal) (GA BE : S1024.Idx → EReal) :
    outArr CA PHI WG BG WW GA BE
      = fun idx => kerOut (fun r j => PHI (ix2 r j)) (fun r j => CA (ix2 r j)) WG BG WW GA BE (idx 0) (idx 1) := rfl

/-! ### The composition -/

/-- A ca array that is the tiled state update over region 0's cosine and sine arrays is the state result. -/
theorem caArr_eq_kerCaOf (X : S256x512.Idx → EReal) (P : S256x1024.Idx → EReal) (W : S512x1024.Idx → EReal) (B : S1024.Idx → EReal)
    (CAarr : S256x1024.Idx → EReal)
    (h : ∀ (r : Fin 256) (i : Fin 1024), CAarr (ix2 r i)
      = kerCa P (fun r j => cosOut X W B (ix2 r j)) (fun r j => sinOut X W B (ix2 r j)) r i)
    (r : Fin 256) (i : Fin 1024) : CAarr (ix2 r i) = kerCaOf X P W B r i := by
  rw [h, cosOut_fun, sinOut_fun]
  rfl

/-- With the ca array the state result and the phi array region 0's, region 2's array is the feature result. -/
theorem outArr_eq_kerOutOf (X : S256x512.Idx → EReal) (P : S256x1024.Idx → EReal) (W : S512x1024.Idx → EReal) (B : S1024.Idx → EReal)
    (WG : S1024x512.Idx → EReal) (BG : S512.Idx → EReal) (WW : S1024x1024.Idx → EReal) (GA BE : S1024.Idx → EReal)
    (CAarr : S256x1024.Idx → EReal) (hCA : ∀ (r : Fin 256) (j : Fin 1024), CAarr (ix2 r j) = kerCaOf X P W B r j) :
    outArr CAarr (phiOut X W B) WG BG WW GA BE = fun idx => kerOutOf X P W B WG BG WW GA BE (idx 0) (idx 1) := by
  have hca : (fun (r : Fin 256) (j : Fin 1024) => CAarr (ix2 r j)) = kerCaOf X P W B :=
    funext fun r => funext fun j => hCA r j
  rw [outArr_eq_kerOut, phiOut_fun, hca]
  rfl

end Cert.KernelIdeal.Hand
-- ==== Proof.IdealHost.lean ====
/-
  The host operations before the first region, read at an index on the extended reals. They transpose the phase
  weights and the gate weights and change the float format of the two transposes and of the square weights; a change of
  float format is the identity on extended reals, so the three arrays the regions read are the transposes of the two
  argument arrays and the third argument array itself, entry by entry. Every buffer the stretch does not write holds
  what it held at launch.
-/
import proofs.«168497_j76398878261811_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The array the first region reads as its weights is the transpose of the phase weights, its format changed. -/
theorem V1_main_v1_eq :
    @Eq ((⟨S512x1024, .bf16⟩ : BufTy).Contents (Elt Ideal)) (Gen.V1 (F := Ideal) m c main_v1)
      (truncf (F := Ideal) .bf16 (transpose S512x1024 [1, 0]
          (m ((c : Thread nD τ).loc main_arg2) : (⟨S1024x512, .f32⟩ : BufTy).Contents (Elt Ideal))
          transposes_S1024x512_S512x1024_1_0) bitsLt_bf16_f32) := by
  dsimp only [Gen.V1, Gen.V0, Gen.hostOps0]
  after_results

/-- Entry `(k, j)` of it is entry `(j, k)` of the phase weights. -/
theorem V1_main_v1_apply (k : Fin 512) (j : Fin 1024) :
    @Eq EReal ((Gen.V1 (F := Ideal) m c main_v1 : (⟨S512x1024, .bf16⟩ : BufTy).Contents (Elt Ideal)) (ix2 k j))
      ((m ((c : Thread nD τ).loc main_arg2) : (⟨S1024x512, .f32⟩ : BufTy).Contents (Elt Ideal)) (ix2 j k)) := by
  refine (congrFun (V1_main_v1_eq m c) (ix2 k j)).trans ?_
  exact transpose_apply [1, 0] _ transposes_S1024x512_S512x1024_1_0 (ix2 k j) (ix2 j k)
    (fun b => match b with | ⟨0, _⟩ => rfl | ⟨1, _⟩ => rfl)

/-- The array the last region reads as its gate weights is the transpose of the gate weights, its format changed. -/
theorem V1_main_v3_eq :
    @Eq ((⟨S1024x512, .bf16⟩ : BufTy).Contents (Elt Ideal)) (Gen.V1 (F := Ideal) m c main_v3)
      (truncf (F := Ideal) .bf16 (transpose S1024x512 [1, 0]
          (m ((c : Thread nD τ).loc main_arg4) : (⟨S512x1024, .f32⟩ : BufTy).Contents (Elt Ideal))
          transposes_S512x1024_S1024x512_1_0) bitsLt_bf16_f32) := by
  dsimp only [Gen.V1, Gen.V0, Gen.hostOps0]
  after_results

/-- Entry `(k, q)` of it is entry `(q, k)` of the gate weights. -/
theorem V1_main_v3_apply (k : Fin 1024) (q : Fin 512) :
    @Eq EReal ((Gen.V1 (F := Ideal) m c main_v3 : (⟨S1024x512, .bf16⟩ : BufTy).Contents (Elt Ideal)) (ix2 k q))
      ((m ((c : Thread nD τ).loc main_arg4) : (⟨S512x1024, .f32⟩ : BufTy).Contents (Elt Ideal)) (ix2 q k)) := by
  refine (congrFun (V1_main_v3_eq m c) (ix2 k q)).trans ?_
  exact transpose_apply [1, 0] _ transposes_S512x1024_S1024x512_1_0 (ix2 k q) (ix2 q k)
    (fun b => match b with | ⟨0, _⟩ => rfl | ⟨1, _⟩ => rfl)

/-- The array the last region reads as its square weights is the square weights, their format changed. -/
theorem V1_main_v4_eq :
    @Eq ((⟨S1024x1024, .bf16⟩ : BufTy).Contents (Elt Ideal)) (Gen.V1 (F := Ideal) m c main_v4)
      (truncf (F := Ideal) .bf16 (m ((c : Thread nD τ).loc main_arg6) : (⟨S1024x1024, .f32⟩ : BufTy).Contents (Elt Ideal))
          bitsLt_bf16_f32) := by
  dsimp only [Gen.V1, Gen.V0, Gen.hostOps0]
  after_results

/-- Entry `(k, j)` of it is entry `(k, j)` of the square weights. -/
theorem V1_main_v4_apply (k j : Fin 1024) :
    @Eq EReal ((Gen.V1 (F := Ideal) m c main_v4 : (⟨S1024x1024, .bf16⟩ : BufTy).Contents (Elt Ideal)) (ix2 k j))
      ((m ((c : Thread nD τ).loc main_arg6) : (⟨S1024x1024, .f32⟩ : BufTy).Contents (Elt Ideal)) (ix2 k j)) :=
  congrFun (V1_main_v4_eq m c) (ix2 k j)

/-- Every buffer other than the five the stretch writes holds its launch contents. -/
theorem V1_unwritten (r : Ref sig .tc) (h : r ∉ Gen.hostOps0_W) :
    Gen.V1 (F := Ideal) m c r = m ((c : Thread nD τ).loc r) :=
  (Gen.V1_of m c r h).trans rfl

theorem V1_main_arg0 : Gen.V1 (F := Ideal) m c main_arg0 = m ((c : Thread nD τ).loc main_arg0) := V1_unwritten m c _ (by decide)
theorem V1_main_arg1 : Gen.V1 (F := Ideal) m c main_arg1 = m ((c : Thread nD τ).loc main_arg1) := V1_unwritten m c _ (by decide)
theorem V1_main_arg2 : Gen.V1 (F := Ideal) m c main_arg2 = m ((c : Thread nD τ).loc main_arg2) := V1_unwritten m c _ (by decide)
theorem V1_main_arg3 : Gen.V1 (F := Ideal) m c main_arg3 = m ((c : Thread nD τ).loc main_arg3) := V1_unwritten m c _ (by decide)
theorem V1_main_arg4 : Gen.V1 (F := Ideal) m c main_arg4 = m ((c : Thread nD τ).loc main_arg4) := V1_unwritten m c _ (by decide)
theorem V1_main_arg5 : Gen.V1 (F := Ideal) m c main_arg5 = m ((c : Thread nD τ).loc main_arg5) := V1_unwritten m c _ (by decide)
theorem V1_main_arg6 : Gen.V1 (F := Ideal) m c main_arg6 = m ((c : Thread nD τ).loc main_arg6) := V1_unwritten m c _ (by decide)
theorem V1_main_arg7 : Gen.V1 (F := Ideal) m c main_arg7 = m ((c : Thread nD τ).loc main_arg7) := V1_unwritten m c _ (by decide)
theorem V1_main_arg8 : Gen.V1 (F := Ideal) m c main_arg8 = m ((c : Thread nD τ).loc main_arg8) := V1_unwritten m c _ (by decide)

end Cert.KernelIdeal.Hand

end
-- ==== Proof.IdealBridge.lean ====
/-
  The kernel's results as the reference's functions of the arguments.

  Following the contents through the program: the result array is region 2's function of ca, phi and the host-prepared
  weights; ca is region 1's function of cos phi, sin phi and prev_ca; phi, cos phi, sin phi are region 0's functions of
  x, the transposed projection weights and the bias.  Composed, these are the whole-array forms of the kernel's
  arithmetic, and those equal the reference's: the product form of the coherence term is the cosine of the phase
  difference because the phases are real (the inputs are finite), the mean is a product with 2⁻¹⁰ on one side and a
  quotient by 1024 on the other, the gate is one function spelt two ways, and the host-prepared weights are the
  arguments transposed.
-/
import proofs.«168497_j76398878261811_2_alg».proof.Proof.IdealChain
import proofs.«168497_j76398878261811_2_alg».proof.Proof.IdealVal0
import proofs.«168497_j76398878261811_2_alg».proof.Proof.IdealVal1Arr
import proofs.«168497_j76398878261811_2_alg».proof.Proof.IdealVal2
import proofs.«168497_j76398878261811_2_alg».proof.Proof.IdealCompose
import proofs.«168497_j76398878261811_2_alg».proof.Proof.IdealHost
import proofs.«168497_j76398878261811_2_alg».proof.Proof.RefLaw

set_option maxRecDepth 16384

noncomputable section

namespace Cert.KernelIdeal.Hand

open Cert.KernelIdeal Cert.KernelIdeal.Gen Cert.RefSide
open Idealize.ShloMosaic Idealize.ShloMosaic.TcCoe Idealize.ShloMosaic.ValueIdx
open Idealize.SL.Sem

variable (m : (ℓ : Loc nD τ sig) → Buf (Elt Ideal) ℓ) (c : Dev nD)

/-- The nine arguments on core c, as arrays of extended reals. -/
abbrev aX : S256x512.Idx → EReal := m ((c : Thread nD τ).loc main_arg0)
abbrev aPrev : S256x1024.Idx → EReal := m ((c : Thread nD τ).loc main_arg1)
abbrev aWp : S1024x512.Idx → EReal := m ((c : Thread nD τ).loc main_arg2)
abbrev aBp : S1024.Idx → EReal := m ((c : Thread nD τ).loc main_arg3)
abbrev aWg : S512x1024.Idx → EReal := m ((c : Thread nD τ).loc main_arg4)
abbrev aBg : S512.Idx → EReal := m ((c : Thread nD τ).loc main_arg5)
abbrev aW : S1024x1024.Idx → EReal := m ((c : Thread nD τ).loc main_arg6)
abbrev aGamma : S1024.Idx → EReal := m ((c : Thread nD τ).loc main_arg7)
abbrev aBeta : S1024.Idx → EReal := m ((c : Thread nD τ).loc main_arg8)
/-- The three host-prepared weight arrays. -/
abbrev hWpT : S512x1024.Idx → EReal := Gen.V1 (F := Ideal) m c main_v1
abbrev hWgT : S1024x512.Idx → EReal := Gen.V1 (F := Ideal) m c main_v3
abbrev hWk : S1024x1024.Idx → EReal := Gen.V1 (F := Ideal) m c main_v4

/-- Region 0's three arrays, from the arguments. -/
theorem phi_array : @Eq (S256x1024.Idx → EReal) (V2 (F := Ideal) m c main_v5_0) (phiOut (aX m c) (hWpT m c) (aBp m c)) := by
  have h := (V2_phi m c).trans (final0_3 (Vh (F := Ideal) m) c)
  rw [show Vh (F := Ideal) m c main_arg0 = m ((c : Thread nD τ).loc main_arg0) from V1_main_arg0 m c,
    show Vh (F := Ideal) m c main_arg3 = m ((c : Thread nD τ).loc main_arg3) from V1_main_arg3 m c] at h
  exact h
theorem cos_array : @Eq (S256x1024.Idx → EReal) (V1 (F := Ideal) m c main_v5_1) (cosOut (aX m c) (hWpT m c) (aBp m c)) := by
  have h := (V1_cos m c).trans (final0_4 (Vh (F := Ideal) m) c)
  rw [show Vh (F := Ideal) m c main_arg0 = m ((c : Thread nD τ).loc main_arg0) from V1_main_arg0 m c,
    show Vh (F := Ideal) m c main_arg3 = m ((c : Thread nD τ).loc main_arg3) from V1_main_arg3 m c] at h
  exact h
theorem sin_array : @Eq (S256x1024.Idx → EReal) (V1 (F := Ideal) m c main_v5_2) (sinOut (aX m c) (hWpT m c) (aBp m c)) := by
  have h := (V1_sin m c).trans (final0_5 (Vh (F := Ideal) m) c)
  rw [show Vh (F := Ideal) m c main_arg0 = m ((c : Thread nD τ).loc main_arg0) from V1_main_arg0 m c,
    show Vh (F := Ideal) m c main_arg3 = m ((c : Thread nD τ).loc main_arg3) from V1_main_arg3 m c] at h
  exact h

/-- Region 1's array, from region 0's and prev_ca. -/
theorem ca_array : @Eq (S256x1024.Idx → EReal) (V2 (F := Ideal) m c main_v6)
    (caOut (cosOut (aX m c) (hWpT m c) (aBp m c)) (sinOut (aX m c) (hWpT m c) (aBp m c)) (aPrev m c)) := by
  have h := (V2_ca m c).trans (final1_5 (V1 (F := Ideal) m) c)
  rw [cos_array m c, sin_array m c, V1_prev m c] at h
  exact h

/-- ca, index by index, in the kernel's whole-array form. -/
theorem ca_kerForm (r : Fin 256) (i : Fin 1024) :
    (V2 (F := Ideal) m c main_v6 : S256x1024.Idx → EReal) (ix2 r i) = kerCaOf (aX m c) (aPrev m c) (hWpT m c) (aBp m c) r i := by
  refine caArr_eq_kerCaOf (aX m c) (aPrev m c) (hWpT m c) (aBp m c) _ (fun r i => ?_) r i
  rw [ca_array m c]
  rfl

/-- The host-prepared weights are the arguments transposed (the coupling matrix as it is). -/
theorem hT_p (k : Fin 512) (j : Fin 1024) : hWpT m c (ix2 k j) = aWp m c (ix2 j k) := V1_main_v1_apply m c k j
theorem hT_g (k : Fin 1024) (q : Fin 512) : hWgT m c (ix2 k q) = aWg m c (ix2 q k) := V1_main_v3_apply m c k q
theorem hT_w (k j : Fin 1024) : hWk m c (ix2 k j) = aW m c (ix2 k j) := V1_main_v4_apply m c k j

variable (hx : ∀ i, ∃ v : ℝ, aX m c i = (v : EReal)) (hW : ∀ i, ∃ v : ℝ, aWp m c i = (v : EReal)) (hb : ∀ i, ∃ v : ℝ, aBp m c i = (v : EReal))

include hx hW hb in
/-- THE STATE RESULT is the reference's function of the arguments. -/
theorem ca_value : @Eq (S256x1024.Idx → EReal) (W3 (F := Ideal) m c (Proc.devRef .tc main_v6))
    (fun idx => refCaOf (aX m c) (aPrev m c) (aWp m c) (aBp m c) (idx 0) (idx 1)) := by
  rw [W3_ca, ← V2_ca]
  funext idx
  obtain ⟨r, i, rfl⟩ : ∃ (r : Fin 256) (i : Fin 1024), idx = ix2 r i := ⟨idx 0, idx 1, eq_ix2 idx⟩
  exact (ca_kerForm m c r i).trans (kerCaOf_eq_refCaOf _ _ _ _ _ (hT_p m c) hx hW hb r i)

include hx hW hb in
/-- THE FEATURES RESULT is the reference's function of the arguments. -/
theorem out_value : @Eq (S256x1024.Idx → EReal) (W3 (F := Ideal) m c (Proc.devRef .tc main_v7))
    (fun idx => refOutOf (aX m c) (aPrev m c) (aWp m c) (aBp m c) (aWg m c) (aBg m c) (aW m c) (aGamma m c) (aBeta m c) (idx 0) (idx 1)) := by
  have h := (W3_out m c).trans (final2_7 (V2 (F := Ideal) m) c)
  rw [phi_array m c, V2_wg m c, V2_ww m c, V2_bg m c, V2_gamma m c, V2_beta m c] at h
  rw [h, outArr_eq_kerOutOf (aX m c) (aPrev m c) (hWpT m c) (aBp m c) (hWgT m c) (aBg m c) (hWk m c) (aGamma m c) (aBeta m c)
    _ (ca_kerForm m c)]
  funext idx
  exact kerOutOf_eq_refOutOf _ _ _ _ _ _ _ _ _ _ _ _ (hT_p m c) (hT_g m c) (hT_w m c) hx hW hb (idx 0) (idx 1)

end Cert.KernelIdeal.Hand

end
-- ==== Proof.RefRead.lean ====
/-
  The reference program read at an index, stage by stage: each group of its operations, read at explicit coordinates,
  is the named function of the specification. The stages: the phase, the averaged pairwise coherence and the state
  update, the gate, the gate laid twice side by side, the features before normalisation, their row mean and variance,
  and the normalised result. The last two theorems read the program's two computed results as functions of the nine
  argument arrays.
-/
import proofs.«168497_j76398878261811_2_alg».proof.Proof.Gen.ReferenceIdeal.Read
import proofs.«168497_j76398878261811_2_alg».proof.Proof.RefSpec

noncomputable section

open scoped BigOperators

namespace Cert.RefSide

open Cert.ReferenceIdeal Cert.ReferenceIdeal.Gen Cert.ReferenceIdeal.Read Idealize.ShloMosaic Idealize.ShloMosaic.ValueIdx

/-! ## The phase -/

/-- Operations 0–4 at row `r`, column `j`: the phase. -/
theorem phi_read (x0 : (⟨S256x512, .f32⟩ : BufTy).Contents (Elt Ideal)) (x2 : (⟨S1024x512, .f32⟩ : BufTy).Contents (Elt Ideal)) (x3 : (⟨S1024, .f32⟩ : BufTy).Contents (Elt Ideal)) (r : Fin 256) (j : Fin 1024) :
    val_main_v4 (F := Ideal) x0 x2 x3 (ix2 r j) = refPhi x0 x2 x3 r j := by
  rw [val_main_v4_apply, val_main_v1_apply, val_main_v3_apply, val_main_v2_apply]
  unfold refPhi
  rw [Ideal.addf_def]
  refine congrArg₂ (· + ·) (Finset.sum_congr rfl fun k _ => ?_) (congrArg x3 ?_)
  · rw [val_main_v0_apply]
    exact congrArg₂ (· * ·)
      (congrArg x0 (funext fun a => Fin.ext (by match a with | ⟨0, _⟩ => rfl | ⟨1, _⟩ => rfl)))
      (congrArg x2 (funext fun a => Fin.ext (by match a with | ⟨0, _⟩ => rfl | ⟨1, _⟩ => rfl)))
  · exact funext fun a => Fin.ext (by match a with | ⟨0, _⟩ => rfl)

/-! ## The coherence and the state update -/

/-- Operations 5–11 at `(r, i, k)`: the absolute cosine of the difference of two phases of row `r`. -/
theorem coh_read (x0 : (⟨S256x512, .f32⟩ : BufTy).Contents (Elt Ideal)) (x2 : (⟨S1024x512, .f32⟩ : BufTy).Contents (Elt Ideal)) (x3 : (⟨S1024, .f32⟩ : BufTy).Contents (Elt Ideal)) (r : Fin 256) (i k : Fin 1024) :
    val_main_v11 (F := Ideal) x0 x2 x3 (ix3 r i k)
      = eabs (Ideal.cos (val_main_v4 (F := Ideal) x0 x2 x3 (ix2 r i) - val_main_v4 (F := Ideal) x0 x2 x3 (ix2 r k))) := by
  rw [val_main_v11_apply, val_main_v10_apply, val_main_v9_apply, val_main_v7_apply, val_main_v5_apply,
    val_main_v8_apply, val_main_v6_apply, Ideal.hostAbsf_def, absf_eq_eabs, Ideal.hostUnary_cos_def, Ideal.subf_def]
  refine congrArg eabs (congrArg Ideal.cos (congrArg₂ (· - ·) (congrArg _ ?_) (congrArg _ ?_)))
  · exact funext fun a => Fin.ext (by match a with | ⟨0, _⟩ => rfl | ⟨1, _⟩ => rfl)
  · exact funext fun a => Fin.ext (by match a with | ⟨0, _⟩ => rfl | ⟨1, _⟩ => rfl)

/-- Operations 5–19 at row `r`, column `i`: the updated state, over the phase as the program computes it. -/
theorem ca_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (r : Fin 256) (i : Fin 1024) :
    val_main_v19 (F := Ideal) x0 x1 x2 x3 (ix2 r i)
      = refCa x1 (fun r j => val_main_v4 (F := Ideal) x0 x2 x3 (ix2 r j)) r i := by
  rw [val_main_v19_apply, val_main_v16_apply, val_main_v15_apply, val_main_cst_1_apply, val_main_v18_apply,
    val_main_v14_apply, val_main_v17_apply, val_main_cst_2_apply, val_main_v13_apply, val_main_cst_0_apply,
    val_main_v12_apply, val_main_cst_apply]
  unfold refCa refCohSum
  rw [Ideal.addf_def, Ideal.mulf_def, Ideal.mulf_def, Ideal.hostDivf_def, Ideal.ofBits_def, Ideal.ofBits_def,
    Ideal.ofBits_def, Ideal.ofBits_def]
  refine congrArg (fun s => _ + Ideal.div (_ + s) _ * _) (Finset.sum_congr rfl fun k _ => ?_)
  refine Eq.trans (congrArg _ ?_) (coh_read x0 x2 x3 r i k)
  exact funext fun a => Fin.ext (by match a with | ⟨0, _⟩ => rfl | ⟨1, _⟩ => rfl | ⟨2, _⟩ => rfl)

/-- The state result as a function of the arguments. -/
theorem ca_read (a0 : (⟨S256x512, .f32⟩ : BufTy).Contents (Elt Ideal)) (a1 : (⟨S256x1024, .f32⟩ : BufTy).Contents (Elt Ideal)) (a2 : (⟨S1024x512, .f32⟩ : BufTy).Contents (Elt Ideal)) (a3 : (⟨S1024, .f32⟩ : BufTy).Contents (Elt Ideal))
    (r : Fin 256) (i : Fin 1024) :
    val_main_v19 (F := Ideal) a0 a1 a2 a3 (ix2 r i) = refCaOf a0 a1 a2 a3 r i := by
  rw [ca_stage, show (fun r j => val_main_v4 (F := Ideal) a0 a2 a3 (ix2 r j)) = refPhi a0 a2 a3 from
    funext fun r => funext fun j => phi_read a0 a2 a3 r j]
  rfl

/-! ## The gate -/

/-- Operations 20–30 at row `r`, column `q`: the gate, over the state as the program computes it. -/
theorem gate_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) (r : Fin 256) (q : Fin 512) :
    val_main_v30 (F := Ideal) x0 x1 x2 x3 x4 x5 (ix2 r q)
      = refGate (fun r k => val_main_v19 (F := Ideal) x0 x1 x2 x3 (ix2 r k)) x4 x5 r q := by
  rw [val_main_v30_apply, val_main_v29_apply, val_main_cst_4_apply, val_main_v28_apply, val_main_v27_apply,
    val_main_cst_3_apply, val_main_v26_apply, val_main_v25_apply, val_main_v24_apply, val_main_v21_apply,
    val_main_v23_apply, val_main_v22_apply]
  unfold refGate refGateLogit
  rw [Ideal.hostDivf_def, Ideal.ofBits_def, Ideal.addf_def, Ideal.hostUnary_exp_def, Ideal.hostNegf_def,
    Ideal.negf_def, Ideal.addf_def]
  refine congrArg (fun s => Ideal.div _ (_ + Ideal.exp (-s)))
    (congrArg₂ (· + ·) (Finset.sum_congr rfl fun k _ => ?_) (congrArg x5 ?_))
  · rw [val_main_v20_apply]
    exact congrArg₂ (· * ·)
      (congrArg _ (funext fun a => Fin.ext (by match a with | ⟨0, _⟩ => rfl | ⟨1, _⟩ => rfl)))
      (congrArg x4 (funext fun a => Fin.ext (by match a with | ⟨0, _⟩ => rfl | ⟨1, _⟩ => rfl)))
  · exact funext fun a => Fin.ext (by match a with | ⟨0, _⟩ => rfl)

/-- Operation 32 at row `r`, column `j`: the gate laid twice side by side. -/
theorem twice_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) (r : Fin 256) (j : Fin 1024) :
    val_main_v32 (F := Ideal) x0 x1 x2 x3 x4 x5 (ix2 r j)
      = refTwice (fun r q => val_main_v30 (F := Ideal) x0 x1 x2 x3 x4 x5 (ix2 r q)) r j := by
  unfold val_main_v32 refTwice
  generalize val_main_v30 (F := Ideal) x0 x1 x2 x3 x4 x5 = g
  by_cases h : j.val < 512
  · rw [dif_pos h]
    exact concatenate_pair_apply_left 1 g g concatenates_S256x512_S256x512_S256x1024_d1 (ix2 r j) rfl
      (ix2 r ⟨j.val, h⟩) (fun b => by match b with | ⟨0, _⟩ => rfl | ⟨1, _⟩ => rfl)
  · rw [dif_neg h]
    exact concatenate_pair_apply_right 1 g g concatenates_S256x512_S256x512_S256x1024_d1 (ix2 r j) rfl rfl
      (ix2 r ⟨j.val - 512, by omega⟩)
      (fun b hb => by match b with | ⟨0, _⟩ => rfl | ⟨1, _⟩ => exact absurd rfl hb)
      (by show j.val - 512 + 512 = j.val; omega)

/-! ## The features before normalisation -/

/-- Operations 31–34 at row `r`, column `j`: the coupled phase times the doubled gate, plus the phase. -/
theorem h_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) (x6 : (⟨S1024x1024, .f32⟩ : BufTy).Contents (Elt Ideal)) (r : Fin 256) (j : Fin 1024) :
    val_main_v34 (F := Ideal) x0 x1 x2 x3 x4 x5 x6 (ix2 r j)
      = refH (fun r j => val_main_v4 (F := Ideal) x0 x2 x3 (ix2 r j))
          (fun r q => val_main_v30 (F := Ideal) x0 x1 x2 x3 x4 x5 (ix2 r q)) x6 r j := by
  rw [val_main_v34_apply, val_main_v33_apply, val_main_v31_apply, twice_stage]
  unfold refH refCoupled
  rw [Ideal.addf_def, Ideal.mulf_def]
  refine congrArg (fun s => s * _ + _) (Finset.sum_congr rfl fun k _ => ?_)
  exact congrArg₂ (· * ·)
    (congrArg _ (funext fun a => Fin.ext (by match a with | ⟨0, _⟩ => rfl | ⟨1, _⟩ => rfl)))
    (congrArg x6 (funext fun a => Fin.ext (by match a with | ⟨0, _⟩ => rfl | ⟨1, _⟩ => rfl)))

/-! ## The row mean and variance -/

/-- Operations 35–38 at row `r`: the mean of the features of the row. -/
theorem mean_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) (x6 : (⟨S1024x1024, .f32⟩ : BufTy).Contents (Elt Ideal)) (r : Fin 256) :
    val_main_v38 (F := Ideal) x0 x1 x2 x3 x4 x5 x6 (ix2 r (0 : Fin 1))
      = refMean (fun r j => val_main_v34 (F := Ideal) x0 x1 x2 x3 x4 x5 x6 (ix2 r j)) r := by
  rw [val_main_v38_apply, val_main_v36_apply, val_main_v37_apply, val_main_cst_6_apply, val_main_v35_apply,
    val_main_cst_5_apply]
  unfold refMean
  rw [Ideal.hostDivf_def, Ideal.ofBits_def, Ideal.ofBits_def]
  refine congrArg (fun s => Ideal.div (_ + s) _) (Finset.sum_congr rfl fun k _ => congrArg _ ?_)
  exact funext fun a => Fin.ext (by match a with | ⟨0, _⟩ => rfl | ⟨1, _⟩ => rfl)

/-- Operations 39–45 at row `r`: the variance of the features of the row. -/
theorem var_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) (x6 : (⟨S1024x1024, .f32⟩ : BufTy).Contents (Elt Ideal)) (r : Fin 256) :
    val_main_v45 (F := Ideal) x0 x1 x2 x3 x4 x5 x6 (ix2 r (0 : Fin 1))
      = refVar (fun r j => val_main_v34 (F := Ideal) x0 x1 x2 x3 x4 x5 x6 (ix2 r j)) r := by
  rw [val_main_v45_apply, val_main_v43_apply, val_main_v44_apply, val_main_cst_8_apply, val_main_v42_apply,
    val_main_cst_7_apply]
  unfold refVar
  rw [Ideal.hostDivf_def, Ideal.ofBits_def, Ideal.ofBits_def]
  refine congrArg (fun s => Ideal.div (_ + s) _) (Finset.sum_congr rfl fun k _ => ?_)
  have e : idx_main_v42 (idx_main_v43 (ix2 r (0 : Fin 1))) k = ix2 r k :=
    funext fun a => Fin.ext (by match a with | ⟨0, _⟩ => rfl | ⟨1, _⟩ => rfl)
  have e0 : idx_main_v39 (ix2 r k) = ix2 r (0 : Fin 1) :=
    funext fun a => Fin.ext (by match a with | ⟨0, _⟩ => rfl | ⟨1, _⟩ => rfl)
  rw [e, val_main_v41_apply, val_main_v40_apply, val_main_v39_apply, e0, mean_stage, Ideal.mulf_def, Ideal.subf_def]

/-! ## The normalised result -/

/-- Operations 46–58 at row `r`, column `j`: the layer normalisation of the features. -/
theorem norm_stage (x0 : (⟨S256x512, .f32⟩ : BufTy).Contents (Elt Ideal)) (x1 : (⟨S256x1024, .f32⟩ : BufTy).Contents (Elt Ideal)) (x2 : (⟨S1024x512, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) (x6 : (⟨S1024x1024, .f32⟩ : BufTy).Contents (Elt Ideal)) (x7 x8 : (⟨S1024, .f32⟩ : BufTy).Contents (Elt Ideal)) (r : Fin 256) (j : Fin 1024) :
    val_main_v58 (F := Ideal) x0 x1 x2 x3 x4 x5 x6 x7 x8 (ix2 r j)
      = refNorm (fun r j => val_main_v34 (F := Ideal) x0 x1 x2 x3 x4 x5 x6 (ix2 r j)) x7 x8 r j := by
  have e46 : idx_main_v46 (ix2 r j) = ix2 r (0 : Fin 1) :=
    funext fun a => Fin.ext (by match a with | ⟨0, _⟩ => rfl | ⟨1, _⟩ => rfl)
  have e51 : idx_main_v51 (ix2 r j) = ix2 r (0 : Fin 1) :=
    funext fun a => Fin.ext (by match a with | ⟨0, _⟩ => rfl | ⟨1, _⟩ => rfl)
  have e53 : idx_main_v53 (idx_main_v54 (ix2 r j)) = ix1 j :=
    funext fun a => Fin.ext (by match a with | ⟨0, _⟩ => rfl)
  have e56 : idx_main_v56 (idx_main_v57 (ix2 r j)) = ix1 j :=
    funext fun a => Fin.ext (by match a with | ⟨0, _⟩ => rfl)
  rw [val_main_v58_apply, val_main_v55_apply, val_main_v52_apply, val_main_v47_apply, val_main_v46_apply, e46,
    mean_stage, val_main_v51_apply, e51, val_main_v50_apply, val_main_v49_apply, var_stage, val_main_v48_apply,
    val_main_cst_9_apply, val_main_v54_apply, val_main_v53_apply, e53, val_main_v57_apply, val_main_v56_apply, e56]
  rfl

/-- The feature result as a function of the arguments. -/
theorem out_read (a0 : (⟨S256x512, .f32⟩ : BufTy).Contents (Elt Ideal)) (a1 : (⟨S256x1024, .f32⟩ : BufTy).Contents (Elt Ideal)) (a2 : (⟨S1024x512, .f32⟩ : BufTy).Contents (Elt Ideal)) (a3 : (⟨S1024, .f32⟩ : BufTy).Contents (Elt Ideal))
    (a4 : (⟨S512x1024, .f32⟩ : BufTy).Contents (Elt Ideal)) (a5 : (⟨S512, .f32⟩ : BufTy).Contents (Elt Ideal)) (a6 : (⟨S1024x1024, .f32⟩ : BufTy).Contents (Elt Ideal)) (a7 a8 : (⟨S1024, .f32⟩ : BufTy).Contents (Elt Ideal)) (r : Fin 256) (j : Fin 1024) :
    val_main_v58 (F := Ideal) a0 a1 a2 a3 a4 a5 a6 a7 a8 (ix2 r j) = refOutOf a0 a1 a2 a3 a4 a5 a6 a7 a8 r j := by
  have hphi : (fun r j => val_main_v4 (F := Ideal) a0 a2 a3 (ix2 r j)) = refPhi a0 a2 a3 :=
    funext fun r => funext fun j => phi_read a0 a2 a3 r j
  have hca : (fun r k => val_main_v19 (F := Ideal) a0 a1 a2 a3 (ix2 r k)) = refCaOf a0 a1 a2 a3 :=
    funext fun r => funext fun k => ca_read a0 a1 a2 a3 r k
  have hgate : (fun r q => val_main_v30 (F := Ideal) a0 a1 a2 a3 a4 a5 (ix2 r q)) = refGate (refCaOf a0 a1 a2 a3) a4 a5 :=
    funext fun r => funext fun q => (gate_stage a0 a1 a2 a3 a4 a5 r q).trans (by rw [hca])
  have hh : (fun r j => val_main_v34 (F := Ideal) a0 a1 a2 a3 a4 a5 a6 (ix2 r j))
      = refH (refPhi a0 a2 a3) (refGate (refCaOf a0 a1 a2 a3) a4 a5) a6 :=
    funext fun r => funext fun j => (h_stage a0 a1 a2 a3 a4 a5 a6 r j).trans (by rw [hphi, hgate])
  rw [norm_stage, hh]
  rfl

/-- The two computed results as whole arrays. -/
theorem ca_read_fun (a0 : (⟨S256x512, .f32⟩ : BufTy).Contents (Elt Ideal)) (a1 : (⟨S256x1024, .f32⟩ : BufTy).Contents (Elt Ideal)) (a2 : (⟨S1024x512, .f32⟩ : BufTy).Contents (Elt Ideal)) (a3 : (⟨S1024, .f32⟩ : BufTy).Contents (Elt Ideal)) :
    val_main_v19 (F := Ideal) a0 a1 a2 a3 = fun idx => refCaOf a0 a1 a2 a3 (idx 0) (idx 1) :=
  funext fun idx => by
    obtain ⟨r, i, rfl⟩ : ∃ (r : Fin 256) (i : Fin 1024), idx = ix2 r i := ⟨idx 0, idx 1, eq_ix2 idx⟩
    exact ca_read a0 a1 a2 a3 r i

theorem out_read_fun (a0 : (⟨S256x512, .f32⟩ : BufTy).Contents (Elt Ideal)) (a1 : (⟨S256x1024, .f32⟩ : BufTy).Contents (Elt Ideal)) (a2 : (⟨S1024x512, .f32⟩ : BufTy).Contents (Elt Ideal)) (a3 : (⟨S1024, .f32⟩ : BufTy).Contents (Elt Ideal))
    (a4 : (⟨S512x1024, .f32⟩ : BufTy).Contents (Elt Ideal)) (a5 : (⟨S512, .f32⟩ : BufTy).Contents (Elt Ideal)) (a6 : (⟨S1024x1024, .f32⟩ : BufTy).Contents (Elt Ideal)) (a7 a8 : (⟨S1024, .f32⟩ : BufTy).Contents (Elt Ideal)) :
    val_main_v58 (F := Ideal) a0 a1 a2 a3 a4 a5 a6 a7 a8
      = fun idx => refOutOf a0 a1 a2 a3 a4 a5 a6 a7 a8 (idx 0) (idx 1) :=
  funext fun idx => by
    obtain ⟨r, j, rfl⟩ : ∃ (r : Fin 256) (j : Fin 1024), idx = ix2 r j := ⟨idx 0, idx 1, eq_ix2 idx⟩
    exact out_read a0 a1 a2 a3 a4 a5 a6 a7 a8 r j

end Cert.RefSide

end
-- ==== Proof.RefFinite.lean ====
/-
  From the precondition "every float input is finite" to "every entry of every argument is a real number". The
  precondition is printed as one conjunction of nine `all (|a| < +inf)` tests; each test, read back at an index, says the
  entry is neither infinity, and an extended real that is neither infinity is the coercion of a real.
-/
import proofs.«168497_j76398878261811_2_alg».proof.Pre_finite_inputs
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx

/-- The scalar shape has one index. -/
instance : Subsingleton (⟨0, ![]⟩ : Shape).Idx := ⟨fun a b => funext fun d => d.elim0⟩

/-- An extended real whose absolute value is below the word of `+inf` is a real number. -/
theorem real_of_abs_lt_inf (x : EReal)
    (h : FloatOps.cmpf (F := Ideal) (φ := .f32) .olt (FloatOps.hostAbsf x) (FloatOps.ofBits .f32 0x7F800000#32) = 1#1) :
    ∃ v : ℝ, x = (v : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  induction x using EReal.rec with
  | bot => simp at hlt
  | top => simp at hlt
  | coe r => exact ⟨r, rfl⟩

/-- One `all (|a| < +inf)` test that came out true: every entry of `a` is a real number. -/
theorem entries_real_of_all_lt_inf {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1)
    (e : Host.reduce IntOp.andi
          (cmpf .olt (Host.absf a) (broadcastInDim s ![] hb (constant (F := Ideal) (⟨0, ![]⟩ : Shape) .f32 0x7F800000#32)))
          init hr hu ix0 = 1#1) :
    ∀ i, ∃ v : ℝ, a i = (v : EReal) := by
  intro i
  exact real_of_abs_lt_inf (a i) (Host.reduce_andi_all _ init hr hu ix0 e i)

/-- Under the precondition every entry of each of the nine arguments is a real number. -/
theorem args_real [Cert.Pre_finite_inputs.Facts]
    (a0 : FVec Ideal Cert.Pre_finite_inputs.S256x512 .f32) (a1 : FVec Ideal Cert.Pre_finite_inputs.S256x1024 .f32)
    (a2 : FVec Ideal Cert.Pre_finite_inputs.S1024x512 .f32) (a3 : FVec Ideal Cert.Pre_finite_inputs.S1024 .f32)
    (a4 : FVec Ideal Cert.Pre_finite_inputs.S512x1024 .f32) (a5 : FVec Ideal Cert.Pre_finite_inputs.S512 .f32)
    (a6 : FVec Ideal Cert.Pre_finite_inputs.S1024x1024 .f32) (a7 a8 : FVec Ideal Cert.Pre_finite_inputs.S1024 .f32)
    (h : Cert.Pre_finite_inputs.fn (F := Ideal) a0 a1 a2 a3 a4 a5 a6 a7 a8 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, ∃ v : ℝ, a4 i = (v : EReal)) ∧ (∀ i, ∃ v : ℝ, a5 i = (v : EReal))
      ∧ (∀ i, ∃ v : ℝ, a6 i = (v : EReal)) ∧ (∀ i, ∃ v : ℝ, a7 i = (v : EReal)) ∧ (∀ i, ∃ v : ℝ, a8 i = (v : EReal)) := by
  have h0 := congrFun h ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨e0, e1⟩, e2⟩, e3⟩, e4⟩, e5⟩, e6⟩, e7⟩, e8⟩ := h0
  exact ⟨entries_real_of_all_lt_inf a0 _ _ _ _ e0, entries_real_of_all_lt_inf a1 _ _ _ _ e1,
    entries_real_of_all_lt_inf a2 _ _ _ _ e2, entries_real_of_all_lt_inf a3 _ _ _ _ e3,
    entries_real_of_all_lt_inf a4 _ _ _ _ e4, entries_real_of_all_lt_inf a5 _ _ _ _ e5,
    entries_real_of_all_lt_inf a6 _ _ _ _ e6, entries_real_of_all_lt_inf a7 _ _ _ _ e7,
    entries_real_of_all_lt_inf a8 _ _ _ _ e8⟩

end Cert.RefSide

end
-- ==== Proof.BitsR0.lean ====
/-
  Region 0: phi = x · Wpᵀ + bp with cos phi and sin phi, 128 rows of the batch at each of its two grid points.

  Stated at a parameter V, the contents of the core's buffers when the region is entered.  At point t the body reads
  the point's block of x (rows 128 t … 128 t + 127), all of the transposed weights and all of the bias, and stores the
  three results whole into the three output windows' buffers; so after the body each output buffer holds one function of
  the three input blocks, and each input buffer still holds its block.
-/
import proofs.«168497_j76398878261811_2_alg».proof.Proof.Gen.Kernel.Launch
import proofs.«168497_j76398878261811_2_alg».proof.Proof.Gen.Kernel.Skeleton
import proofs.«168497_j76398878261811_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the pipeline fetched it there or the
    block index did not move: rows of x (fetched at both points). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The transposed weights (one block, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias (one block, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX : Rect S128x512 := Rect.unit (s := S128x512) ![0, 0] S128x512.size inb_S128x512_S128x512_0_0
abbrev rW : Rect S512x1024 := Rect.unit (s := S512x1024) ![0, 0] S512x1024.size inb_S512x1024_S512x1024_0_0
abbrev rB : Rect S1024 := Rect.unit (s := S1024) ![0] S1024.size inb_S1024_S1024_0
abbrev rO : Rect S128x1024 := Rect.unit (s := S128x1024) ![0, 0] S128x1024.size inb_S128x1024_S128x1024_0_0

/-- What the body leaves in the three output buffers, from the three input blocks: phi, its cosine, its sine. -/
def phiBlk (x : Vec F S128x512 .f32) (w : Vec F S512x1024 .bf16) (b : Vec F S1024 .f32) : Vec F S128x1024 .f32 :=
  View.canon [⟨rO, k0_pay1 (View.ld x rX) (View.ld w rW) (View.ld b rB)⟩]
def cosBlk (x : Vec F S128x512 .f32) (w : Vec F S512x1024 .bf16) (b : Vec F S1024 .f32) : Vec F S128x1024 .f32 :=
  View.canon [⟨rO, k0_pay2 (View.ld x rX) (View.ld w rW) (View.ld b rB)⟩]
def sinBlk (x : Vec F S128x512 .f32) (w : Vec F S512x1024 .bf16) (b : Vec F S1024 .f32) : Vec F S128x1024 .f32 :=
  View.canon [⟨rO, k0_pay3 (View.ld x rX) (View.ld w rW) (View.ld b rB)⟩]

/-- One whole-buffer store covers the buffer. -/
theorem coverO (p0 : Vec F S128x1024 .f32) (y : S128x1024.Idx) :
    ∃ pc ∈ ([⟨rO, p0⟩] : List (View.Piece (Elt F) S128x1024 .f32)), y ∈ pc.1.set :=
  View.cover_of_tiled [⟨rO, p0⟩] S128x1024.size (by rfl) y

set_option maxHeartbeats 1000000 in
/-- The body on whole buffers: the inputs at x, w, b and the outputs at anything; it runs to the continuation with the
    inputs as they were and the outputs at phi, cos phi, sin phi of the inputs. -/
theorem sound_kernel0 (c : Dev nD) (E : Set ℕ) (i : grid0.Coords)
    (arg1 : Memref sig .tc .vmem S128x512 .f32) (harg1 : arg1.IsWhole) (arg2 : Memref sig .tc .vmem S512x1024 .bf16) (harg2 : arg2.IsWhole)
    (arg3 : Memref sig .tc .vmem S1024 .f32) (harg3 : arg3.IsWhole) (arg4 : Memref sig .tc .vmem S128x1024 .f32) (harg4 : arg4.IsWhole)
    (arg5 : Memref sig .tc .vmem S128x1024 .f32) (harg5 : arg5.IsWhole) (arg6 : Memref sig .tc .vmem S128x1024 .f32) (harg6 : arg6.IsWhole)
    (x : Vec F S128x512 .f32) (w : Vec F S512x1024 .bf16) (b : Vec F S1024 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (phiBlk x w b) ∗ owns (c : Thread nD τ) arg5 fullShare (cosBlk x w b)
            ∗ owns (c : Thread nD τ) arg6 fullShare (sinBlk x w b)) -∗ K ⟨⟩))
      ⊢ wp frame (wpE (defs₀ (F := F)) Variants.none c none) E (cc0__phi_kernel i arg1 harg1 arg2 harg2 arg3 harg3 arg4 harg4 arg5 harg5 arg6 harg6) K := by
  simp only [cc0__phi_kernel_eq_skeleton]; unfold cc0__phi_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  isplitl [H4]
  · iexists _; isplitr
    swap; · iexact H4
    ipureintro
    exact View.read_writes_eq_canon _ _ _ (coverO _)
  iexists _; isplitr
  swap; · iexact H5
  ipureintro
  exact View.read_writes_eq_canon _ _ _ (coverO _)

/-! ## The pipeline's proof data -/

/-- Pipeline 0's proof data on core c: the arrays as the region finds them; after the body at point t each input's
    buffer at its block and the three outputs' at phi, cos phi, sin phi of the point's input blocks; the invariant is the
    buffers the region does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => phiBlk (iblk0 V c 0 t) (iblk0 V c 1 t) (iblk0 V c 2 t)
    | ⟨4, _⟩ => cosBlk (iblk0 V c 0 t) (iblk0 V c 1 t) (iblk0 V c 2 t)
    | ⟨5, _⟩ => sinBlk (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = phiBlk (iblk0 V c 0 t) (iblk0 V c 1 t) (iblk0 V c 2 t) := by dsimp only [dat0]
theorem after0_4 (c : Dev nD) (t : Fin cfg0.N) : (dat0 V c).after 4 t = cosBlk (iblk0 V c 0 t) (iblk0 V c 1 t) (iblk0 V c 2 t) := by dsimp only [dat0]
theorem after0_5 (c : Dev nD) (t : Fin cfg0.N) : (dat0 V c).after 5 t = sinBlk (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsR1.lean ====
/-
  Region 1: ca = prev_ca · 0.95 + (mean over j of the coherence term) · 0.05, one 32 × 128 block at each of its 64 grid
  points (8 row blocks by 8 column blocks).

  Stated at a parameter V, the contents of the core's buffers when the region is entered.  At point (b, i) the body
  reads the (b, i) blocks of cos phi and sin phi, the whole 32-row strips b of cos phi and sin phi, and the (b, i) block
  of prev_ca.  It clears a 32 × 128 scratch accumulator, adds to it over 8 trips of a counted loop the lane sums of
  |cos_i cos_j + sin_i sin_j| for the trip's 128 columns j, and stores prev_ca · 0.95 + acc · 2⁻¹⁰ · 0.05 whole into the
  output buffer.  The accumulator is overwritten whole before it is read, so what the output buffer ends with does not
  depend on what the scratch held; the pieces the output ends with are read off the run.  The cos phi and sin phi arrays
  each stand behind two windows (a block and a strip): each is held at two half shares.
-/
import proofs.«168497_j76398878261811_2_alg».proof.Proof.Gen.Kernel.Launch
import proofs.«168497_j76398878261811_2_alg».proof.Proof.Gen.Kernel.Skeleton
import proofs.«168497_j76398878261811_2_alg».proof.Proof.Gen.Kernel.Points
import proofs.«168497_j76398878261811_2_alg».proof.Proof.Gen.Kernel.Loops
import Idealize.ShloMosaic.Lib.Ring
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body on any buffers: its output's pieces are what the run finds -/

/-- One buffer of the output window, through which its contents are stated (the choice does not matter). -/
abbrev VO1 : View sig .tc .vmem S32x128 .f32 := (Memref.whole cc1_stg5_0 : Memref sig .tc .vmem S32x128 .f32).view
abbrev ms1_0 (t : Fin cfg1.N) : Memref sig .tc .vmem S32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, passed beside the windows. -/
abbrev scM1 : Memref sig .tc .vmem S32x128 .f32 := Memref.whole cc1_scratch0

/-- The region's invariant, conjunct by conjunct: the scoped buffers the region does not stage, each at some contents
    (the scratch accumulator among them), and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc2_stg7_1), ((c : Thread nD τ).loc cc2_stg7_1) ↦{fullShare} f)) ∗ (∃ r, prngReg c r)) := by
  unfold Pipeline.ΦA; rw [scopedRest1_eq]; simp only [scM1, owns_whole]; try rfl

set_option maxHeartbeats 2000000 in
/-- What the body's store leaves in the output buffer, as pieces, WITH the proof that on whole buffers — the inputs at
    their contents, the output and the scratch at anything — the body runs to the continuation holding the inputs as they
    were, the scratch at some contents and the output's buffer with the pieces written. -/
noncomputable def kernelRun1 (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) :
    { L : List (View.Piece (Elt F) S32x128 .f32) //
      ∀ (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ (∃ f, arg7.view.loc (c : Thread nD τ) ↦[arg7.view.set]{fullShare} arg7.view.writes (Elt F) f L)
                ∗ (∃ d, owns (c : Thread nD τ) arg8 fullShare d)) -∗ K ⟨⟩))
          ⊢ wp frame (wpE (defs₀ (F := F)) Variants.none c none) Set.univ
              (cc1__coherence_kernel i arg2 harg2 arg3 harg3 arg4 harg4 arg5 harg5 arg6 harg6 arg7 harg7 arg8 harg8) K } := by
  refine ⟨?_, fun K => ?run⟩
  case run =>
    simp only [cc1__coherence_kernel_eq_skeleton]; unfold cc1__coherence_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _, _; isplitr; swap; · iexact H8
    ipureintro; rfl

/-- The run's pieces for the output tile its block (one whole store), so they cover it. -/
theorem cover1 (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) (y : S32x128.Idx) :
    ∃ pc ∈ (kernelRun1 c i arg2 harg2 arg3 harg3 arg4 harg4 arg5 harg5 arg6 harg6 arg7 harg7 arg8 harg8 x0 x1 x2 x3 x4).1, y ∈ pc.1.set :=
  View.cover_of_tiledL (kernelRun1 c i arg2 harg2 arg3 harg3 arg4 harg4 arg5 harg5 arg6 harg6 arg7 harg7 arg8 harg8 x0 x1 x2 x3 x4).1 S32x128.size (by sl_kernel_rfl) y

/-- What the run leaves in the output's buffer: its pieces read back over junk. -/
def out1 (c : Dev nD) (i : grid1.Coords)
    (arg2 : Memref sig .tc .vmem S32x128 .f32) (harg2 : arg2.IsWhole) (arg3 : Memref sig .tc .vmem S32x128 .f32) (harg3 : arg3.IsWhole)
    (arg4 : Memref sig .tc .vmem S32x1024 .f32) (harg4 : arg4.IsWhole) (arg5 : Memref sig .tc .vmem S32x1024 .f32) (harg5 : arg5.IsWhole)
    (arg6 : Memref sig .tc .vmem S32x128 .f32) (harg6 : arg6.IsWhole) (arg7 : Memref sig .tc .vmem S32x128 .f32) (harg7 : arg7.IsWhole)
    (arg8 : Memref sig .tc .vmem S32x128 .f32) (harg8 : arg8.IsWhole)
    (x0 x1 : Vec F S32x128 .f32) (x2 x3 : Vec F S32x1024 .f32) (x4 : Vec F S32x128 .f32) : Vec F S32x128 .f32 :=
  VO1.read (Elt F) (VO1.writes (Elt F) VO1.junk (kernelRun1 c i arg2 harg2 arg3 harg3 arg4 harg4 arg5 harg5 arg6 harg6 arg7 harg7 arg8 harg8 x0 x1 x2 x3 x4).1)

/-- What the output's buffer holds after the body at point t: the run's contents at the point's buffers and input blocks. -/
def outsAt1 (c : Dev nD) (t : Fin cfg1.N) : Vec F S32x128 .f32 :=
  out1 c (grid1.coords t) (ms1_0 t) (hs1_0 t) (ms1_1 t) (hs1_1 t) (ms1_2 t) (hs1_2 t) (ms1_3 t) (hs1_3 t) (ms1_4 t) (hs1_4 t) (ms1_5 t) (hs1_5 t)
    scM1 (Memref.isWhole_whole _) (iblk1 V c 0 t) (iblk1 V c 1 t) (iblk1 V c 2 t) (iblk1 V c 3 t) (iblk1 V c 4 t)

/-! ## The pipeline's proof data -/

/-- Pipeline 1's proof data on core c: the arrays as the region finds them; after the body at point t each input's
    buffer at its block and the output's at `outsAt1`; the invariant is the buffers the region does not stage (the scratch
    among them) and the generator register; nothing owed.  The cos phi array is held at its left half for the block window
    and its right half for the strip window, and so is the sin phi array; prev_ca at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
/-- The body at any point: the inputs' buffers hold their blocks, so the run applies; the invariant hands the body its
    scratch accumulator and takes it back at whatever the body left; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  unfold out1
  iintro ⟨⟨⟨HR0, HR1, HR2, HR3, HR4, HR5, HR6, HR7, HR8, HR9, HS, HR11, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ _ _ (iblk1 V c 0 t) (iblk1 V c 1 t) (iblk1 V c 2 t) (iblk1 V c 3 t) (iblk1 V c 4 t)).2 _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, HS⟩
  isplitl [HR0 HR1 HR2 HR3 HR4 HR5 HR6 HR7 HR8 HR9 HS HR11 HR12 HR13 HR14 HR15 HR16 HR17 HR18 HR19 HR20 HR21 Hg]
  · isplitl [HR0 HR1 HR2 HR3 HR4 HR5 HR6 HR7 HR8 HR9 HS HR11 HR12 HR13 HR14 HR15 HR16 HR17 HR18 HR19 HR20 HR21]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HS]; · iexact HS
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      iexact HR21
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsR2.lean ====
/-
  Region 2: the gate, the second product and the layer normalisation, 128 rows of the batch at each of its two grid
  points.

  Stated at a parameter V, the contents of the core's buffers when the region is entered.  At point t the body reads
  the point's 128 rows of ca and of phi, and all of the gate weights, the gate bias, the coupling matrix, gamma and
  beta; it stores the normalised rows whole into the output window's buffer.  So after the body that buffer holds one
  function of the seven input blocks, and each input buffer still holds its block.
-/
import proofs.«168497_j76398878261811_2_alg».proof.Proof.Gen.Kernel.Launch
import proofs.«168497_j76398878261811_2_alg».proof.Proof.Gen.Kernel.Skeleton
import proofs.«168497_j76398878261811_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2A : Rect S128x1024 := Rect.unit (s := S128x1024) ![0, 0] S128x1024.size inb_S128x1024_S128x1024_0_0
abbrev r2G : Rect S1024x512 := Rect.unit (s := S1024x512) ![0, 0] S1024x512.size inb_S1024x512_S1024x512_0_0
abbrev r2Bg : Rect S512 := Rect.unit (s := S512) ![0] S512.size inb_S512_S512_0
abbrev r2W : Rect S1024x1024 := Rect.unit (s := S1024x1024) ![0, 0] S1024x1024.size inb_S1024x1024_S1024x1024_0_0
abbrev r2V : Rect S1024 := Rect.unit (s := S1024) ![0] S1024.size inb_S1024_S1024_0

/-- What the body leaves in the output buffer, from the seven input blocks: the normalised rows scaled by gamma, plus beta. -/
def outBlk (ca phi : Vec F S128x1024 .f32) (wg : Vec F S1024x512 .bf16) (bg : Vec F S512 .f32) (ww : Vec F S1024x1024 .bf16)
    (ga be : Vec F S1024 .f32) : Vec F S128x1024 .f32 :=
  View.canon [⟨r2A, k2_pay1 (k2_pay2 (View.ld ca r2A) (View.ld phi r2A) (View.ld wg r2G) (View.ld bg r2Bg) (View.ld ww r2W) (View.ld ga r2V)) (View.ld be r2V)⟩]

/-- One whole-buffer store covers the buffer. -/
theorem cover2 (p0 : Vec F S128x1024 .f32) (y : S128x1024.Idx) :
    ∃ pc ∈ ([⟨r2A, p0⟩] : List (View.Piece (Elt F) S128x1024 .f32)), y ∈ pc.1.set :=
  View.cover_of_tiled [⟨r2A, p0⟩] S128x1024.size (by rfl) y

set_option maxHeartbeats 1000000 in
/-- The body on whole buffers: the inputs at their contents and the output at anything; it runs to the continuation with
    the inputs as they were and the output at `outBlk` of the inputs. -/
theorem sound_kernel2 (c : Dev nD) (E : Set ℕ) (i : grid2.Coords)
    (arg1 : Memref sig .tc .vmem S128x1024 .f32) (harg1 : arg1.IsWhole) (arg2 : Memref sig .tc .vmem S128x1024 .f32) (harg2 : arg2.IsWhole)
    (arg3 : Memref sig .tc .vmem S1024x512 .bf16) (harg3 : arg3.IsWhole) (arg4 : Memref sig .tc .vmem S512 .f32) (harg4 : arg4.IsWhole)
    (arg5 : Memref sig .tc .vmem S1024x1024 .bf16) (harg5 : arg5.IsWhole) (arg6 : Memref sig .tc .vmem S1024 .f32) (harg6 : arg6.IsWhole)
    (arg7 : Memref sig .tc .vmem S1024 .f32) (harg7 : arg7.IsWhole) (arg8 : Memref sig .tc .vmem S128x1024 .f32) (harg8 : arg8.IsWhole)
    (ca phi : Vec F S128x1024 .f32) (wg : Vec F S1024x512 .bf16) (bg : Vec F S512 .f32) (ww : Vec F S1024x1024 .bf16) (ga be : Vec F S1024 .f32)
    (K : PUnit → sProp 𝕄) :
    iprop(owns (c : Thread nD τ) arg1 fullShare ca ∗ owns (c : Thread nD τ) arg2 fullShare phi ∗ owns (c : Thread nD τ) arg3 fullShare wg
        ∗ owns (c : Thread nD τ) arg4 fullShare bg ∗ owns (c : Thread nD τ) arg5 fullShare ww ∗ owns (c : Thread nD τ) arg6 fullShare ga
        ∗ owns (c : Thread nD τ) arg7 fullShare be ∗ (∃ d, owns (c : Thread nD τ) arg8 fullShare d)
        ∗ (iprop(owns (c : Thread nD τ) arg1 fullShare ca ∗ owns (c : Thread nD τ) arg2 fullShare phi ∗ owns (c : Thread nD τ) arg3 fullShare wg
            ∗ owns (c : Thread nD τ) arg4 fullShare bg ∗ owns (c : Thread nD τ) arg5 fullShare ww ∗ owns (c : Thread nD τ) arg6 fullShare ga
            ∗ owns (c : Thread nD τ) arg7 fullShare be ∗ owns (c : Thread nD τ) arg8 fullShare (outBlk ca phi wg bg ww ga be)) -∗ K ⟨⟩))
      ⊢ wp frame (wpE (defs₀ (F := F)) Variants.none c none) E
          (cc2__final_kernel i arg1 harg1 arg2 harg2 arg3 harg3 arg4 harg4 arg5 harg5 arg6 harg6 arg7 harg7 arg8 harg8) K := by
  simp only [cc2__final_kernel_eq_skeleton]; unfold cc2__final_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-! ## The pipeline's proof data -/

/-- Pipeline 2's proof data on core c: the arrays as the region finds them; after the body at point t each input's
    buffer at its block and the output's at `outBlk` of the point's input blocks; the invariant is the buffers the region
    does not stage and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outBlk (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = outBlk (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsShare1.lean ====
/-
  Region 1's arrays at its entry and its exit.

  Its six windows stand on four buffers: cos phi behind windows 0 (a block) and 2 (a strip), sin phi behind windows 1
  and 3, prev_ca behind window 4 and the output ca behind window 5.  The distinct buffers, each whole at the full share,
  are the six windows' terms at the windows' shares: cos phi and sin phi each cut into a left and a right half share, the
  other two as they are.  The same equivalence serves the entry (buffers to windows) and the exit (windows to buffers).
-/
import proofs.«168497_j76398878261811_2_alg».proof.Proof.BitsR1
import proofs.«168497_j76398878261811_2_alg».proof.Proof.LibSharedPairs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! Each window's term in the arrays' conjunction is its array's buffer, whole, at the given share. -/
theorem arrTerm1_0 (c : Dev nD) (q : PosShare TreeShare) (f : Buf (Elt F) ((cfg1.win (0 : Fin 6)).arr.view.loc (c.tc : Thread nD τ))) :
    (((cfg1.win (0 : Fin 6)).arr.view.loc (c.tc : Thread nD τ)) ↦[(cfg1.win (0 : Fin 6)).arr.view.set]{q} f : sProp 𝕄)
      = (((c.tc : Thread nD τ).loc main_v5_1) ↦{q} f) := by
  rw [(arr_whole1 0).set_eq_univ]
theorem arrTerm1_1 (c : Dev nD) (q : PosShare TreeShare) (f : Buf (Elt F) ((cfg1.win (1 : Fin 6)).arr.view.loc (c.tc : Thread nD τ))) :
    (((cfg1.win (1 : Fin 6)).arr.view.loc (c.tc : Thread nD τ)) ↦[(cfg1.win (1 : Fin 6)).arr.view.set]{q} f : sProp 𝕄)
      = (((c.tc : Thread nD τ).loc main_v5_2) ↦{q} f) := by
  rw [(arr_whole1 1).set_eq_univ]
theorem arrTerm1_2 (c : Dev nD) (q : PosShare TreeShare) (f : Buf (Elt F) ((cfg1.win (2 : Fin 6)).arr.view.loc (c.tc : Thread nD τ))) :
    (((cfg1.win (2 : Fin 6)).arr.view.loc (c.tc : Thread nD τ)) ↦[(cfg1.win (2 : Fin 6)).arr.view.set]{q} f : sProp 𝕄)
      = (((c.tc : Thread nD τ).loc main_v5_1) ↦{q} f) := by
  rw [(arr_whole1 2).set_eq_univ]
theorem arrTerm1_3 (c : Dev nD) (q : PosShare TreeShare) (f : Buf (Elt F) ((cfg1.win (3 : Fin 6)).arr.view.loc (c.tc : Thread nD τ))) :
    (((cfg1.win (3 : Fin 6)).arr.view.loc (c.tc : Thread nD τ)) ↦[(cfg1.win (3 : Fin 6)).arr.view.set]{q} f : sProp 𝕄)
      = (((c.tc : Thread nD τ).loc main_v5_2) ↦{q} f) := by
  rw [(arr_whole1 3).set_eq_univ]
theorem arrTerm1_4 (c : Dev nD) (q : PosShare TreeShare) (f : Buf (Elt F) ((cfg1.win (4 : Fin 6)).arr.view.loc (c.tc : Thread nD τ))) :
    (((cfg1.win (4 : Fin 6)).arr.view.loc (c.tc : Thread nD τ)) ↦[(cfg1.win (4 : Fin 6)).arr.view.set]{q} f : sProp 𝕄)
      = (((c.tc : Thread nD τ).loc main_arg1) ↦{q} f) := by
  rw [(arr_whole1 4).set_eq_univ]
theorem arrTerm1_5 (c : Dev nD) (q : PosShare TreeShare) (f : Buf (Elt F) ((cfg1.win (5 : Fin 6)).arr.view.loc (c.tc : Thread nD τ))) :
    (((cfg1.win (5 : Fin 6)).arr.view.loc (c.tc : Thread nD τ)) ↦[(cfg1.win (5 : Fin 6)).arr.view.set]{q} f : sProp 𝕄)
      = (((c.tc : Thread nD τ).loc main_v6) ↦{q} f) := by
  rw [(arr_whole1 5).set_eq_univ]

/-! The shares the six windows hold their arrays at. -/
theorem share1_0 (c : Dev nD) : (dat1 V c).share (0 : Fin 6) = fullShare.left := rfl
theorem share1_1 (c : Dev nD) : (dat1 V c).share (1 : Fin 6) = fullShare.left := rfl
theorem share1_2 (c : Dev nD) : (dat1 V c).share (2 : Fin 6) = fullShare.right := rfl
theorem share1_3 (c : Dev nD) : (dat1 V c).share (3 : Fin 6) = fullShare.right := rfl
theorem share1_4 (c : Dev nD) : (dat1 V c).share (4 : Fin 6) = fullShare := rfl
theorem share1_5 (c : Dev nD) : (dat1 V c).share (5 : Fin 6) = fullShare := rfl

/-- The four buffers behind region 1's windows, whole at contents V', are its six windows' terms at contents that read
    V' at each window's array. -/
theorem arrBufs1_iff (c : Dev nD) (V' : (b : Ref sig .tc) → Buf (Elt F) ((c : Thread nD τ).loc b))
    (Fw : (w : Fin cfg1.W) → Buf (Elt F) ((cfg1.win w).arr.view.loc (c.tc : Thread nD τ)))
    (h0 : Fw (0 : Fin 6) = V' main_v5_1) (h1 : Fw (1 : Fin 6) = V' main_v5_2) (h2 : Fw (2 : Fin 6) = V' main_v5_1)
    (h3 : Fw (3 : Fin 6) = V' main_v5_2) (h4 : Fw (4 : Fin 6) = V' main_arg1) (h5 : Fw (5 : Fin 6) = V' main_v6) :
    (Pipeline.arrBufs spec1 c V' : sProp 𝕄) ⊣⊢ (dat1 V c).arrays Fw := by
  unfold Pipeline.arrBufs Dat.arrays
  rw [bigSep_eq_bigSepL_of_eq [main_v5_1, main_v5_2, main_arg1, main_v6] (by decide) (by decide), bigSep_W1]
  simp only [bigSepL, View.set_whole, arrTerm1_0, arrTerm1_1, arrTerm1_2, arrTerm1_3, arrTerm1_4, arrTerm1_5,
    share1_0, share1_1, share1_2, share1_3, share1_4, share1_5, h0, h1, h2, h3, h4, h5]
  refine Cert.Lib.sep4_iff_sep6 ?_ ?_ ?_ ?_
  · exact pointsTo_share (PosShare.mem_left_op_right fullShare)
  · exact pointsTo_share (PosShare.mem_left_op_right fullShare)
  · exact .rfl
  · exact .rfl

end Cert.Kernel.Hand

end
-- ==== Proof.BitsRun.lean ====
/-
  The run (the kernel as printed, read at the word level): the program from the launch to the return, as one host stretch and three regions.

  The core's buffer contents are followed through the program: as launched; after the host stretch (the two weight
  matrices transposed, three format changes); after region 0, with phi, cos phi and sin phi at what its two points wrote
  back; after region 1, with ca at what its 64 points wrote back; after region 2, with the result.  Each region is entered
  from every unscoped buffer held at the contents before it and left at the contents after it.  Every weakly fair
  execution then terminates, and the final memory holds every unscoped buffer at the last contents: the frame and the
  results are read off that.
-/
import proofs.«168497_j76398878261811_2_alg».proof.Proof.BitsR0
import proofs.«168497_j76398878261811_2_alg».proof.Proof.BitsR1
import proofs.«168497_j76398878261811_2_alg».proof.Proof.BitsR2
import proofs.«168497_j76398878261811_2_alg».proof.Proof.BitsShare1
import proofs.«168497_j76398878261811_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the host stretch: region 0's entry. -/
abbrev Wh : Dev nD → Valuation τ sig (Elt F) := fun c => StableHlo.after hostOps0 (W0 m c)
abbrev Vh : (c : Dev nD) → (b : Ref sig .tc) → Buf (Elt F) ((c : Thread nD τ).loc b) := fun c b => Wh m c b

/-- At region 0's exit: its arrays at what the pipeline leaves, every other buffer as entered. -/
def W1 (c : Dev nD) : Valuation τ sig (Elt F) :=
  Pipeline.withArrays spec0 c (Wh m c) fun w => (dat0 (Vh m) c).arrAt w cfg0.N
theorem W1_arr (c : Dev nD) (w : Fin cfg0.W) :
    W1 m c (Proc.devRef .tc (Pipeline.arrRef spec0 w)) = (dat0 (Vh m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = Wh m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (Vh m) c).arrAt w cfg0.N = V1 m c (Pipeline.arrRef spec0 w) :=
  (W1_arr m c w).symm
theorem hrest0 (c : Dev nD) : ∀ b, b ∉ Finset.univ.image (Pipeline.arrRef spec0) → V1 m c b = Vh m c b :=
  fun b hb => W1_of_ne m c b fun w e => hb (Finset.mem_image.mpr ⟨w, Finset.mem_univ _, e⟩)

/-- At region 1's exit: ca at what the pipeline leaves, every other buffer as entered (its other arrays are inputs). -/
def W2 (c : Dev nD) : Valuation τ sig (Elt F) :=
  Function.update (W1 m c) (Proc.devRef .tc main_v6) ((dat1 (V1 m) c).arrAt 5 cfg1.N)
theorem W2_v6 (c : Dev nD) : W2 m c (Proc.devRef .tc main_v6) = (dat1 (V1 m) c).arrAt 5 cfg1.N := by
  unfold W2; exact Function.update_self ..
theorem W2_of_ne (c : Dev nD) (b : Ref sig .tc) (hb : b ≠ main_v6) :
    W2 m c (Proc.devRef .tc b) = W1 m c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m c b
/-- Each of region 1's arrays ends at the new contents: the inputs as entered, ca as written back. -/
theorem hF1 (c : Dev nD) : ∀ w : Fin cfg1.W, (dat1 (V1 m) c).arrAt w cfg1.N = V2 m c (Pipeline.arrRef spec1 w)
  | ⟨0, _⟩ => (((dat1 (V1 m) c).arrAt_in 0 rfl _).trans (A_eq1 (V1 m) c 0)).trans (W2_of_ne m c main_v5_1 (by decide)).symm
  | ⟨1, _⟩ => (((dat1 (V1 m) c).arrAt_in 1 rfl _).trans (A_eq1 (V1 m) c 1)).trans (W2_of_ne m c main_v5_2 (by decide)).symm
  | ⟨2, _⟩ => (((dat1 (V1 m) c).arrAt_in 2 rfl _).trans (A_eq1 (V1 m) c 2)).trans (W2_of_ne m c main_v5_1 (by decide)).symm
  | ⟨3, _⟩ => (((dat1 (V1 m) c).arrAt_in 3 rfl _).trans (A_eq1 (V1 m) c 3)).trans (W2_of_ne m c main_v5_2 (by decide)).symm
  | ⟨4, _⟩ => (((dat1 (V1 m) c).arrAt_in 4 rfl _).trans (A_eq1 (V1 m) c 4)).trans (W2_of_ne m c main_arg1 (by decide)).symm
  | ⟨5, _⟩ => (W2_v6 m c).symm
  | ⟨_ + 6, h⟩ => absurd h (Nat.not_lt.2 (Nat.le_add_left _ _))
theorem hrest1 (c : Dev nD) : ∀ b, b ∉ Finset.univ.image (Pipeline.arrRef spec1) → V2 m c b = V1 m c b :=
  fun b hb => W2_of_ne m c b fun e => hb (Finset.mem_image.mpr ⟨5, Finset.mem_univ _, e.symm⟩)

/-- At region 2's exit: its arrays at what the pipeline leaves, every other buffer as entered. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vh m) c
  | ⟨1, _⟩ => fun c => dat1 (V1 m) c
  | ⟨2, _⟩ => fun c => dat2 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- The host stretch as a segment over the unscoped buffers from the launch contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- REGION 0 as a segment: entered from every unscoped buffer at `Wh`, left at `W1`.  Its arrays are split out
    of the unscoped buffers at the entry and put back at the exit contents; the generator register goes into the region's
    invariant and comes out; nothing is owed; the kernel names no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vh m) c).loose
  hwaits := Pipeline.hwaits_of_owed_zero _ _ _ _ L lv 0 fun _ _ => rfl
  pre c := iprop(StableHlo.held (c : Thread nD τ) (Pipeline.ucRefs τ sig) (Wh m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vh m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vh m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vh m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 as a segment: entered from every unscoped buffer at `W1`, left at `W2`.  The four buffers behind its six
    windows are split out of the unscoped buffers, cos phi and sin phi each cut into the two half shares their two
    windows hold, and joined again at the exit, ca at what the pipeline wrote back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs c (V1 m c) : sProp 𝕄)
        = iprop((Pipeline.arrBufs spec1 c (V1 m c) : sProp 𝕄) ∗ Pipeline.unscopedRest spec1 c (V1 m c)) :=
      Pipeline.unscopedBufs_split₀ (Pipeline.pin (pcfgs (F := F)) adm) 1 winFacts₀1.arr_unscoped c (V1 m c)
    rw [Pipeline.unscopedBufs_held] at hsplit
    have hcut := (arrBufs1_iff (V1 m) c (V1 m c) ((pdats m 1 c).arrAt · 0) rfl rfl rfl rfl rfl rfl).1
    iintro ⟨⟨Hub, Hp, HO⟩, -, -⟩
    ihave H := (Entails.of_eq hsplit) $$ Hub
    icases H with ⟨Hb, Hrest⟩
    ihave Ha := hcut $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsplit : (unscopedBufs c (V2 m c) : sProp 𝕄)
        = iprop((Pipeline.arrBufs spec1 c (V2 m c) : sProp 𝕄) ∗ Pipeline.unscopedRest spec1 c (V2 m c)) :=
      Pipeline.unscopedBufs_split₀ (Pipeline.pin (pcfgs (F := F)) adm) 1 winFacts₀1.arr_unscoped c (V2 m c)
    rw [Pipeline.unscopedBufs_held] at hsplit
    have hjoin : ((pdats m 1 c).arrays ((pdats m 1 c).arrAt · (Pipeline.pin (pcfgs (F := F)) adm 1).N) : sProp 𝕄)
        ⊢ Pipeline.arrBufs spec1 c (V2 m c) :=
      (arrBufs1_iff (V1 m) c (V2 m c) ((pdats m 1 c).arrAt · cfg1.N) (hF1 m c 0) (hF1 m c 1) (hF1 m c 2) (hF1 m c 3) (hF1 m c 4) (hF1 m c 5)).2
    have hrest : (Pipeline.unscopedRest (Ix := Unit) (Name := ℕ) (U := UR sig nD τ) (Lvl := ℕ) spec1 c (V1 m c) : sProp 𝕄)
        = Pipeline.unscopedRest spec1 c (V2 m c) := by
      unfold Pipeline.unscopedRest
      exact bigSep_congr fun b hb => by rw [hrest1 m c b (Finset.mem_sdiff.mp hb).2]
    iintro ⟨Ha, HO, HY, Hrest⟩
    ihave Hb := hjoin $$ Ha
    ihave Hrest' := (Entails.of_eq hrest) $$ Hrest
    imodintro
    isplitl [Hb Hrest']
    · iapply (Entails.of_eq hsplit.symm); isplitl [Hb] <;> iassumption
    isplitl [HY]; · iexact HY
    unfold Pipeline.Dat.owesAt Pipeline.owesWithin
    icases HO with ⟨%W, -, HO⟩; iexists W; iexact HO

set_option backward.isDefEq.respectTransparency.types false in
/-- REGION 2 as a segment: entered from every unscoped buffer at `W2`, left at `W3`.  Its arrays are split out
    of the unscoped buffers at the entry and put back at the exit contents; the generator register goes into the region's
    invariant and comes out; nothing is owed; the kernel names no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) adm (pdats m) () defs₀ 𝒱₀ L lv) :=
  [ .host (hseg m),
    .region (reg0 m),
    .region (reg1 m),
    .region (reg2 m) ]
/-- The program IS the run of the segments. -/
theorem main_run (c : Dev nD) : main (F := F) c = Pipeline.Seg.run (segs m) := (main_chain c).trans (by chain_rfl)

set_option backward.isDefEq.respectTransparency.types false in
/-- THE RUN.  From any memory with zero counters every weakly fair execution of the program terminates, nothing
    faulting, and the final memory holds every unscoped buffer of every core at the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Hand

end
-- ==== Proof.BitsFrame.lean ====
/-
  The frame: the nine arguments end as launched.

  No host operation writes an argument and no region's output window stands on one: a region reads an argument through
  an input window, whose array ends as entered, or does not touch it.  So the last contents at an argument's buffer walk
  back, boundary by boundary, to the launch memory.
-/
import proofs.«168497_j76398878261811_2_alg».proof.Proof.BitsRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = Wh m c (Proc.devRef .tc main_arg0) := (W1_arr m c 0).trans (((dat0 (Vh m) c).arrAt_in 0 rfl _).trans (A_eq0 (Vh m) c 0))
    _ = m ((c : Thread nD τ).loc main_arg0) := Gen.V1_of m c main_arg0 (by decide)

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = Wh m c (Proc.devRef .tc main_arg1) := W1_of_ne m c main_arg1 (by decide)
    _ = m ((c : Thread nD τ).loc main_arg1) := Gen.V1_of m c main_arg1 (by decide)

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = Wh m c (Proc.devRef .tc main_arg2) := W1_of_ne m c main_arg2 (by decide)
    _ = m ((c : Thread nD τ).loc main_arg2) := Gen.V1_of m c main_arg2 (by decide)

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = Wh m c (Proc.devRef .tc main_arg3) := (W1_arr m c 2).trans (((dat0 (Vh m) c).arrAt_in 2 rfl _).trans (A_eq0 (Vh m) c 2))
    _ = m ((c : Thread nD τ).loc main_arg3) := Gen.V1_of m c main_arg3 (by decide)

theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = Wh m c (Proc.devRef .tc main_arg4) := W1_of_ne m c main_arg4 (by decide)
    _ = m ((c : Thread nD τ).loc main_arg4) := Gen.V1_of m c main_arg4 (by decide)

theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 3).trans (((dat2 (V2 m) c).arrAt_in 3 rfl _).trans (A_eq2 (V2 m) c 3))
    _ = W1 m c (Proc.devRef .tc main_arg5) := W2_of_ne m c main_arg5 (by decide)
    _ = Wh m c (Proc.devRef .tc main_arg5) := W1_of_ne m c main_arg5 (by decide)
    _ = m ((c : Thread nD τ).loc main_arg5) := Gen.V1_of m c main_arg5 (by decide)

theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = Wh m c (Proc.devRef .tc main_arg6) := W1_of_ne m c main_arg6 (by decide)
    _ = m ((c : Thread nD τ).loc main_arg6) := Gen.V1_of m c main_arg6 (by decide)

theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 5).trans (((dat2 (V2 m) c).arrAt_in 5 rfl _).trans (A_eq2 (V2 m) c 5))
    _ = W1 m c (Proc.devRef .tc main_arg7) := W2_of_ne m c main_arg7 (by decide)
    _ = Wh m c (Proc.devRef .tc main_arg7) := W1_of_ne m c main_arg7 (by decide)
    _ = m ((c : Thread nD τ).loc main_arg7) := Gen.V1_of m c main_arg7 (by decide)

theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 6).trans (((dat2 (V2 m) c).arrAt_in 6 rfl _).trans (A_eq2 (V2 m) c 6))
    _ = W1 m c (Proc.devRef .tc main_arg8) := W2_of_ne m c main_arg8 (by decide)
    _ = Wh m c (Proc.devRef .tc main_arg8) := W1_of_ne m c main_arg8 (by decide)
    _ = m ((c : Thread nD τ).loc main_arg8) := Gen.V1_of m c main_arg8 (by decide)

/-- Every weakly fair execution terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c)⟩)
    (run_all m ρ)

end Cert.Kernel.Hand

end
-- ==== Proof.lean ====
/- The certificate: three programs run to the end with their arguments unchanged, the idealized kernel is the kernel's own
   text read over the extended reals (no operation of it was rewritten), and the idealized kernel and reference agree.

   The mathematics.  Write phi = x · Wpᵀ + bp (a [256,1024] array).  Both programs return
     ca  = prev_ca · 0.95 + (mean over j of |cos(phi_i − phi_j)|) · 0.05,
     out = layernorm(phi · W ⊙ [g, g] + phi) · gamma + beta,   g = sigmoid(ca · Wgᵀ + bg),
   and W itself.  The kernel computes them in three pipelined regions: (0) phi, cos phi and sin phi, 128 rows at a point;
   (1) ca, a 32×128 block at a point, the sum over j accumulated in a scratch buffer over 8 slices of 128 columns, each
   term as |cos phi_i · cos phi_j + sin phi_i · sin phi_j|; (2) out, 128 rows at a point.  On real phi the two spellings
   of the coherence term agree by the angle-difference law, which is where finiteness of the inputs is used; the mean is
   a product with 2⁻¹⁰ on one side and a quotient by 1024 on the other; the sigmoid is one function spelt two ways. -/
import proofs.«168497_j76398878261811_2_alg».proof.Defs
import proofs.«168497_j76398878261811_2_alg».proof.Proof.Gen.Kernel
import proofs.«168497_j76398878261811_2_alg».proof.Proof.Gen.Kernel.Skeleton
import proofs.«168497_j76398878261811_2_alg».proof.Proof.Gen.Kernel.Loops
import proofs.«168497_j76398878261811_2_alg».proof.Proof.Gen.Kernel.Launch
import proofs.«168497_j76398878261811_2_alg».proof.Proof.Gen.Kernel.Regions
import proofs.«168497_j76398878261811_2_alg».proof.Proof.Gen.Kernel.Points
import proofs.«168497_j76398878261811_2_alg».proof.Proof.Gen.KernelIdeal
import proofs.«168497_j76398878261811_2_alg».proof.Proof.Gen.KernelIdeal.Skeleton
import proofs.«168497_j76398878261811_2_alg».proof.Proof.Gen.KernelIdeal.Loops
import proofs.«168497_j76398878261811_2_alg».proof.Proof.Gen.KernelIdeal.Launch
import proofs.«168497_j76398878261811_2_alg».proof.Proof.Gen.KernelIdeal.Regions
import proofs.«168497_j76398878261811_2_alg».proof.Proof.Gen.KernelIdeal.Points
import proofs.«168497_j76398878261811_2_alg».proof.Proof.Gen.ReferenceIdeal
import proofs.«168497_j76398878261811_2_alg».proof.Proof.Gen.Pre_finite_inputs
import proofs.«168497_j76398878261811_2_alg».proof.Proof.Gen.ReferenceIdeal.Run
import proofs.«168497_j76398878261811_2_alg».proof.Proof.Gen.ReferenceIdeal.Read
import proofs.«168497_j76398878261811_2_alg».proof.Proof.IdealFrame
import proofs.«168497_j76398878261811_2_alg».proof.Proof.IdealBridge
import proofs.«168497_j76398878261811_2_alg».proof.Proof.RefRead
import proofs.«168497_j76398878261811_2_alg».proof.Proof.RefFinite
import proofs.«168497_j76398878261811_2_alg».proof.Proof.BitsFrame
import Idealize.ShloMosaic.Adequacy
import Idealize.ShloMosaic.Init

noncomputable section

namespace Cert.Proof

open Idealize.ShloMosaic Idealize.SL.Sem Cert.Kernel

/-- The reference is a straight line of host operations: it runs to the end, and no operation writes an argument. -/
theorem frame_ri : Cert.frame_ReferenceIdeal := fun m ρ _ =>
  (θ_run Cert.ReferenceIdeal.defs _ _).mono (fun _ h c => (h c).2.2.2) (Cert.ReferenceIdeal.Value.run (F := Ideal) m ρ)

/-- No operation of the kernel was rewritten in its idealization, so there is nothing to restate. -/
theorem preserves : Cert.preserves_Kernel_KernelIdeal := trivial

/-- The kernel's three regions run to the end at the word level and leave the nine arguments as launched. -/
theorem frame_k : Cert.frame_Kernel := fun m ρ _ => Cert.Kernel.Hand.frame (F := Bits) m ρ

/-- The same at the extended reals. -/
theorem frame_ki : Cert.frame_KernelIdeal := fun m ρ _ => Cert.KernelIdeal.Hand.frame (F := Ideal) m ρ

/-- Both idealized programs end with equal results on finite inputs.  The common values are the kernel's own final
    contents: the kernel's run ends at them by construction, and the reference's run ends at its composed term, which is the
    reference's index-by-index function of the arguments, which the kernel's contents are too. -/
theorem algebraic : Cert.algebraic_KernelIdeal_ReferenceIdeal := by
  intro m ρ m' ρ' hpre hagree
  refine ⟨fun c => Cert.KernelIdeal.Hand.W3 (F := Ideal) m c (Proc.devRef .tc Cert.KernelIdeal.main_v7),
    fun c => Cert.KernelIdeal.Hand.W3 (F := Ideal) m c (Proc.devRef .tc Cert.KernelIdeal.main_v6),
    fun c => m ((c.tc : Thread Cert.KernelIdeal.nD Cert.KernelIdeal.τ).loc Cert.KernelIdeal.main_arg6), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v7 (by decide)),
      h c _ (Cert.KernelIdeal.Hand.mem_uc Cert.KernelIdeal.main_v6 (by decide)),
      (h c _ (Cert.KernelIdeal.Hand.mem_uc Cert.KernelIdeal.main_arg6 (by decide))).trans (Cert.KernelIdeal.Hand.W3_main_arg6 m c),
      (h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c),
      (h c _ (Cert.KernelIdeal.Hand.mem_uc Cert.KernelIdeal.main_arg4 (by decide))).trans (Cert.KernelIdeal.Hand.W3_main_arg4 m c),
      (h c _ (Cert.KernelIdeal.Hand.mem_uc Cert.KernelIdeal.main_arg5 (by decide))).trans (Cert.KernelIdeal.Hand.W3_main_arg5 m c),
      (h c _ (Cert.KernelIdeal.Hand.mem_uc Cert.KernelIdeal.main_arg6 (by decide))).trans (Cert.KernelIdeal.Hand.W3_main_arg6 m c),
      (h c _ (Cert.KernelIdeal.Hand.mem_uc Cert.KernelIdeal.main_arg7 (by decide))).trans (Cert.KernelIdeal.Hand.W3_main_arg7 m c),
      (h c _ (Cert.KernelIdeal.Hand.mem_uc Cert.KernelIdeal.main_arg8 (by decide))).trans (Cert.KernelIdeal.Hand.W3_main_arg8 m c)⟩
  · refine (θ_run Cert.ReferenceIdeal.defs _ _).mono (fun r h c => ?_) (Cert.ReferenceIdeal.Value.run (F := Ideal) m' ρ')
    obtain ⟨g0, g1, g2, g3, g4, g5, g6, g7, g8⟩ := hagree c
    obtain ⟨hx, -, hW, hb, -⟩ := Cert.RefSide.args_real _ _ _ _ _ _ _ _ _ (hpre c)
    refine ⟨?_, ?_, ?_, (h c).2.2.2⟩
    · refine ((h c).1.trans (Cert.ReferenceIdeal.Read.val_main_v58_eq m' c)).trans ?_
      rw [Cert.RefSide.out_read_fun, g0, g1, g2, g3, g4, g5, g6, g7, g8]
      exact (Cert.KernelIdeal.Hand.out_value m c hx hW hb).symm
    · refine ((h c).2.1.trans (Cert.ReferenceIdeal.Read.val_main_v19_eq _ _ _ _)).trans ?_
      rw [Cert.RefSide.ca_read_fun, g0, g1, g2, g3]
      exact (Cert.KernelIdeal.Hand.ca_value m c hx hW hb).symm
    · rw [(h c).2.2.1, g6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
